-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S3x3 : S_.BroadcastsInDim S3x3 (![] : Fin 0 → Fin S3x3.rank)
  reducesTo_S3x3_S_d0_1 : S3x3.ReducesTo [0, 1] S_

variable [Facts]

def fn_part2 {F : FTy → Type} [FloatOps F] (main_arg7 : FVec F S128x1 .f32) (main_arg8 : FVec F S128x1 .f32) (main_arg9 : FVec F S3x3 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S3x3 .f32 := Host.absf main_arg9
  let main_cst_16 : FVec F S_ .f32 := constant S_ .f32 0x7F800000#32
  let main_v45 : FVec F S3x3 .f32 := broadcastInDim S3x3 ![] bcast_S_S3x3 main_cst_16
  let main_v46 : IVec S3x3 1 := cmpf .olt main_v44 main_v45
  let main_c_17 : IVec S_ 1 := constantI S_ 1 1#1
  let main_v47 : IVec S_ 1 := (fun x v => Host.reduce IntOp.andi x v reducesTo_S3x3_S_d0_1 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128x1 .f32) (main_arg7 : FVec F S128x1 .f32) (main_arg8 : FVec F S128x1 .f32) (main_arg9 : FVec F S3x3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) (main_arg5 : FVec F S128x128 .f32) (main_arg6 : FVec F S128x1 .f32) (main_arg7 : FVec F S128x1 .f32) (main_arg8 : FVec F S128x1 .f32) (main_arg9 : FVec F S3x3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S200x5120 : Shape := ⟨2, ![200, 5120]⟩
abbrev S200x128 : Shape := ⟨2, ![200, 128]⟩
abbrev S10240x128 : Shape := ⟨2, ![10240, 128]⟩
abbrev S240x128 : Shape := ⟨2, ![240, 128]⟩
abbrev S5120x128 : Shape := ⟨2, ![5120, 128]⟩
abbrev S200x1 : Shape := ⟨2, ![200, 1]⟩
abbrev S200x3 : Shape := ⟨2, ![200, 3]⟩
abbrev S200 : Shape := ⟨1, ![200]⟩

abbrev nBuf : Space → Nat
  | .hbm => 11
  | .vmem => 20
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S3x3, .f32⟩
  | .hbm, ⟨10, _⟩ => ⟨S10000x128, .f32⟩
  | .local _ .vmem, ⟨0, _⟩ => ⟨S200x5120, .f32⟩
  | .local _ .vmem, ⟨1, _⟩ => ⟨S200x5120, .f32⟩
  | .local _ .vmem, ⟨2, _⟩ => ⟨S200x5120, .f32⟩
  | .local _ .vmem, ⟨3, _⟩ => ⟨S200x5120, .f32⟩
  | .local _ .vmem, ⟨4, _⟩ => ⟨S200x5120, .f32⟩
  | .local _ .vmem, ⟨5, _⟩ => ⟨S200x5120, .f32⟩
  | .local _ .vmem, ⟨6, _⟩ => ⟨S200x5120, .f32⟩
  | .local _ .vmem, ⟨7, _⟩ => ⟨S200x5120, .f32⟩
  | .local _ .vmem, ⟨8, _⟩ => ⟨S10000x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S3x3, .f32⟩
  | .local _ .vmem, ⟨16, _⟩ => ⟨S200x128, .f32⟩
  | .local _ .vmem, ⟨17, _⟩ => ⟨S200x128, .f32⟩
  | .local _ .vmem, ⟨18, _⟩ => ⟨S10240x128, .f32⟩
  | .local _ .vmem, ⟨19, _⟩ => ⟨S10240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v28 : BitVec 32 := Scalar.muli arg0 c200_i32
  let v29 : Index := Scalar.indexCast v28
  let c0_22 : Index := 0#32
  ![v29.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S200x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S10240x128_S10000x128_0_0 : ∀ a, (![0, 0] : Fin 2 → Nat) a + S10000x128.size a ≤ S10240x128.size a
  shapeCasts_S10000x128_S10000x128 : S10000x128.ShapeCasts S10000x128
  inb_S10240x128_S240x128_10000_0 : ∀ a, (![10000, 0] : Fin 2 → Nat) a + S240x128.size a ≤ S10240x128.size a
  h_S240x128 : 0 < S240x128.numel
  shapeCasts_S240x128_S240x128 : S240x128.ShapeCasts S240x128
  iota_S200x5120_d1_w32 : S200x5120.Iotas .tc 32 [1]
  inb_S200x5120_S200x5120_0_0 : ∀ a, (![0, 0] : Fin 2 → Nat) a + S200x5120.size a ≤ S200x5120.size a
  h_S200x5120 : 0 < S200x5120.numel
  inb_S10240x128_S5120x128_0_0 : ∀ a, (![0, 0] : Fin 2 → Nat) a + S5120x128.size a ≤ S10240x128.size a
  h_S5120x128 : 0 < S5120x128.numel
  inb_S10240x128_S5120x128_5120_0 : ∀ a, (![5120, 0] : Fin 2 → Nat) a + S5120x128.size a ≤ S10240x128.size a
  h_S200x128 : 0 < S200x128.numel
  inb_S128x1_S128x1_0_0 : ∀ a, (![0, 0] : Fin 2 → Nat) a + S128x1.size a ≤ S128x1.size a
  h_S128x1 : 0 < S128x1.numel
  concatenates_S200x1_S200x1_S200x1_S200x3_d1 : Shape.Concatenates [S200x1, S200x1, S200x1] S200x3 1
  inb_S3x3_S3x3_0_0 : ∀ a, (![0, 0] : Fin 2 → Nat) a + S3x3.size a ≤ S3x3.size a
  h_S3x3 : 0 < S3x3.numel
  reduces_S200x3_S200 : S200x3.Reduces [1] S200
  shapeCasts_S200_S200x1 : S200.ShapeCasts S200x1
  broadcasts_S200x1_S200x3 : S200x1.Broadcasts S200x3
  slices_S200x3_o0_0_S200x1 : S200x3.Slices ![0, 0] S200x1
  broadcasts_S200x1_S200x128 : S200x1.Broadcasts S200x128
  slices_S200x3_o0_1_S200x1 : S200x3.Slices ![0, 1] S200x1
  slices_S200x3_o0_2_S200x1 : S200x3.Slices ![0, 2] S200x1
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x5120_S5120x128_S200x128_1_0_0_1_n_n_wf : DotDims.WF S200x5120 S5120x128 S200x128 [1] [0] [0] [1] [] []
  dot_S200x128_S128x128_S200x128_1_0_0_1_n_n_wf : DotDims.WF S200x128 S128x128 S200x128 [1] [0] [0] [1] [] []
  dot_S200x128_S128x1_S200x1_1_0_0_1_n_n_wf : DotDims.WF S200x128 S128x1 S200x1 [1] [0] [0] [1] [] []
  dot_S200x3_S3x3_S200x3_1_0_0_1_n_n_wf : DotDims.WF S200x3 S3x3 S200x3 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S200x5120.size a < S10000x10000.size a
  hwx0_0 : ∀ i : grid0.Coords, EltTy.bits .f32 = 32 ∨ (Rect.unit (s := S10000x10000) (fun a => cc0_transform_0 i a * S200x5120.size a) (fun a => (Pipeline.Clip.of (cc0_transform_0 i a) (S200x5120.size a) (S10000x10000.size a)).extent (S200x5120.size a)) fun a => Pipeline.Clip.inb (Pipeline.Clip.ok_of (hstart0_0 i a))).WholeWords (EltTy.packing .f32)
  hwxs0_0 : ∀ i : grid0.Coords, EltTy.bits .f32 = 32 ∨ (Rect.unit (s := S200x5120) (fun _ => 0) (fun a => (Pipeline.Clip.of (cc0_transform_0 i a) (S200x5120.size a) (S10000x10000.size a)).extent (S200x5120.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S200x5120.size a < S10000x10000.size a
  hwx0_1 : ∀ i : grid0.Coords, EltTy.bits .f32 = 32 ∨ (Rect.unit (s := S10000x10000) (fun a => cc0_transform_1 i a * S200x5120.size a) (fun a => (Pipeline.Clip.of (cc0_transform_1 i a) (S200x5120.size a) (S10000x10000.size a)).extent (S200x5120.size a)) fun a => Pipeline.Clip.inb (Pipeline.Clip.ok_of (hstart0_1 i a))).WholeWords (EltTy.packing .f32)
  hwxs0_1 : ∀ i : grid0.Coords, EltTy.bits .f32 = 32 ∨ (Rect.unit (s := S200x5120) (fun _ => 0) (fun a => (Pipeline.Clip.of (cc0_transform_1 i a) (S200x5120.size a) (S10000x10000.size a)).extent (S200x5120.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S200x5120.size a < S10000x10000.size a
  hwx0_2 : ∀ i : grid0.Coords, EltTy.bits .f32 = 32 ∨ (Rect.unit (s := S10000x10000) (fun a => cc0_transform_2 i a * S200x5120.size a) (fun a => (Pipeline.Clip.of (cc0_transform_2 i a) (S200x5120.size a) (S10000x10000.size a)).extent (S200x5120.size a)) fun a => Pipeline.Clip.inb (Pipeline.Clip.ok_of (hstart0_2 i a))).WholeWords (EltTy.packing .f32)
  hwxs0_2 : ∀ i : grid0.Coords, EltTy.bits .f32 = 32 ∨ (Rect.unit (s := S200x5120) (fun _ => 0) (fun a => (Pipeline.Clip.of (cc0_transform_2 i a) (S200x5120.size a) (S10000x10000.size a)).extent (S200x5120.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S200x5120.size a < S10000x10000.size a
  hwx0_3 : ∀ i : grid0.Coords, EltTy.bits .f32 = 32 ∨ (Rect.unit (s := S10000x10000) (fun a => cc0_transform_3 i a * S200x5120.size a) (fun a => (Pipeline.Clip.of (cc0_transform_3 i a) (S200x5120.size a) (S10000x10000.size a)).extent (S200x5120.size a)) fun a => Pipeline.Clip.inb (Pipeline.Clip.ok_of (hstart0_3 i a))).WholeWords (EltTy.packing .f32)
  hwxs0_3 : ∀ i : grid0.Coords, EltTy.bits .f32 = 32 ∨ (Rect.unit (s := S200x5120) (fun _ => 0) (fun a => (Pipeline.Clip.of (cc0_transform_3 i a) (S200x5120.size a) (S10000x10000.size a)).extent (S200x5120.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S10000x128.size a
  hwx0_4 : ∀ i : grid0.Coords, EltTy.bits .f32 = 32 ∨ (Rect.block (s := S10000x128) S10000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x3.size a ≤ S3x3.size a
  hwx0_11 : ∀ i : grid0.Coords, EltTy.bits .f32 = 32 ∨ (Rect.block (s := S3x3) S3x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S200x128.size a ≤ S10000x128.size a
  hwx0_12 : ∀ i : grid0.Coords, EltTy.bits .f32 = 32 ∨ (Rect.block (s := S10000x128) S200x128.size (cc0_transform_12 i) (hinb0_12 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x5120_S5120x128_S200x128_1_0_0_1_n_n : DotDims S200x5120 S5120x128 S200x128 where
  lhsContracting := [1]
  rhsContracting := [0]
  lhsNonContracting := [0]
  rhsNonContracting := [1]
  lhsBatch := []
  rhsBatch := []
  wf := dot_S200x5120_S5120x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x128_S128x1_S200x1_1_0_0_1_n_n : DotDims S200x128 S128x1 S200x1 where
  lhsContracting := [1]
  rhsContracting := [0]
  lhsNonContracting := [0]
  rhsNonContracting := [1]
  lhsBatch := []
  rhsBatch := []
  wf := dot_S200x128_S128x1_S200x1_1_0_0_1_n_n_wf
def dot_S200x3_S3x3_S200x3_1_0_0_1_n_n : DotDims S200x3 S3x3 S200x3 where
  lhsContracting := [1]
  rhsContracting := [0]
  lhsNonContracting := [0]
  rhsNonContracting := [1]
  lhsBatch := []
  rhsBatch := []
  wf := dot_S200x3_S3x3_S200x3_1_0_0_1_n_n_wf

abbrev win0_0 : Pipeline.Window sig grid0 :=
  Pipeline.Window.ofSpecClip (Memref.whole main_arg1) S200x5120.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S200x5120.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S200x5120.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg2) S200x5120.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_arg0) S10000x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S3x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S200x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩
abbrev S10000x1 : Shape := ⟨2, ![10000, 1]⟩
abbrev S10000x3 : Shape := ⟨2, ![10000, 3]⟩
abbrev S10000 : Shape := ⟨1, ![10000]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S3x3, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x1, .f32⟩
  | .hbm, ⟨25, _⟩ => ⟨S10000x1, .f32⟩
  | .hbm, ⟨26, _⟩ => ⟨S10000x1, .f32⟩
  | .hbm, ⟨27, _⟩ => ⟨S10000x3, .f32⟩
  | .hbm, ⟨28, _⟩ => ⟨S10000x3, .f32⟩
  | .hbm, ⟨29, _⟩ => ⟨S10000x3, .f32⟩
  | .hbm, ⟨30, _⟩ => ⟨S_, .f32⟩
  | .hbm, ⟨31, _⟩ => ⟨S10000x3, .f32⟩
  | .hbm, ⟨32, _⟩ => ⟨S10000x3, .f32⟩
  | .hbm, ⟨33, _⟩ => ⟨S_, .f32⟩
  | .hbm, ⟨34, _⟩ => ⟨S10000x3, .f32⟩
  | .hbm, ⟨35, _⟩ => ⟨S10000x3, .f32⟩
  | .hbm, ⟨36, _⟩ => ⟨S10000x3, .f32⟩
  | .hbm, ⟨37, _⟩ => ⟨S_, .f32⟩
  | .hbm, ⟨38, _⟩ => ⟨S10000x3, .f32⟩
  | .hbm, ⟨39, _⟩ => ⟨S10000x3, .f32⟩
  | .hbm, ⟨40, _⟩ => ⟨S_, .f32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x3, .f32⟩
  | .hbm, ⟨47, _⟩ => ⟨S10000x3, .f32⟩
  | .hbm, ⟨48, _⟩ => ⟨S10000x3, .f32⟩
  | .hbm, ⟨49, _⟩ => ⟨S_, .f32⟩
  | .hbm, ⟨50, _⟩ => ⟨S10000, .f32⟩
  | .hbm, ⟨51, _⟩ => ⟨S10000x1, .f32⟩
  | .hbm, ⟨52, _⟩ => ⟨S10000x3, .f32⟩
  | .hbm, ⟨53, _⟩ => ⟨S10000x3, .f32⟩
  | .hbm, ⟨54, _⟩ => ⟨S10000x1, .f32⟩
  | .hbm, ⟨55, _⟩ => ⟨S10000, .f32⟩
  | .hbm, ⟨56, _⟩ => ⟨S10000x1, .f32⟩
  | .hbm, ⟨57, _⟩ => ⟨S10000x1, .f32⟩
  | .hbm, ⟨58, _⟩ => ⟨S10000, .f32⟩
  | .hbm, ⟨59, _⟩ => ⟨S10000x1, .f32⟩
  | .hbm, ⟨60, _⟩ => ⟨S10000x1, .f32⟩
  | .hbm, ⟨61, _⟩ => ⟨S10000, .f32⟩
  | .hbm, ⟨62, _⟩ => ⟨S10000x1, .f32⟩
  | .hbm, ⟨63, _⟩ => ⟨S10000x128, .f32⟩
  | .hbm, ⟨64, _⟩ => ⟨S10000x128, .f32⟩
  | .hbm, ⟨65, _⟩ => ⟨S10000x128, .f32⟩
  | .hbm, ⟨66, _⟩ => ⟨S10000x128, .f32⟩
  | .hbm, ⟨67, _⟩ => ⟨S10000x128, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_call2_cst : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  concatenates_S10000x1_S10000x1_S10000x1_S10000x3_d1 : Shape.Concatenates [S10000x1, S10000x1, S10000x1] S10000x3 1
  bcast_S_S10000x3 : S_.BroadcastsInDim S10000x3 (![] : Fin 0 → Fin S10000x3.rank)
  reducesTo_S10000x3_S10000_d1 : S10000x3.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x3_0_1 : S10000x1.BroadcastsInDim S10000x3 (![0, 1] : Fin 2 → Fin S10000x3.rank)
  slices_S10000x3_S10000x1_0_0 : S10000x3.Slices ![0, 0] S10000x1
  shapeCasts_S10000x1_S10000 : S10000x1.ShapeCasts S10000
  slices_S10000x3_S10000x1_0_1 : S10000x3.Slices ![0, 1] S10000x1
  slices_S10000x3_S10000x1_0_2 : S10000x3.Slices ![0, 2] S10000x1
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x3_S3x3_S10000x3_1_0_0_1_n_n_wf : DotDims.WF S10000x3 S3x3 S10000x3 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x3_S3x3_S10000x3_1_0_0_1_n_n : DotDims S10000x3 S3x3 S10000x3 where
  lhsContracting := [1]
  rhsContracting := [0]
  lhsNonContracting := [0]
  rhsNonContracting := [1]
  lhsBatch := []
  rhsBatch := []
  wf := dot_S10000x3_S3x3_S10000x3_1_0_0_1_n_n_wf

class Facts : Prop extends Facts₀ where

variable [Facts]
-- ==== Proof.WordBlocks.lean ====
/-
  What the kernel's windows stage, read at an index.

  The two adjacency matrices (10000 x 10000) are staged in blocks of 200 rows by 5120 columns: at grid point t the block
  row is t, and each matrix has a window on block column 0 (columns 0 .. 5119) and a window on block column 1 (columns
  5120 .. 10239), whose last 240 columns overhang the matrix and are cut off, so that only its first 4880 columns are
  moved.  Entry (p, k) of a staged block is the matrix's entry (200 t + p, k) for a first-half window, and
  (200 t + p, 5120 + k) for a second-half window when k < 4880.  The eight small operands are staged whole: the block
  is the array.  The result's window is the block of rows 200 t .. 200 t + 199, and the fifty blocks cover the 10000 rows.
-/
import proofs.«138006_g23888608100646_cont_8to1_832_26_alg».proof.Proof.Gen.Kernel.Points
import Idealize.ShloMosaic.Lib.ValueIdx

set_option maxRecDepth 16384

noncomputable section

namespace Cert.Kernel.BlockIdx

open Idealize.ShloMosaic Idealize.ShloMosaic.TcCoe Idealize.ShloMosaic.ValueIdx
open Idealize.SL Idealize.SL.Sem
open Idealize.ShloMosaic.Pipeline (Dat Cfg Window)
open Cert.Kernel Cert.Kernel.Gen

variable {F : FTy → Type} [FloatOps F]

/-- The grid has fifty points. -/
theorem grid_points : cfg0.N = 50 := (by decide : grid0.N = 50)

/-! ## The adjacency windows -/

/-- Window 0 over the fifty points: block row t, block column 0, nothing cut. -/
theorem facts_0 : ∀ t : Fin cfg0.N, win0_0.index t (0 : Fin 2) = t.val ∧ win0_0.index t (1 : Fin 2) = 0
    ∧ win0_0.xsize (grid0.coords t) (0 : Fin 2) = 200 ∧ win0_0.xsize (grid0.coords t) (1 : Fin 2) = 5120 :=
  (by decide +kernel : ∀ t : Fin grid0.N, _)

/-- Entry (p, k) of the block window 0 stages at point t is the low-pass matrix's entry (200 t + p, k). -/
theorem stage_0_apply (c : Dev nD) (A : Buf (Elt F) ((cfg0.win 0).arr.view.loc (c : Thread nD τ))) (t : Fin cfg0.N)
    (d : (cfg0.win 0).block.Idx → Elt F (cfg0.win 0).elt) (p : Fin 200) (k : Fin 5120) :
    (cfg0.win 0).fill (cfg0.grid.coords t) d (((cfg0.win 0).blk t).view.read (Elt F) A) (ix2 p k)
      = (cfg0.win 0).arr.view.read (Elt F) A
          (ix2 (⟨200 * t.val + p.val, by have := t.isLt; have := grid_points; have := p.isLt; omega⟩ : Fin 10000)
            (⟨k.val, by have := k.isLt; omega⟩ : Fin 10000)) := by
  obtain ⟨e0, e1, e2, e3⟩ := facts_0 t
  have hm : win0_0.moved (grid0.coords t) (ix2 p k) = true := by
    rw [Window.moved_iff]
    intro a
    match a with
    | ⟨0, _⟩ => show p.val < win0_0.xsize (grid0.coords t) (0 : Fin 2); rw [e2]; exact p.isLt
    | ⟨1, _⟩ => show k.val < win0_0.xsize (grid0.coords t) (1 : Fin 2); rw [e3]; exact k.isLt
  show win0_0.fill (grid0.coords t) d _ (ix2 p k) = _
  unfold Window.fill
  rw [dif_pos hm]
  show A (((cfg0.win 0).blk t).view.emb _) = A _
  refine congrArg A ?_
  funext a; apply Fin.ext
  match a with
  | ⟨0, _⟩ => show win0_0.index t (0 : Fin 2) * 200 + 1 * p.val = 200 * t.val + p.val; rw [e0]; omega
  | ⟨1, _⟩ => show win0_0.index t (1 : Fin 2) * 5120 + 1 * k.val = k.val; rw [e1]; omega

/-- Window 1 over the fifty points: block row t, block column 1, cut to its first 4880 columns. -/
theorem facts_1 : ∀ t : Fin cfg0.N, win0_1.index t (0 : Fin 2) = t.val ∧ win0_1.index t (1 : Fin 2) = 1
    ∧ win0_1.xsize (grid0.coords t) (0 : Fin 2) = 200 ∧ win0_1.xsize (grid0.coords t) (1 : Fin 2) = 4880 :=
  (by decide +kernel : ∀ t : Fin grid0.N, _)

/-- Entry (p, k) of the block window 1 stages at point t is the low-pass matrix's entry (200 t + p, 5120 + k), for k < 4880. -/
theorem stage_1_apply (c : Dev nD) (A : Buf (Elt F) ((cfg0.win 1).arr.view.loc (c : Thread nD τ))) (t : Fin cfg0.N)
    (d : (cfg0.win 1).block.Idx → Elt F (cfg0.win 1).elt) (p : Fin 200) (k : Fin 5120) (hk : k.val < 4880) :
    (cfg0.win 1).fill (cfg0.grid.coords t) d (((cfg0.win 1).blk t).view.read (Elt F) A) (ix2 p k)
      = (cfg0.win 1).arr.view.read (Elt F) A
          (ix2 (⟨200 * t.val + p.val, by have := t.isLt; have := grid_points; have := p.isLt; omega⟩ : Fin 10000)
            (⟨5120 + k.val, by omega⟩ : Fin 10000)) := by
  obtain ⟨e0, e1, e2, e3⟩ := facts_1 t
  have hm : win0_1.moved (grid0.coords t) (ix2 p k) = true := by
    rw [Window.moved_iff]
    intro a
    match a with
    | ⟨0, _⟩ => show p.val < win0_1.xsize (grid0.coords t) (0 : Fin 2); rw [e2]; exact p.isLt
    | ⟨1, _⟩ => show k.val < win0_1.xsize (grid0.coords t) (1 : Fin 2); rw [e3]; exact hk
  show win0_1.fill (grid0.coords t) d _ (ix2 p k) = _
  unfold Window.fill
  rw [dif_pos hm]
  show A (((cfg0.win 1).blk t).view.emb _) = A _
  refine congrArg A ?_
  funext a; apply Fin.ext
  obtain ⟨av, ha⟩ := a
  have ha2 : av < 2 := ha
  have h01 : av = 0 ∨ av = 1 := by omega
  rcases h01 with rfl | rfl
  · show win0_1.index t (0 : Fin 2) * 200 + 1 * p.val = 200 * t.val + p.val; rw [e0]; omega
  · show win0_1.index t (1 : Fin 2) * 5120 + 1 * k.val = 5120 + k.val; rw [e1]; omega

/-- Window 2 over the fifty points: block row t, block column 0, nothing cut. -/
theorem facts_2 : ∀ t : Fin cfg0.N, win0_2.index t (0 : Fin 2) = t.val ∧ win0_2.index t (1 : Fin 2) = 0
    ∧ win0_2.xsize (grid0.coords t) (0 : Fin 2) = 200 ∧ win0_2.xsize (grid0.coords t) (1 : Fin 2) = 5120 :=
  (by decide +kernel : ∀ t : Fin grid0.N, _)

/-- Entry (p, k) of the block window 2 stages at point t is the high-pass matrix's entry (200 t + p, k). -/
theorem stage_2_apply (c : Dev nD) (A : Buf (Elt F) ((cfg0.win 2).arr.view.loc (c : Thread nD τ))) (t : Fin cfg0.N)
    (d : (cfg0.win 2).block.Idx → Elt F (cfg0.win 2).elt) (p : Fin 200) (k : Fin 5120) :
    (cfg0.win 2).fill (cfg0.grid.coords t) d (((cfg0.win 2).blk t).view.read (Elt F) A) (ix2 p k)
      = (cfg0.win 2).arr.view.read (Elt F) A
          (ix2 (⟨200 * t.val + p.val, by have := t.isLt; have := grid_points; have := p.isLt; omega⟩ : Fin 10000)
            (⟨k.val, by have := k.isLt; omega⟩ : Fin 10000)) := by
  obtain ⟨e0, e1, e2, e3⟩ := facts_2 t
  have hm : win0_2.moved (grid0.coords t) (ix2 p k) = true := by
    rw [Window.moved_iff]
    intro a
    match a with
    | ⟨0, _⟩ => show p.val < win0_2.xsize (grid0.coords t) (0 : Fin 2); rw [e2]; exact p.isLt
    | ⟨1, _⟩ => show k.val < win0_2.xsize (grid0.coords t) (1 : Fin 2); rw [e3]; exact k.isLt
  show win0_2.fill (grid0.coords t) d _ (ix2 p k) = _
  unfold Window.fill
  rw [dif_pos hm]
  show A (((cfg0.win 2).blk t).view.emb _) = A _
  refine congrArg A ?_
  funext a; apply Fin.ext
  match a with
  | ⟨0, _⟩ => show win0_2.index t (0 : Fin 2) * 200 + 1 * p.val = 200 * t.val + p.val; rw [e0]; omega
  | ⟨1, _⟩ => show win0_2.index t (1 : Fin 2) * 5120 + 1 * k.val = k.val; rw [e1]; omega

/-- Window 3 over the fifty points: block row t, block column 1, cut to its first 4880 columns. -/
theorem facts_3 : ∀ t : Fin cfg0.N, win0_3.index t (0 : Fin 2) = t.val ∧ win0_3.index t (1 : Fin 2) = 1
    ∧ win0_3.xsize (grid0.coords t) (0 : Fin 2) = 200 ∧ win0_3.xsize (grid0.coords t) (1 : Fin 2) = 4880 :=
  (by decide +kernel : ∀ t : Fin grid0.N, _)

/-- Entry (p, k) of the block window 3 stages at point t is the high-pass matrix's entry (200 t + p, 5120 + k), for k < 4880. -/
theorem stage_3_apply (c : Dev nD) (A : Buf (Elt F) ((cfg0.win 3).arr.view.loc (c : Thread nD τ))) (t : Fin cfg0.N)
    (d : (cfg0.win 3).block.Idx → Elt F (cfg0.win 3).elt) (p : Fin 200) (k : Fin 5120) (hk : k.val < 4880) :
    (cfg0.win 3).fill (cfg0.grid.coords t) d (((cfg0.win 3).blk t).view.read (Elt F) A) (ix2 p k)
      = (cfg0.win 3).arr.view.read (Elt F) A
          (ix2 (⟨200 * t.val + p.val, by have := t.isLt; have := grid_points; have := p.isLt; omega⟩ : Fin 10000)
            (⟨5120 + k.val, by omega⟩ : Fin 10000)) := by
  obtain ⟨e0, e1, e2, e3⟩ := facts_3 t
  have hm : win0_3.moved (grid0.coords t) (ix2 p k) = true := by
    rw [Window.moved_iff]
    intro a
    match a with
    | ⟨0, _⟩ => show p.val < win0_3.xsize (grid0.coords t) (0 : Fin 2); rw [e2]; exact p.isLt
    | ⟨1, _⟩ => show k.val < win0_3.xsize (grid0.coords t) (1 : Fin 2); rw [e3]; exact hk
  show win0_3.fill (grid0.coords t) d _ (ix2 p k) = _
  unfold Window.fill
  rw [dif_pos hm]
  show A (((cfg0.win 3).blk t).view.emb _) = A _
  refine congrArg A ?_
  funext a; apply Fin.ext
  obtain ⟨av, ha⟩ := a
  have ha2 : av < 2 := ha
  have h01 : av = 0 ∨ av = 1 := by omega
  rcases h01 with rfl | rfl
  · show win0_3.index t (0 : Fin 2) * 200 + 1 * p.val = 200 * t.val + p.val; rw [e0]; omega
  · show win0_3.index t (1 : Fin 2) * 5120 + 1 * k.val = 5120 + k.val; rw [e1]; omega

/-! ## The operands staged whole -/

/-- Window 4 over the fifty points: always block (0, 0). -/
theorem facts_4 : ∀ t : Fin cfg0.N, win0_4.index t (0 : Fin 2) = 0 ∧ win0_4.index t (1 : Fin 2) = 0 :=
  (by decide +kernel : ∀ t : Fin grid0.N, _)

/-- Window 4 stages the node features whole: the block is the array. -/
theorem stage_4_apply (c : Dev nD) (A : Buf (Elt F) ((cfg0.win 4).arr.view.loc (c : Thread nD τ))) (t : Fin cfg0.N)
    (d : (cfg0.win 4).block.Idx → Elt F (cfg0.win 4).elt) (j : (cfg0.win 4).block.Idx) :
    (cfg0.win 4).fill (cfg0.grid.coords t) d (((cfg0.win 4).blk t).view.read (Elt F) A) j
      = (cfg0.win 4).arr.view.read (Elt F) A j := by
  obtain ⟨e0, e1⟩ := facts_4 t
  have hm : win0_4.moved (grid0.coords t) j = true := by
    rw [Window.moved_iff]
    intro a
    exact (j a).isLt
  show win0_4.fill (grid0.coords t) d _ j = _
  unfold Window.fill
  rw [dif_pos hm]
  show A (((cfg0.win 4).blk t).view.emb _) = A j
  refine congrArg A ?_
  funext a; apply Fin.ext
  match a with
  | ⟨0, _⟩ => show win0_4.index t (0 : Fin 2) * 10000 + 1 * (j 0).val = (j 0).val; rw [e0]; omega
  | ⟨1, _⟩ => show win0_4.index t (1 : Fin 2) * 128 + 1 * (j 1).val = (j 1).val; rw [e1]; omega

/-- Window 5 over the fifty points: always block (0, 0). -/
theorem facts_5 : ∀ t : Fin cfg0.N, win0_5.index t (0 : Fin 2) = 0 ∧ win0_5.index t (1 : Fin 2) = 0 :=
  (by decide +kernel : ∀ t : Fin grid0.N, _)

/-- Window 5 stages the low-pass weight matrix whole: the block is the array. -/
theorem stage_5_apply (c : Dev nD) (A : Buf (Elt F) ((cfg0.win 5).arr.view.loc (c : Thread nD τ))) (t : Fin cfg0.N)
    (d : (cfg0.win 5).block.Idx → Elt F (cfg0.win 5).elt) (j : (cfg0.win 5).block.Idx) :
    (cfg0.win 5).fill (cfg0.grid.coords t) d (((cfg0.win 5).blk t).view.read (Elt F) A) j
      = (cfg0.win 5).arr.view.read (Elt F) A j := by
  obtain ⟨e0, e1⟩ := facts_5 t
  have hm : win0_5.moved (grid0.coords t) j = true := by
    rw [Window.moved_iff]
    intro a
    exact (j a).isLt
  show win0_5.fill (grid0.coords t) d _ j = _
  unfold Window.fill
  rw [dif_pos hm]
  show A (((cfg0.win 5).blk t).view.emb _) = A j
  refine congrArg A ?_
  funext a; apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- Window 6 over the fifty points: always block (0, 0). -/
theorem facts_6 : ∀ t : Fin cfg0.N, win0_6.index t (0 : Fin 2) = 0 ∧ win0_6.index t (1 : Fin 2) = 0 :=
  (by decide +kernel : ∀ t : Fin grid0.N, _)

/-- Window 6 stages the high-pass weight matrix whole: the block is the array. -/
theorem stage_6_apply (c : Dev nD) (A : Buf (Elt F) ((cfg0.win 6).arr.view.loc (c : Thread nD τ))) (t : Fin cfg0.N)
    (d : (cfg0.win 6).block.Idx → Elt F (cfg0.win 6).elt) (j : (cfg0.win 6).block.Idx) :
    (cfg0.win 6).fill (cfg0.grid.coords t) d (((cfg0.win 6).blk t).view.read (Elt F) A) j
      = (cfg0.win 6).arr.view.read (Elt F) A j := by
  obtain ⟨e0, e1⟩ := facts_6 t
  have hm : win0_6.moved (grid0.coords t) j = true := by
    rw [Window.moved_iff]
    intro a
    exact (j a).isLt
  show win0_6.fill (grid0.coords t) d _ j = _
  unfold Window.fill
  rw [dif_pos hm]
  show A (((cfg0.win 6).blk t).view.emb _) = A j
  refine congrArg A ?_
  funext a; apply Fin.ext
  match a with
  | ⟨0, _⟩ => show win0_6.index t (0 : Fin 2) * 128 + 1 * (j 0).val = (j 0).val; rw [e0]; omega
  | ⟨1, _⟩ => show win0_6.index t (1 : Fin 2) * 128 + 1 * (j 1).val = (j 1).val; rw [e1]; omega

/-- Window 7 over the fifty points: always block (0, 0). -/
theorem facts_7 : ∀ t : Fin cfg0.N, win0_7.index t (0 : Fin 2) = 0 ∧ win0_7.index t (1 : Fin 2) = 0 :=
  (by decide +kernel : ∀ t : Fin grid0.N, _)

/-- Window 7 stages the plain weight matrix whole: the block is the array. -/
theorem stage_7_apply (c : Dev nD) (A : Buf (Elt F) ((cfg0.win 7).arr.view.loc (c : Thread nD τ))) (t : Fin cfg0.N)
    (d : (cfg0.win 7).block.Idx → Elt F (cfg0.win 7).elt) (j : (cfg0.win 7).block.Idx) :
    (cfg0.win 7).fill (cfg0.grid.coords t) d (((cfg0.win 7).blk t).view.read (Elt F) A) j
      = (cfg0.win 7).arr.view.read (Elt F) A j := by
  obtain ⟨e0, e1⟩ := facts_7 t
  have hm : win0_7.moved (grid0.coords t) j = true := by
    rw [Window.moved_iff]
    intro a
    exact (j a).isLt
  show win0_7.fill (grid0.coords t) d _ j = _
  unfold Window.fill
  rw [dif_pos hm]
  show A (((cfg0.win 7).blk t).view.emb _) = A j
  refine congrArg A ?_
  funext a; apply Fin.ext
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

/-- Window 8 over the fifty points: always block (0, 0). -/
theorem facts_8 : ∀ t : Fin cfg0.N, win0_8.index t (0 : Fin 2) = 0 ∧ win0_8.index t (1 : Fin 2) = 0 :=
  (by decide +kernel : ∀ t : Fin grid0.N, _)

/-- Window 8 stages the low-pass attention vector whole: the block is the array. -/
theorem stage_8_apply (c : Dev nD) (A : Buf (Elt F) ((cfg0.win 8).arr.view.loc (c : Thread nD τ))) (t : Fin cfg0.N)
    (d : (cfg0.win 8).block.Idx → Elt F (cfg0.win 8).elt) (j : (cfg0.win 8).block.Idx) :
    (cfg0.win 8).fill (cfg0.grid.coords t) d (((cfg0.win 8).blk t).view.read (Elt F) A) j
      = (cfg0.win 8).arr.view.read (Elt F) A j := by
  obtain ⟨e0, e1⟩ := facts_8 t
  have hm : win0_8.moved (grid0.coords t) j = true := by
    rw [Window.moved_iff]
    intro a
    exact (j a).isLt
  show win0_8.fill (grid0.coords t) d _ j = _
  unfold Window.fill
  rw [dif_pos hm]
  show A (((cfg0.win 8).blk t).view.emb _) = A j
  refine congrArg A ?_
  funext a; apply Fin.ext
  match a with
  | ⟨0, _⟩ => show win0_8.index t (0 : Fin 2) * 128 + 1 * (j 0).val = (j 0).val; rw [e0]; omega
  | ⟨1, _⟩ => show win0_8.index t (1 : Fin 2) * 1 + 1 * (j 1).val = (j 1).val; rw [e1]; omega

/-- Window 9 over the fifty points: always block (0, 0). -/
theorem facts_9 : ∀ t : Fin cfg0.N, win0_9.index t (0 : Fin 2) = 0 ∧ win0_9.index t (1 : Fin 2) = 0 :=
  (by decide +kernel : ∀ t : Fin grid0.N, _)

/-- Window 9 stages the high-pass attention vector whole: the block is the array. -/
theorem stage_9_apply (c : Dev nD) (A : Buf (Elt F) ((cfg0.win 9).arr.view.loc (c : Thread nD τ))) (t : Fin cfg0.N)
    (d : (cfg0.win 9).block.Idx → Elt F (cfg0.win 9).elt) (j : (cfg0.win 9).block.Idx) :
    (cfg0.win 9).fill (cfg0.grid.coords t) d (((cfg0.win 9).blk t).view.read (Elt F) A) j
      = (cfg0.win 9).arr.view.read (Elt F) A j := by
  obtain ⟨e0, e1⟩ := facts_9 t
  have hm : win0_9.moved (grid0.coords t) j = true := by
    rw [Window.moved_iff]
    intro a
    exact (j a).isLt
  show win0_9.fill (grid0.coords t) d _ j = _
  unfold Window.fill
  rw [dif_pos hm]
  show A (((cfg0.win 9).blk t).view.emb _) = A j
  refine congrArg A ?_
  funext a; apply Fin.ext
  match a with
  | ⟨0, _⟩ => show win0_9.index t (0 : Fin 2) * 128 + 1 * (j 0).val = (j 0).val; rw [e0]; omega
  | ⟨1, _⟩ => show win0_9.index t (1 : Fin 2) * 1 + 1 * (j 1).val = (j 1).val; rw [e1]; omega

/-- Window 10 over the fifty points: always block (0, 0). -/
theorem facts_10 : ∀ t : Fin cfg0.N, win0_10.index t (0 : Fin 2) = 0 ∧ win0_10.index t (1 : Fin 2) = 0 :=
  (by decide +kernel : ∀ t : Fin grid0.N, _)

/-- Window 10 stages the plain attention vector whole: the block is the array. -/
theorem stage_10_apply (c : Dev nD) (A : Buf (Elt F) ((cfg0.win 10).arr.view.loc (c : Thread nD τ))) (t : Fin cfg0.N)
    (d : (cfg0.win 10).block.Idx → Elt F (cfg0.win 10).elt) (j : (cfg0.win 10).block.Idx) :
    (cfg0.win 10).fill (cfg0.grid.coords t) d (((cfg0.win 10).blk t).view.read (Elt F) A) j
      = (cfg0.win 10).arr.view.read (Elt F) A j := by
  obtain ⟨e0, e1⟩ := facts_10 t
  have hm : win0_10.moved (grid0.coords t) j = true := by
    rw [Window.moved_iff]
    intro a
    exact (j a).isLt
  show win0_10.fill (grid0.coords t) d _ j = _
  unfold Window.fill
  rw [dif_pos hm]
  show A (((cfg0.win 10).blk t).view.emb _) = A j
  refine congrArg A ?_
  funext a; apply Fin.ext
  match a with
  | ⟨0, _⟩ => show win0_10.index t (0 : Fin 2) * 128 + 1 * (j 0).val = (j 0).val; rw [e0]; omega
  | ⟨1, _⟩ => show win0_10.index t (1 : Fin 2) * 1 + 1 * (j 1).val = (j 1).val; rw [e1]; omega

/-- Window 11 over the fifty points: always block (0, 0). -/
theorem facts_11 : ∀ t : Fin cfg0.N, win0_11.index t (0 : Fin 2) = 0 ∧ win0_11.index t (1 : Fin 2) = 0 :=
  (by decide +kernel : ∀ t : Fin grid0.N, _)

/-- Window 11 stages the 3 x 3 attention matrix whole: the block is the array. -/
theorem stage_11_apply (c : Dev nD) (A : Buf (Elt F) ((cfg0.win 11).arr.view.loc (c : Thread nD τ))) (t : Fin cfg0.N)
    (d : (cfg0.win 11).block.Idx → Elt F (cfg0.win 11).elt) (j : (cfg0.win 11).block.Idx) :
    (cfg0.win 11).fill (cfg0.grid.coords t) d (((cfg0.win 11).blk t).view.read (Elt F) A) j
      = (cfg0.win 11).arr.view.read (Elt F) A j := by
  obtain ⟨e0, e1⟩ := facts_11 t
  have hm : win0_11.moved (grid0.coords t) j = true := by
    rw [Window.moved_iff]
    intro a
    exact (j a).isLt
  show win0_11.fill (grid0.coords t) d _ j = _
  unfold Window.fill
  rw [dif_pos hm]
  show A (((cfg0.win 11).blk t).view.emb _) = A j
  refine congrArg A ?_
  funext a; apply Fin.ext
  match a with
  | ⟨0, _⟩ => show win0_11.index t (0 : Fin 2) * 3 + 1 * (j 0).val = (j 0).val; rw [e0]; omega
  | ⟨1, _⟩ => show win0_11.index t (1 : Fin 2) * 3 + 1 * (j 1).val = (j 1).val; rw [e1]; omega

/-! ## The result's window -/

/-- Window 12 over the fifty points: block row t, block column 0. -/
theorem facts_12 : ∀ t : Fin cfg0.N, win0_12.index t (0 : Fin 2) = t.val ∧ win0_12.index t (1 : Fin 2) = 0 :=
  (by decide +kernel : ∀ t : Fin grid0.N, _)

/-- An index of the result array lies in point t's block iff its row is one of the rows 200 t .. 200 t + 199. -/
theorem mem_out_block (t : Fin cfg0.N) (i : S10000x128.Idx) :
    i ∈ ((cfg0.win 12).blk t).view.setOn Finset.univ ↔ 200 * t.val ≤ (i 0).val ∧ (i 0).val < 200 * t.val + 200 := by
  obtain ⟨e0, e1⟩ := facts_12 t
  rw [View.setOn_univ]
  show i ∈ ((View.whole main_v0).slice (win0_12.rect t)).set ↔ _
  rw [View.set_slice_whole, Rect.mem_set_unit]
  have h1 : (i 1).val < 128 := (i 1).isLt
  refine ⟨fun h => ?_, fun h a => ?_⟩
  · have h0 : win0_12.index t (0 : Fin 2) * 200 ≤ (i 0).val ∧ (i 0).val < win0_12.index t (0 : Fin 2) * 200 + 200 := h 0
    rw [e0] at h0; omega
  · match a with
    | ⟨0, _⟩ =>
      show win0_12.index t (0 : Fin 2) * 200 ≤ (i 0).val ∧ (i 0).val < win0_12.index t (0 : Fin 2) * 200 + 200
      rw [e0]; omega
    | ⟨1, _⟩ =>
      show win0_12.index t (1 : Fin 2) * 128 ≤ (i 1).val ∧ (i 1).val < win0_12.index t (1 : Fin 2) * 128 + 128
      rw [e1]; omega

/-- The point whose block holds row r: r / 200. -/
def pointOf (r : Fin 10000) : Fin cfg0.N := ⟨r.val / 200, by have := r.isLt; have := grid_points; omega⟩

theorem pointOf_val (r : Fin 10000) : (pointOf r).val = r.val / 200 := rfl

/-- Every row is covered: row r lies in the block of the point r / 200. -/
theorem row_covered (r : Fin 10000) : 200 * (pointOf r).val ≤ r.val ∧ r.val < 200 * (pointOf r).val + 200 := by
  rw [pointOf_val]; omega

/-- Every index of the result array lies in the block of the point its row names. -/
theorem mem_out_block_pointOf (i : S10000x128.Idx) :
    i ∈ ((cfg0.win 12).blk (pointOf (i 0))).view.setOn Finset.univ :=
  (mem_out_block (pointOf (i 0)) i).mpr (row_covered (i 0))

end Cert.Kernel.BlockIdx

end
-- ==== Proof.WordMask.lean ====
/-
  The second-half adjacency blocks enter the body only through their first 4880 columns.

  The body builds a mask of the columns below 4880 from a column index and selects zero elsewhere, so whatever a staging
  buffer holds in columns 4880 .. 5119 (the part of a block that overhangs the matrix) never reaches the products.
-/
import proofs.«138006_g23888608100646_cont_8to1_832_26_alg».proof.Proof.Gen.Kernel.Skeleton
import Idealize.ShloMosaic.Lib.ValueIdx
import Idealize.ShloMosaic.Lib.Pipeline.Value

set_option maxRecDepth 16384

noncomputable section

namespace Cert.Kernel.Hand

open Idealize.ShloMosaic Idealize.ShloMosaic.ValueIdx
open Idealize.SL.Sem
open Cert.Kernel Cert.Kernel.Gen

variable {F : FTy → Type} [FloatOps F]

/-- The signed comparison of a column index below 5120 with 4880, as words, is the comparison of the numbers. -/
theorem col_lt_iff : ∀ k : Fin 5120, IntOp.cmpi .slt (BitVec.ofNat 32 k.val) 4880#32 = 1#1 ↔ k.val < 4880 := by
  decide +kernel

/-- The mask holds at (p, k) exactly when k < 4880. -/
theorem mask_apply (p : Fin 200) (k : Fin 5120) : k0_pay5 (ix2 p k) = 1#1 ↔ k.val < 4880 := by
  unfold k0_pay5
  show IntOp.cmpi .slt (iota .tc S200x5120 32 [1] iota_S200x5120_d1_w32 (ix2 p k)) (broadcast S200x5120 4880#32 (ix2 p k)) = 1#1 ↔ _
  rw [iota_single_apply, broadcast_apply]
  exact col_lt_iff k

/-- Two blocks that agree on the columns below 4880 are the same block once masked. -/
theorem select_mask_congr (x x' z : Vec F S200x5120 .f32)
    (h : ∀ (p : Fin 200) (k : Fin 5120), k.val < 4880 → x (ix2 p k) = x' (ix2 p k)) :
    select k0_pay5 x z = select k0_pay5 x' z := by
  funext j
  obtain ⟨p, k, rfl⟩ : ∃ (p : Fin 200) (k : Fin 5120), j = ix2 p k := ⟨j 0, j 1, eq_ix2 j⟩
  rw [select_apply, select_apply]
  by_cases hk : k.val < 4880
  · rw [h p k hk]
  · have hm : ¬ k0_pay5 (ix2 p k) = (1 : BitVec 1) := fun e => hk ((mask_apply p k).mp e)
    unfold Scalar.select
    rw [if_neg hm, if_neg hm]

/-- So the low-pass branch depends on its second-half block only through those columns, -/
theorem pay6_congr (x2 x2' x1 : Vec F S200x5120 .f32) (lo hi : Vec F S5120x128 .f32)
    (h : ∀ (p : Fin 200) (k : Fin 5120), k.val < 4880 → x2 (ix2 p k) = x2' (ix2 p k)) :
    k0_pay6 x2 x1 lo hi = k0_pay6 x2' x1 lo hi := by
  unfold k0_pay6
  dsimp only
  rw [select_mask_congr x2 x2' _ h]

/-- and the high-pass branch likewise. -/
theorem pay7_congr (x4 x4' x3 : Vec F S200x5120 .f32) (lo hi : Vec F S5120x128 .f32)
    (h : ∀ (p : Fin 200) (k : Fin 5120), k.val < 4880 → x4 (ix2 p k) = x4' (ix2 p k)) :
    k0_pay7 x4 x3 lo hi = k0_pay7 x4' x3 lo hi := by
  unfold k0_pay7
  dsimp only
  rw [select_mask_congr x4 x4' _ h]

end Cert.Kernel.Hand

end
-- ==== Proof.WordSetup.lean ====
/-
  The fused graph-convolution kernel's body, before it is run: the one condition it branches on (is this the grid's
  first point), decided over the fifty points, and the names of the staging buffers each window is on at a point and
  of the two scratch tables the first point fills and every point reads.
-/
import proofs.«138006_g23888608100646_cont_8to1_832_26_alg».proof.Proof.Gen.Kernel.Launch
import proofs.«138006_g23888608100646_cont_8to1_832_26_alg».proof.Proof.Gen.Kernel.Skeleton
import proofs.«138006_g23888608100646_cont_8to1_832_26_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-- The body's one branch: the grid coordinate is zero (the projections are computed and the padding rows cleared). -/
abbrev isFirst (i : grid0.Coords) : Prop :=
  (Scalar.cmpi .ne (Scalar.extui (Scalar.cmpi .eq (BitVec.ofNat 32 (i 0).val) 0#32)) 0#32) = 1#1

/-- It holds at point 0 and at no other of the fifty. -/
theorem isFirst_iff : ∀ t : Fin cfg0.N, isFirst (grid0.coords t) ↔ t.val = 0 :=
  (by decide +kernel : ∀ t : Fin grid0.N, isFirst (grid0.coords t) ↔ t.val = 0)

/-- The two scratch tables (10240 rows: the 10000 projected feature rows, then 240 rows of zeros). -/
abbrev tabLow : Memref sig .tc .vmem S10240x128 .f32 := Memref.whole cc0_scratch0
abbrev tabHigh : Memref sig .tc .vmem S10240x128 .f32 := Memref.whole cc0_scratch1

end Cert.Kernel.Hand

end
-- ==== Proof.WordRunLater.lean ====
/-
  The kernel's body at a grid point other than the first, run on whole staging buffers: it reads the four adjacency
  blocks, the features, the weights, the attention vectors and both scratch tables, writes nothing but the output block,
  and hands every other buffer back as it found it. What it leaves in the output buffer is found by the run itself, as the
  list of stores made into it.
-/
import proofs.«138006_g23888608100646_cont_8to1_832_26_alg».proof.Proof.WordSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The stores a later point makes into the output buffer, with the proof that from the inputs at their contents, the
    output buffer at anything and the two tables at `xs0`, `xs1`, the body runs to a state where only the output buffer
    has changed. -/
noncomputable def runLater (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : ¬isFirst i)
    (x1 x2 x3 x4 : Vec F S200x5120 .f32) (x5 : Vec F S10000x128 .f32) (x6 x7 x8 : Vec F S128x128 .f32) (x9 x10 x11 : Vec F S128x1 .f32) (x12 : Vec F S3x3 .f32) (xs0 xs1 : Vec F S10240x128 .f32) :
    { L13 : List (View.Piece (Elt F) S200x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs0 ∗ owns (c : Thread nD τ) arg15 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare xs0 ∗ owns (c : Thread nD τ) arg15 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    obtain rfl := harg14.eq_unread hfs0; obtain rfl := harg15.eq_unread hfs1
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [HS0]
    · iexists _; isplitr; · ipureintro; exact harg14.read_unread _
      iexact HS0
    · iexists _; isplitr; · ipureintro; exact harg15.read_unread _
      iexact HS1

end Cert.Kernel.Hand

end
-- ==== Proof.WordRunFirst.lean ====
/-
  The kernel's body at the grid's first point, run on whole staging buffers: it first fills both scratch tables (the
  projected features in rows 0 to 9999, zeros in rows 10000 to 10239), then does what every point does. What it leaves in
  the output buffer and in the two tables is found by the run itself, as the lists of stores made into each.
-/
import proofs.«138006_g23888608100646_cont_8to1_832_26_alg».proof.Proof.WordRunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

set_option maxHeartbeats 4000000 in
/-- The stores the first point makes into the output buffer and into the two tables, with the proof that from the
    inputs at their contents and the output buffer and both tables at anything, the body runs to a state where the inputs
    are as they were and those three buffers have the stores written. -/
noncomputable def runFirst (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i)
    (x1 x2 x3 x4 : Vec F S200x5120 .f32) (x5 : Vec F S10000x128 .f32) (x6 x7 x8 : Vec F S128x128 .f32) (x9 x10 x11 : Vec F S128x1 .f32) (x12 : Vec F S3x3 .f32) :
    Σ' (L13 : List (View.Piece (Elt F) S200x128 .f32)) (LS0 : List (View.Piece (Elt F) S10240x128 .f32)), { LS1 : List (View.Piece (Elt F) S10240x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [HS0]; · iexists _; iexact HS0
    iexists _; iexact HS1

end Cert.Kernel.Hand

end
-- ==== Proof.WordForms.lean ====
/-
  What the body's stores leave, as functions of what it loads.

  A later point stores the output block once: the mixed layer of the two aggregated branches and the dense branch, where
  each aggregated branch multiplies the point's two adjacency blocks with the upper and lower 5120 rows of a table.  The
  first point first fills each table in two stores (the 10000 projected feature rows, then 240 rows of zeros) and reads
  the tables back through those stores.  Every list of stores covers its buffer.
-/
import Idealize.ShloMosaic.Lib.Pipeline.Value
import proofs.«138006_g23888608100646_cont_8to1_832_26_alg».proof.Proof.WordRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

/-- The printed zero offsets of a two-axis access are the zero offsets. -/
theorem zero_off2 : (![0, 0] : Fin 2 → ℕ) = fun _ => 0 := by
  funext a; fin_cases a <;> rfl

/-- Rows 0 .. 5119 of a table. -/
def rowsLo (T : Vec F S10240x128 .f32) : Vec F S5120x128 .f32 :=
  View.ld T (Rect.unit (s := S10240x128) ![0, 0] S5120x128.size inb_S10240x128_S5120x128_0_0)

/-- Rows 5120 .. 10239 of a table. -/
def rowsHi (T : Vec F S10240x128 .f32) : Vec F S5120x128 .f32 :=
  View.ld T (Rect.unit (s := S10240x128) ![5120, 0] S5120x128.size inb_S10240x128_S5120x128_5120_0)

/-- The 200 feature rows of grid point `i`. -/
def featRows (i : grid0.Coords) (X : Vec F S10000x128 .f32) : Vec F S200x128 .f32 :=
  View.ld X (Rect.unit (s := S10000x128) (k0_off1 i) S200x128.size (Cert.Kernel.Gen.k0_off1_inb i))

/-- The output block of a point from the blocks and tables it loads: `x1`, `x2` the two halves of the low-pass
    adjacency rows, `x3`, `x4` of the high-pass ones, `T0`, `T1` the two tables. -/
def outOf (i : grid0.Coords) (x1 x2 x3 x4 : Vec F S200x5120 .f32) (x5 : Vec F S10000x128 .f32) (x8 : Vec F S128x128 .f32)
    (x9 x10 x11 : Vec F S128x1 .f32) (x12 : Vec F S3x3 .f32) (T0 T1 : Vec F S10240x128 .f32) : Vec F S200x128 .f32 :=
  k0_pay8 (k0_pay6 x2 x1 (rowsLo T0) (rowsHi T0)) (k0_pay7 x4 x3 (rowsLo T1) (rowsHi T1)) (featRows i x5) x8 x9 x10 x11 x12

/-- The two stores that fill a table: the zero rows 10000 .. 10239 (made last), the projected rows 0 .. 9999. -/
abbrev tabPieces (P : Vec F S10000x128 .f32) (Z : Vec F S240x128 .f32) : List (View.Piece (Elt F) S10240x128 .f32) :=
  [⟨Rect.unit ![10000, 0] S240x128.size inb_S10240x128_S240x128_10000_0, Z⟩,
   ⟨Rect.unit ![0, 0] S10000x128.size inb_S10240x128_S10000x128_0_0, P⟩]

/-- They cover the table: cut into blocks of 80 rows they tile it. -/
theorem tabPieces_cover (P : Vec F S10000x128 .f32) (Z : Vec F S240x128 .f32) (y : S10240x128.Idx) :
    ∃ p ∈ tabPieces P Z, y ∈ p.1.set :=
  View.cover_of_tiledBy (tabPieces P Z) ![80, 128] (by sl_kernel_rfl) y

/-- The low-pass table after the first point. -/
def tabLowOf (x5 : Vec F S10000x128 .f32) (x6 : Vec F S128x128 .f32) : Vec F S10240x128 .f32 :=
  View.canon (tabPieces (k0_pay1 x5 x6) (k0_pay3 (F := F)))

/-- The high-pass table after the first point. -/
def tabHighOf (x5 : Vec F S10000x128 .f32) (x7 : Vec F S128x128 .f32) : Vec F S10240x128 .f32 :=
  View.canon (tabPieces (k0_pay2 x5 x7) (k0_pay4 (F := F)))

/-! ## A later point -/

/-- Its one store covers the output block. -/
theorem later_cover (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : ¬isFirst i) (x1 x2 x3 x4 : Vec F S200x5120 .f32) (x5 : Vec F S10000x128 .f32) (x6 x7 x8 : Vec F S128x128 .f32) (x9 x10 x11 : Vec F S128x1 .f32) (x12 : Vec F S3x3 .f32) (xs0 xs1 : Vec F S10240x128 .f32) (y : S200x128.Idx) :
    ∃ pc ∈ (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12 xs0 xs1).1, y ∈ pc.1.set :=
  View.cover_of_tiledL (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12 xs0 xs1).1 S200x128.size (by sl_kernel_rfl) y

/-- What it leaves there. -/
theorem later_out_eq (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : ¬isFirst i) (x1 x2 x3 x4 : Vec F S200x5120 .f32) (x5 : Vec F S10000x128 .f32) (x6 x7 x8 : Vec F S128x128 .f32) (x9 x10 x11 : Vec F S128x1 .f32) (x12 : Vec F S3x3 .f32) (xs0 xs1 : Vec F S10240x128 .f32) :
    View.canon (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12 xs0 xs1).1 = outOf i x1 x2 x3 x4 x5 x8 x9 x10 x11 x12 xs0 xs1 := by
  unfold runLater; dsimp only; sl_unfold_words
  rw [View.canon_unit_zero zero_off2]
  simp only [View.readAt_eq_ld, harg1.read_unread, harg2.read_unread, harg3.read_unread, harg4.read_unread, harg5.read_unread,
    harg8.read_unread, harg9.read_unread, harg10.read_unread, harg11.read_unread, harg12.read_unread, harg14.read_unread,
    harg15.read_unread, View.ld_unit_zero (S := S200x5120) zero_off2, View.ld_unit_zero (S := S128x128) zero_off2,
    View.ld_unit_zero (S := S128x1) zero_off2, View.ld_unit_zero (S := S3x3) zero_off2]
  rfl

/-! ## The first point -/

/-- The stores it makes into the low-pass table. -/
theorem first_tabLow (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).2.1 = tabPieces (k0_pay1 x5 x6) (k0_pay3 (F := F)) := by
  unfold runFirst; dsimp only; sl_unfold_words
  simp only [View.readAt_eq_ld, harg5.read_unread, harg6.read_unread, View.ld_unit_zero (S := S10000x128) zero_off2,
    View.ld_unit_zero (S := S128x128) zero_off2]

/-- The stores it makes into the high-pass table. -/
theorem first_tabHigh (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).2.2.1 = tabPieces (k0_pay2 x5 x7) (k0_pay4 (F := F)) := by
  unfold runFirst; dsimp only; sl_unfold_words
  simp only [View.readAt_eq_ld, harg5.read_unread, harg7.read_unread, View.ld_unit_zero (S := S10000x128) zero_off2,
    View.ld_unit_zero (S := S128x128) zero_off2]

/-- Its one store into the output block covers it. -/
theorem first_cover (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) (y : S200x128.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).1 S200x128.size (by sl_kernel_rfl) y

/-- What it leaves in the output block: a later point's, over the tables it has just filled. -/
theorem first_out_eq (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) :
    View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).1
      = outOf i x1 x2 x3 x4 x5 x8 x9 x10 x11 x12 (tabLowOf x5 x6) (tabHighOf x5 x7) := by
  unfold runFirst; dsimp only; sl_unfold_words
  rw [View.canon_unit_zero zero_off2]
  simp only [View.readAt_eq_ld, harg1.read_unread, harg2.read_unread, harg3.read_unread, harg4.read_unread, harg5.read_unread,
    harg6.read_unread, harg7.read_unread,
    harg8.read_unread, harg9.read_unread, harg10.read_unread, harg11.read_unread, harg12.read_unread,
    View.ld_unit_zero (S := S200x5120) zero_off2, View.ld_unit_zero (S := S128x128) zero_off2,
    View.ld_unit_zero (S := S128x1) zero_off2, View.ld_unit_zero (S := S3x3) zero_off2,
    View.ld_unit_zero (S := S10000x128) zero_off2]
  rw [View.readCov_eq_canon_ld _ _ _ (tabPieces_cover (k0_pay1 x5 x6) (k0_pay3 (F := F))),
    View.readCov_eq_canon_ld _ _ _ (tabPieces_cover (k0_pay1 x5 x6) (k0_pay3 (F := F))),
    View.readCov_eq_canon_ld _ _ _ (tabPieces_cover (k0_pay2 x5 x7) (k0_pay4 (F := F))),
    View.readCov_eq_canon_ld _ _ _ (tabPieces_cover (k0_pay2 x5 x7) (k0_pay4 (F := F)))]
  rfl

end Cert.Kernel.Hand

end
-- ==== Proof.WordFrameData.lean ====
/-
  The pipeline's proof data for the fused layer kernel.

  @main is the call alone, so the region finds every buffer as the program was started with it.  An adjacency window's
  staging buffer holds its block on the part a fetch fills and anything elsewhere (the second-half windows overhang the
  matrix by 240 columns); the eight small operands are staged whole and stay as fetched.  The first point fills the two
  scratch tables and every later point finds them so; the output block at a point is the layer of the point's 200 rows,
  computed from those blocks and the tables.
-/
import proofs.«138006_g23888608100646_cont_8to1_832_26_alg».proof.Proof.WordMask
import proofs.«138006_g23888608100646_cont_8to1_832_26_alg».proof.Proof.WordForms

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s TensorCore buffers as the region finds them: @main has no operation before the call. -/
abbrev V (c : Dev nD) (b : Ref sig .tc) : Buf (Elt F) ((c : Thread nD τ).loc b) := m ((c : Thread nD τ).loc b)

/-- Window `w`'s block at point `t`, read off its array: the part of it inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Contents chosen once for the part of a staging buffer that no transfer fills. -/
def filler (w : Fin cfg0.W) : (cfg0.win w).block.Idx → Elt F (cfg0.win w).elt := fun _ => Classical.arbitrary _

/-- What window `w`'s staging buffer holds at point `t` once the block has landed in a buffer that held `d`. -/
def staged (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The grid's first point. -/
def t0 : Fin cfg0.N := ⟨0, by have : cfg0.N = 50 := N_0; omega⟩

/-- The low-pass table after the first point: the features projected by the low-pass weights, then zeros. -/
def tabLowAt (c : Dev nD) : Vec F S10240x128 .f32 := tabLowOf (iblk m c 4 t0) (iblk m c 5 t0)

/-- The high-pass table after the first point. -/
def tabHighAt (c : Dev nD) : Vec F S10240x128 .f32 := tabHighOf (iblk m c 4 t0) (iblk m c 6 t0)

/-- The output block of point `t`. -/
def outAt (c : Dev nD) (t : Fin cfg0.N) : Vec F S200x128 .f32 :=
  outOf (grid0.coords t) (staged m c 0 t (filler 0)) (staged m c 1 t (filler 1)) (staged m c 2 t (filler 2)) (staged m c 3 t (filler 3))
    (iblk m c 4 t) (iblk m c 7 t) (iblk m c 8 t) (iblk m c 9 t) (iblk m c 10 t) (iblk m c 11 t) (tabLowAt m c) (tabHighAt m c)

/-- The invariant between points: before the first, the two scratch tables at anything; afterwards, at what the
    first point stored. -/
def PhiS (c : Dev nD) : (n : ℕ) → n ≤ cfg0.N → sProp 𝕄
  | 0, _ => Pipeline.scopedRest spec0 c
  | _ + 1, _ => iprop(owns (c : Thread nD τ) tabLow fullShare (tabLowAt m c) ∗ owns (c : Thread nD τ) tabHigh fullShare (tabHighAt m c))

theorem PhiS_zero (c : Dev nD) (n : ℕ) (h : n ≤ cfg0.N) (hz : n = 0) : PhiS m c n h = Pipeline.scopedRest spec0 c := by
  subst hz; rfl

theorem PhiS_pos (c : Dev nD) (n : ℕ) (h : n ≤ cfg0.N) (hz : n ≠ 0) :
    PhiS m c n h = iprop(owns (c : Thread nD τ) tabLow fullShare (tabLowAt m c) ∗ owns (c : Thread nD τ) tabHigh fullShare (tabHighAt m c)) := by
  cases n with
  | zero => exact absurd rfl hz
  | succ n => rfl

/-- The proof data of the pipeline on core `c`. The two windows on each adjacency matrix hold a half share of it each. -/
def dats (_ : Fin 1) (c : Dev nD) : Dat τ (Elt F) Unit ℕ (UR sig nD τ) ℕ cfg0 c where
  A w := V m c (Pipeline.arrRef spec0 w)
  after w t := match w with
    | ⟨0, _⟩ => staged m c 0 t (filler 0)
    | ⟨1, _⟩ => staged m c 1 t (filler 1)
    | ⟨2, _⟩ => staged m c 2 t (filler 2)
    | ⟨3, _⟩ => staged m c 3 t (filler 3)
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := PhiS m c t.val (Nat.le_of_lt_succ t.isLt)
  q := fun | 0 => fullShare.left | 1 => fullShare.right | 2 => fullShare.left | 3 => fullShare.right | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = staged m c 0 t (filler 0) := by dsimp only [dats]
theorem after_1 (c : Dev nD) (t : Fin cfg0.N) : (dats m 0 c).after 1 t = staged m c 1 t (filler 1) := by dsimp only [dats]
theorem after_2 (c : Dev nD) (t : Fin cfg0.N) : (dats m 0 c).after 2 t = staged m c 2 t (filler 2) := by dsimp only [dats]
theorem after_3 (c : Dev nD) (t : Fin cfg0.N) : (dats m 0 c).after 3 t = staged m c 3 t (filler 3) := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outAt m c t := by dsimp only [dats]

end Cert.Kernel.Hand

end
-- ==== Proof.WordBefore.lean ====
/-
  What each window's staging buffer holds when the body runs at a point.

  An input window's buffer holds its block where the fetch filled it, fetched at that point or not (an unfetched window's
  block index has not moved, and the body leaves its inputs alone); the output's buffer holds anything.  The output block
  the body computes does not depend on what the adjacency buffers hold outside the fetched part: the first-half blocks
  are never cut, and the second-half blocks enter only through their first 4880 columns.
-/
import proofs.«138006_g23888608100646_cont_8to1_832_26_alg».proof.Proof.WordBlocks
import Idealize.ShloMosaic.Lib.ValueIdx
import proofs.«138006_g23888608100646_cont_8to1_832_26_alg».proof.Proof.WordFrameData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The inputs -/

/-- Window 0's cuts depend on the point only through its block index. -/
theorem clip_of_index_0 : ∀ t t' : Fin cfg0.N, (cfg0.win 0).index t = (cfg0.win 0).index t' →
    (cfg0.win 0).clip (cfg0.grid.coords t) = (cfg0.win 0).clip (cfg0.grid.coords t') :=
  fun t t' h => funext fun a => congrArg (fun v => Pipeline.Clip.of v (S200x5120.size a) (S10000x10000.size a)) (congrFun h a)

/-- Its staging buffer holds its block where the fetch filled it, at every point. -/
theorem before_0 (c : Dev nD) (t : Fin cfg0.N) (d) : (dats m 0 c).before 0 t d = staged m c 0 t d :=
  ((dats m 0 c).before_in_eq_fetched 0 rfl (fun _ => rfl) clip_of_index_0
    (fun t => by rw [after_0]; unfold staged; rw [Window.cut_fill]; unfold Dat.blockOf iblk; rw [A_eq]) t d).trans
    (by unfold Dat.fetched Dat.blockOf staged iblk; rw [A_eq])

/-- Window 1's cuts depend on the point only through its block index. -/
theorem clip_of_index_1 : ∀ t t' : Fin cfg0.N, (cfg0.win 1).index t = (cfg0.win 1).index t' →
    (cfg0.win 1).clip (cfg0.grid.coords t) = (cfg0.win 1).clip (cfg0.grid.coords t') :=
  fun t t' h => funext fun a => congrArg (fun v => Pipeline.Clip.of v (S200x5120.size a) (S10000x10000.size a)) (congrFun h a)

/-- Its staging buffer holds its block where the fetch filled it, at every point. -/
theorem before_1 (c : Dev nD) (t : Fin cfg0.N) (d) : (dats m 0 c).before 1 t d = staged m c 1 t d :=
  ((dats m 0 c).before_in_eq_fetched 1 rfl (fun _ => rfl) clip_of_index_1
    (fun t => by rw [after_1]; unfold staged; rw [Window.cut_fill]; unfold Dat.blockOf iblk; rw [A_eq]) t d).trans
    (by unfold Dat.fetched Dat.blockOf staged iblk; rw [A_eq])

/-- Window 2's cuts depend on the point only through its block index. -/
theorem clip_of_index_2 : ∀ t t' : Fin cfg0.N, (cfg0.win 2).index t = (cfg0.win 2).index t' →
    (cfg0.win 2).clip (cfg0.grid.coords t) = (cfg0.win 2).clip (cfg0.grid.coords t') :=
  fun t t' h => funext fun a => congrArg (fun v => Pipeline.Clip.of v (S200x5120.size a) (S10000x10000.size a)) (congrFun h a)

/-- Its staging buffer holds its block where the fetch filled it, at every point. -/
theorem before_2 (c : Dev nD) (t : Fin cfg0.N) (d) : (dats m 0 c).before 2 t d = staged m c 2 t d :=
  ((dats m 0 c).before_in_eq_fetched 2 rfl (fun _ => rfl) clip_of_index_2
    (fun t => by rw [after_2]; unfold staged; rw [Window.cut_fill]; unfold Dat.blockOf iblk; rw [A_eq]) t d).trans
    (by unfold Dat.fetched Dat.blockOf staged iblk; rw [A_eq])

/-- Window 3's cuts depend on the point only through its block index. -/
theorem clip_of_index_3 : ∀ t t' : Fin cfg0.N, (cfg0.win 3).index t = (cfg0.win 3).index t' →
    (cfg0.win 3).clip (cfg0.grid.coords t) = (cfg0.win 3).clip (cfg0.grid.coords t') :=
  fun t t' h => funext fun a => congrArg (fun v => Pipeline.Clip.of v (S200x5120.size a) (S10000x10000.size a)) (congrFun h a)

/-- Its staging buffer holds its block where the fetch filled it, at every point. -/
theorem before_3 (c : Dev nD) (t : Fin cfg0.N) (d) : (dats m 0 c).before 3 t d = staged m c 3 t d :=
  ((dats m 0 c).before_in_eq_fetched 3 rfl (fun _ => rfl) clip_of_index_3
    (fun t => by rw [after_3]; unfold staged; rw [Window.cut_fill]; unfold Dat.blockOf iblk; rw [A_eq]) t d).trans
    (by unfold Dat.fetched Dat.blockOf staged iblk; rw [A_eq])

/-- Window 4 is staged whole: its buffer holds the array at every point, fetched there or not. -/
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Window 5 is staged whole: its buffer holds the array at every point, fetched there or not. -/
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- Window 6 is staged whole: its buffer holds the array at every point, fetched there or not. -/
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- Window 7 is staged whole: its buffer holds the array at every point, fetched there or not. -/
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- Window 8 is staged whole: its buffer holds the array at every point, fetched there or not. -/
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-- Window 9 is staged whole: its buffer holds the array at every point, fetched there or not. -/
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-- Window 10 is staged whole: its buffer holds the array at every point, fetched there or not. -/
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-- Window 11 is staged whole: its buffer holds the array at every point, fetched there or not. -/
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-! ## The output -/

/-- The output window fetches nothing. -/
theorem fetch_12 : ∀ t : Fin cfg0.N, (cfg0.win 12).fetch t = false :=
  (by decide +kernel : ∀ t : Fin grid0.N, (cfg0.win 12).fetch t = false)

/-- Its buffer holds whatever it held: at the first point nothing has touched it, and afterwards the block was written
    back at the point before. -/
theorem before_12 (c : Dev nD) (t : Fin cfg0.N) (d) : (dats m 0 c).before 12 t d = d := by
  by_cases hz : t.val = 0
  · unfold Dat.before; rw [fetch_12 t, if_neg Bool.false_ne_true, if_pos hz]
  · rw [(dats m 0 c).before_of_pos 12 t hz (fetch_12 t) d, flush0_12, if_pos rfl]

/-! ## The output block does not depend on the fillers -/

/-- Window 0's blocks are never cut, so what its staging buffer held before the fetch does not matter. -/
theorem staged_indep_0 (c : Dev nD) (t : Fin cfg0.N) (d d') : staged m c 0 t d = staged m c 0 t d' := by
  funext j
  obtain ⟨p, k, rfl⟩ : ∃ (p : Fin 200) (k : Fin 5120), j = ix2 p k := ⟨j 0, j 1, eq_ix2 j⟩
  obtain ⟨e0, e1, e2, e3⟩ := BlockIdx.facts_0 t
  have hm : win0_0.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_0.xsize (grid0.coords t) (0 : Fin 2); rw [e2]; exact p.isLt
    · show k.val < win0_0.xsize (grid0.coords t) (1 : Fin 2); rw [e3]; exact k.isLt
  show win0_0.fill (grid0.coords t) d _ (ix2 p k) = win0_0.fill (grid0.coords t) d' _ (ix2 p k)
  unfold Window.fill
  rw [dif_pos hm, dif_pos hm]

/-- Window 2's blocks are never cut, so what its staging buffer held before the fetch does not matter. -/
theorem staged_indep_2 (c : Dev nD) (t : Fin cfg0.N) (d d') : staged m c 2 t d = staged m c 2 t d' := by
  funext j
  obtain ⟨p, k, rfl⟩ : ∃ (p : Fin 200) (k : Fin 5120), j = ix2 p k := ⟨j 0, j 1, eq_ix2 j⟩
  obtain ⟨e0, e1, e2, e3⟩ := BlockIdx.facts_2 t
  have hm : win0_2.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_2.xsize (grid0.coords t) (0 : Fin 2); rw [e2]; exact p.isLt
    · show k.val < win0_2.xsize (grid0.coords t) (1 : Fin 2); rw [e3]; exact k.isLt
  show win0_2.fill (grid0.coords t) d _ (ix2 p k) = win0_2.fill (grid0.coords t) d' _ (ix2 p k)
  unfold Window.fill
  rw [dif_pos hm, dif_pos hm]

/-- Window 1's blocks are cut to their first 4880 columns: there the staging buffer holds the block whatever it held before. -/
theorem staged_agree_1 (c : Dev nD) (t : Fin cfg0.N) (d d') (p : Fin 200) (k : Fin 5120) (hk : k.val < 4880) :
    staged m c 1 t d (ix2 p k) = staged m c 1 t d' (ix2 p k) := by
  obtain ⟨e0, e1, e2, e3⟩ := BlockIdx.facts_1 t
  have hm : win0_1.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_1.xsize (grid0.coords t) (0 : Fin 2); rw [e2]; exact p.isLt
    · show k.val < win0_1.xsize (grid0.coords t) (1 : Fin 2); rw [e3]; exact hk
  show win0_1.fill (grid0.coords t) d _ (ix2 p k) = win0_1.fill (grid0.coords t) d' _ (ix2 p k)
  unfold Window.fill
  rw [dif_pos hm, dif_pos hm]

/-- Window 3's blocks are cut to their first 4880 columns: there the staging buffer holds the block whatever it held before. -/
theorem staged_agree_3 (c : Dev nD) (t : Fin cfg0.N) (d d') (p : Fin 200) (k : Fin 5120) (hk : k.val < 4880) :
    staged m c 3 t d (ix2 p k) = staged m c 3 t d' (ix2 p k) := by
  obtain ⟨e0, e1, e2, e3⟩ := BlockIdx.facts_3 t
  have hm : win0_3.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_3.xsize (grid0.coords t) (0 : Fin 2); rw [e2]; exact p.isLt
    · show k.val < win0_3.xsize (grid0.coords t) (1 : Fin 2); rw [e3]; exact hk
  show win0_3.fill (grid0.coords t) d _ (ix2 p k) = win0_3.fill (grid0.coords t) d' _ (ix2 p k)
  unfold Window.fill
  rw [dif_pos hm, dif_pos hm]

/-- The output block computed from the staging buffers as the body finds them is the one named by the proof data. -/
theorem outOf_staged (c : Dev nD) (t : Fin cfg0.N) (d0 d1 d2 d3) (x5 : Vec F S10000x128 .f32) (x8 : Vec F S128x128 .f32)
    (x9 x10 x11 : Vec F S128x1 .f32) (x12 : Vec F S3x3 .f32) (T0 T1 : Vec F S10240x128 .f32) :
    outOf (grid0.coords t) (staged m c 0 t d0) (staged m c 1 t d1) (staged m c 2 t d2) (staged m c 3 t d3) x5 x8 x9 x10 x11 x12 T0 T1
      = outOf (grid0.coords t) (staged m c 0 t (filler 0)) (staged m c 1 t (filler 1)) (staged m c 2 t (filler 2)) (staged m c 3 t (filler 3)) x5 x8 x9 x10 x11 x12 T0 T1 := by
  unfold outOf
  rw [staged_indep_0 m c t d0 (filler 0), staged_indep_2 m c t d2 (filler 2),
    pay6_congr (staged m c 1 t d1) (staged m c 1 t (filler 1)) _ _ _ (staged_agree_1 m c t d1 (filler 1)),
    pay7_congr (staged m c 3 t d3) (staged m c 3 t (filler 3)) _ _ _ (staged_agree_3 m c t d3 (filler 3))]

end Cert.Kernel.Hand

end
-- ==== Proof.WordBody.lean ====
/-
  The body obligation: at every grid point the kernel's body, handed the staging buffers at what they hold and the
  invariant, runs to the invariant at the next point with every input buffer as it found it and the output buffer at the
  point's output block.  At the first point the invariant gives the two scratch tables at anything and takes them back
  filled; at a later point it gives them filled and takes them back untouched.
-/
import proofs.«138006_g23888608100646_cont_8to1_832_26_alg».proof.Proof.WordBefore

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Before the first point the invariant is the two scratch tables, each whole at some contents. -/
theorem Phi0_eq (c : Dev nD) :
    (Pipeline.scopedRest spec0 c : sProp 𝕄)
      = iprop((∃ d, owns (c : Thread nD τ) tabLow fullShare d) ∗ (∃ d, owns (c : Thread nD τ) tabHigh fullShare d)) := by
  rw [scopedRest0_eq]; simp only [tabLow, tabHigh, owns_whole]; rfl

/-- Refilling a staging buffer with the fetched part of what it holds gives what a fetch into it gives. -/
theorem fill_cut_staged (c : Dev nD) (w : Fin 13) (t : Fin cfg0.N) (d d') :
    (win0 w).fill (grid0.coords t) d ((win0 w).cut (grid0.coords t) (staged m c w t d')) = staged m c w t d := by
  unfold staged; exact congrArg _ (Window.cut_fill _ _ _ _)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns: the adjacency buffers at their blocks where fetched, the other inputs as found, the output block. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [after_0, after_1, after_2, after_3, after_4, after_5, after_6, after_7, after_8, after_9, after_10, after_11, after_12]
  have e0 : ∀ d, (win0 0).fill (grid0.coords t) d ((win0 0).cut (grid0.coords t) (staged m c 0 t (filler 0))) = staged m c 0 t d :=
    fun d => fill_cut_staged m c 0 t d _
  have e1 : ∀ d, (win0 1).fill (grid0.coords t) d ((win0 1).cut (grid0.coords t) (staged m c 1 t (filler 1))) = staged m c 1 t d :=
    fun d => fill_cut_staged m c 1 t d _
  have e2 : ∀ d, (win0 2).fill (grid0.coords t) d ((win0 2).cut (grid0.coords t) (staged m c 2 t (filler 2))) = staged m c 2 t d :=
    fun d => fill_cut_staged m c 2 t d _
  have e3 : ∀ d, (win0 3).fill (grid0.coords t) d ((win0 3).cut (grid0.coords t) (staged m c 3 t (filler 3))) = staged m c 3 t d :=
    fun d => fill_cut_staged m c 3 t d _
  simp only [e0, e1, e2, e3]
  by_cases hz : t.val = 0
  · have ht : t = t0 := Fin.ext hz
    subst ht
    have hf : isFirst (grid0.coords t0) := (isFirst_iff t0).mpr hz
    rw [PhiS_castSucc m c t0, PhiS_zero m c _ _ hz, Phi0_eq]
    iintro ⟨⟨⟨%f0, HS0⟩, ⟨%f1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t0) _ _ _ _ _ _ _ _ _ _ _ _ _ _ _ _ _ _ _ _ _ _ _ _ _ _ _ _ _ _ hf (staged m c 0 t0 d0) (staged m c 1 t0 d1) (staged m c 2 t0 d2) (staged m c 3 t0 d3) (iblk m c 4 t0) (iblk m c 5 t0) (iblk m c 6 t0) (iblk m c 7 t0) (iblk m c 8 t0) (iblk m c 9 t0) (iblk m c 10 t0) (iblk m c 11 t0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexists _; iexact HS0
    isplitl [HS1]; · iexists _; iexact HS1
    iintro ⟨H0, H1, H2, H3, H4, H5, H6, H7, H8, H9, H10, H11, ⟨%e12, H12⟩, ⟨%es0, HS0⟩, ⟨%es1, HS1⟩⟩
    isplitl [HS0 HS1]
    · isplitl [HS0]
      · unfold owns; iexists _; isplitr
        swap; · iexact HS0
        ipureintro
        rw [first_tabLow]
        exact View.read_writes_eq_canon _ _ _ (tabPieces_cover _ _)
      · unfold owns; iexists _; isplitr
        swap; · iexact HS1
        ipureintro
        rw [first_tabHigh]
        exact View.read_writes_eq_canon _ _ _ (tabPieces_cover _ _)
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (View.read_writes_eq_canon _ _ _ (fun y => first_cover _ _ _ _ _ _ _ _ _ _ _ _ _ _ _ _ _ _ _ _ _ _ _ _ _ _ _ _ _ _ _ _ _ _ _ _ _ _ _ _ _ _ _ _ _ y)).trans
      ((first_out_eq _ _ _ _ _ _ _ _ _ _ _ _ _ _ _ _ _ _ _ _ _ _ _ _ _ _ _ _ _ _ _ _ _ _ _ _ _ _ _ _ _ _ _ _ _).trans (outOf_staged m c t0 d0 d1 d2 d3 _ _ _ _ _ _ _ _))
  · have hnf : ¬isFirst (grid0.coords t) := fun h => hz ((isFirst_iff t).mp h)
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLater c (grid0.coords t) _ _ _ _ _ _ _ _ _ _ _ _ _ _ _ _ _ _ _ _ _ _ _ _ _ _ _ _ _ _ hnf (staged m c 0 t d0) (staged m c 1 t d1) (staged m c 2 t d2) (staged m c 3 t d3) (iblk m c 4 t) (iblk m c 5 t) (iblk m c 6 t) (iblk m c 7 t) (iblk m c 8 t) (iblk m c 9 t) (iblk m c 10 t) (iblk m c 11 t) (tabLowAt m c) (tabHighAt m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    iintro ⟨H0, H1, H2, H3, H4, H5, H6, H7, H8, H9, H10, H11, ⟨%e12, H12⟩, HS0, HS1⟩
    isplitl [HS0 HS1]
    · isplitl [HS0]
      · iexact HS0
      · iexact HS1
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (View.read_writes_eq_canon _ _ _ (fun y => later_cover _ _ _ _ _ _ _ _ _ _ _ _ _ _ _ _ _ _ _ _ _ _ _ _ _ _ _ _ _ _ _ _ _ _ _ _ _ _ _ _ _ _ _ _ _ _ _ y)).trans
      ((later_out_eq _ _ _ _ _ _ _ _ _ _ _ _ _ _ _ _ _ _ _ _ _ _ _ _ _ _ _ _ _ _ _ _ _ _ _ _ _ _ _ _ _ _ _ _ _ _ _).trans (outOf_staged m c t d0 d1 d2 d3 _ _ _ _ _ _ _ _))

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.WordLaunch.lean ====
/-
  The run of the fused layer kernel and its frame.

  @main is the call alone.  The launch hands the pipeline the eleven distinct buffers behind its thirteen windows, each
  whole; the two windows on each adjacency matrix take half a share of it each, which is all a window that only reads
  needs.  With the body obligation this gives: every weakly fair execution terminates without a fault, and every array
  ends at what the write-backs make of it, an input array at what it held.
-/
import Idealize.ShloMosaic.Lib.Pipeline.Kit
import Idealize.ShloMosaic.Lib.Pipeline.Launch
import proofs.«138006_g23888608100646_cont_8to1_832_26_alg».proof.Proof.WordBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.SL.BI (bigSep bigSepL bigSep_eq_bigSepL_of_eq bigSep_congr)

open Cert.Kernel Cert.Kernel.Gen

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

/-- What the launch starts the pipeline's cells from. -/
def u₀ : UR sig nD τ := initOf (Pipeline.cells cfgs cellOf_inj) (Pipeline.launchToks cfgs cellOf_inj)

variable (m : (ℓ : Loc nD τ sig) → Buf (Elt F) ℓ) (ρ : Dev nD → PrngReg)

/-- The pipeline's arrays at entry, window by window, as points-tos of the buffers behind them. -/
theorem arrays_entry (c : Dev nD) :
    (dats m 0 c).arrays ((dats m 0 c).arrAt · 0)
      = bigSep Finset.univ fun w : Fin 13 =>
          ((((c : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- The eleven buffers, each whole, make the thirteen windows' arrays: an adjacency matrix is split between its two windows. -/
theorem hsplit (c : Dev nD) : Pipeline.arrBufs spec0 c (V m c) ⊢ (dats m 0 c).arrays ((dats m 0 c).arrAt · 0) := by
  rw [arrays_entry, bigSep_W0]
  have hL : (Pipeline.arrBufs spec0 c (V m c) : sProp 𝕄)
      = iprop((((c : Thread nD τ).loc main_arg1) ↦{fullShare} V m c main_arg1) ∗ (((c : Thread nD τ).loc main_arg2) ↦{fullShare} V m c main_arg2) ∗ (((c : Thread nD τ).loc main_arg0) ↦{fullShare} V m c main_arg0) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_v0) ↦{fullShare} V m c main_v0)) := by
    unfold Pipeline.arrBufs
    rw [bigSep_eq_bigSepL_of_eq [main_arg1, main_arg2, main_arg0, main_arg3, main_arg4, main_arg5, main_arg6, main_arg7, main_arg8, main_arg9, main_v0] (by decide) (by decide)]
    rfl
  rw [hL]
  refine (BIClass.sep_mono (pointsTo_share (PosShare.mem_left_op_right fullShare)).1
    (BIClass.sep_mono (pointsTo_share (PosShare.mem_left_op_right fullShare)).1 .rfl)).trans ?_
  iintro ⟨⟨B1l, B1r⟩, ⟨B2l, B2r⟩, B0, B3, B4, B5, B6, B7, B8, B9, Bo⟩
  isplitl [B1l]; · iexact B1l
  isplitl [B1r]; · iexact B1r
  isplitl [B2l]; · iexact B2l
  isplitl [B2r]; · iexact B2r
  isplitl [B0]; · iexact B0
  isplitl [B3]; · iexact B3
  isplitl [B4]; · iexact B4
  isplitl [B5]; · iexact B5
  isplitl [B6]; · iexact B6
  isplitl [B7]; · iexact B7
  isplitl [B8]; · iexact B8
  isplitl [B9]; · iexact B9
  iexact Bo

-- the launch theorem's implicit arguments are found by unifying its conclusion with this one, which takes unfolding
-- plain definitions in a metavariable's type
set_option backward.isDefEq.respectTransparency.types false in
/-- From any memory with zero counters every weakly fair execution of @main on the TensorCores terminates, and every
    array of the kernel ends at what the library computes from the proof data. -/
theorem run_main : θ_run defs (onTc (τ := τ) (main (F := F))) ⟨m, fun _ => 0, ρ⟩
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      rw [main_chain]
      simp only [Pipeline.chain, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 50 := N_0; omega), Phi0_eq]
      iintro ⟨H0, H1⟩
      isplitr; · iempintro
      isplitl [H0]; · iexists _; iexact H0
      iexists _; iexact H1)
    (QY := fun _ _ => True)
    (hY := fun c s' => by
      iintro ⟨-, -, HSI⟩; imodintro
      isplitr; · ipureintro; trivial
      iexact HSI)
    (hQ := fun _ h c w => (h c).1 w)

/-- info: 'Cert.Kernel.Hand.run_main' depends on axioms: [propext, Classical.choice, Quot.sound] -/
#guard_msgs in #print axioms run_main

/-- THE FRAME: the kernel runs to the end from any memory, faults nowhere, and its ten argument arrays end as
    they began (an input array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c 4).trans ((dats (F := F) m 0 c).arrAt_in (4 : Fin 13) rfl _)),
     ((h c 0).trans ((dats (F := F) m 0 c).arrAt_in (0 : Fin 13) rfl _)),
     ((h c 2).trans ((dats (F := F) m 0 c).arrAt_in (2 : Fin 13) rfl _)),
     ((h c 5).trans ((dats (F := F) m 0 c).arrAt_in (5 : Fin 13) rfl _)),
     ((h c 6).trans ((dats (F := F) m 0 c).arrAt_in (6 : Fin 13) rfl _)),
     ((h c 7).trans ((dats (F := F) m 0 c).arrAt_in (7 : Fin 13) rfl _)),
     ((h c 8).trans ((dats (F := F) m 0 c).arrAt_in (8 : Fin 13) rfl _)),
     ((h c 9).trans ((dats (F := F) m 0 c).arrAt_in (9 : Fin 13) rfl _)),
     ((h c 10).trans ((dats (F := F) m 0 c).arrAt_in (10 : Fin 13) rfl _)),
     ((h c 11).trans ((dats (F := F) m 0 c).arrAt_in (11 : Fin 13) rfl _))⟩) (run_main m ρ)

end Cert.Kernel.Hand

end
-- ==== Proof.IdealBlocks.lean ====
/-
  What the kernel's windows stage, read at an index.

  The two adjacency matrices (10000 x 10000) are staged in blocks of 200 rows by 5120 columns: at grid point t the block
  row is t, and each matrix has a window on block column 0 (columns 0 .. 5119) and a window on block column 1 (columns
  5120 .. 10239), whose last 240 columns overhang the matrix and are cut off, so that only its first 4880 columns are
  moved.  Entry (p, k) of a staged block is the matrix's entry (200 t + p, k) for a first-half window, and
  (200 t + p, 5120 + k) for a second-half window when k < 4880.  The eight small operands are staged whole: the block
  is the array.  The result's window is the block of rows 200 t .. 200 t + 199, and the fifty blocks cover the 10000 rows.
-/
import proofs.«138006_g23888608100646_cont_8to1_832_26_alg».proof.Proof.Gen.KernelIdeal.Points
import Idealize.ShloMosaic.Lib.ValueIdx

set_option maxRecDepth 16384

noncomputable section

namespace Cert.KernelIdeal.BlockIdx

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F] [Named F]

/-- The grid has fifty points. -/
theorem grid_points : cfg0.N = 50 := (by decide : grid0.N = 50)

/-! ## The adjacency windows -/

/-- Window 0 over the fifty points: block row t, block column 0, nothing cut. -/
theorem facts_0 : ∀ t : Fin cfg0.N, win0_0.index t (0 : Fin 2) = t.val ∧ win0_0.index t (1 : Fin 2) = 0
    ∧ win0_0.xsize (grid0.coords t) (0 : Fin 2) = 200 ∧ win0_0.xsize (grid0.coords t) (1 : Fin 2) = 5120 :=
  (by decide +kernel : ∀ t : Fin grid0.N, _)

/-- Entry (p, k) of the block window 0 stages at point t is the low-pass matrix's entry (200 t + p, k). -/
theorem stage_0_apply (c : Dev nD) (A : Buf (Elt F) ((cfg0.win 0).arr.view.loc (c : Thread nD τ))) (t : Fin cfg0.N)
    (d : (cfg0.win 0).block.Idx → Elt F (cfg0.win 0).elt) (p : Fin 200) (k : Fin 5120) :
    (cfg0.win 0).fill (cfg0.grid.coords t) d (((cfg0.win 0).blk t).view.read (Elt F) A) (ix2 p k)
      = (cfg0.win 0).arr.view.read (Elt F) A
          (ix2 (⟨200 * t.val + p.val, by have := t.isLt; have := grid_points; have := p.isLt; omega⟩ : Fin 10000)
            (⟨k.val, by have := k.isLt; omega⟩ : Fin 10000)) := by
  obtain ⟨e0, e1, e2, e3⟩ := facts_0 t
  have hm : win0_0.moved (grid0.coords t) (ix2 p k) = true := by
    rw [Window.moved_iff]
    intro a
    match a with
    | ⟨0, _⟩ => show p.val < win0_0.xsize (grid0.coords t) (0 : Fin 2); rw [e2]; exact p.isLt
    | ⟨1, _⟩ => show k.val < win0_0.xsize (grid0.coords t) (1 : Fin 2); rw [e3]; exact k.isLt
  show win0_0.fill (grid0.coords t) d _ (ix2 p k) = _
  unfold Window.fill
  rw [dif_pos hm]
  show A (((cfg0.win 0).blk t).view.emb _) = A _
  refine congrArg A ?_
  funext a; apply Fin.ext
  match a with
  | ⟨0, _⟩ => show win0_0.index t (0 : Fin 2) * 200 + 1 * p.val = 200 * t.val + p.val; rw [e0]; omega
  | ⟨1, _⟩ => show win0_0.index t (1 : Fin 2) * 5120 + 1 * k.val = k.val; rw [e1]; omega

/-- Window 1 over the fifty points: block row t, block column 1, cut to its first 4880 columns. -/
theorem facts_1 : ∀ t : Fin cfg0.N, win0_1.index t (0 : Fin 2) = t.val ∧ win0_1.index t (1 : Fin 2) = 1
    ∧ win0_1.xsize (grid0.coords t) (0 : Fin 2) = 200 ∧ win0_1.xsize (grid0.coords t) (1 : Fin 2) = 4880 :=
  (by decide +kernel : ∀ t : Fin grid0.N, _)

/-- Entry (p, k) of the block window 1 stages at point t is the low-pass matrix's entry (200 t + p, 5120 + k), for k < 4880. -/
theorem stage_1_apply (c : Dev nD) (A : Buf (Elt F) ((cfg0.win 1).arr.view.loc (c : Thread nD τ))) (t : Fin cfg0.N)
    (d : (cfg0.win 1).block.Idx → Elt F (cfg0.win 1).elt) (p : Fin 200) (k : Fin 5120) (hk : k.val < 4880) :
    (cfg0.win 1).fill (cfg0.grid.coords t) d (((cfg0.win 1).blk t).view.read (Elt F) A) (ix2 p k)
      = (cfg0.win 1).arr.view.read (Elt F) A
          (ix2 (⟨200 * t.val + p.val, by have := t.isLt; have := grid_points; have := p.isLt; omega⟩ : Fin 10000)
            (⟨5120 + k.val, by omega⟩ : Fin 10000)) := by
  obtain ⟨e0, e1, e2, e3⟩ := facts_1 t
  have hm : win0_1.moved (grid0.coords t) (ix2 p k) = true := by
    rw [Window.moved_iff]
    intro a
    match a with
    | ⟨0, _⟩ => show p.val < win0_1.xsize (grid0.coords t) (0 : Fin 2); rw [e2]; exact p.isLt
    | ⟨1, _⟩ => show k.val < win0_1.xsize (grid0.coords t) (1 : Fin 2); rw [e3]; exact hk
  show win0_1.fill (grid0.coords t) d _ (ix2 p k) = _
  unfold Window.fill
  rw [dif_pos hm]
  show A (((cfg0.win 1).blk t).view.emb _) = A _
  refine congrArg A ?_
  funext a; apply Fin.ext
  obtain ⟨av, ha⟩ := a
  have ha2 : av < 2 := ha
  have h01 : av = 0 ∨ av = 1 := by omega
  rcases h01 with rfl | rfl
  · show win0_1.index t (0 : Fin 2) * 200 + 1 * p.val = 200 * t.val + p.val; rw [e0]; omega
  · show win0_1.index t (1 : Fin 2) * 5120 + 1 * k.val = 5120 + k.val; rw [e1]; omega

/-- Window 2 over the fifty points: block row t, block column 0, nothing cut. -/
theorem facts_2 : ∀ t : Fin cfg0.N, win0_2.index t (0 : Fin 2) = t.val ∧ win0_2.index t (1 : Fin 2) = 0
    ∧ win0_2.xsize (grid0.coords t) (0 : Fin 2) = 200 ∧ win0_2.xsize (grid0.coords t) (1 : Fin 2) = 5120 :=
  (by decide +kernel : ∀ t : Fin grid0.N, _)

/-- Entry (p, k) of the block window 2 stages at point t is the high-pass matrix's entry (200 t + p, k). -/
theorem stage_2_apply (c : Dev nD) (A : Buf (Elt F) ((cfg0.win 2).arr.view.loc (c : Thread nD τ))) (t : Fin cfg0.N)
    (d : (cfg0.win 2).block.Idx → Elt F (cfg0.win 2).elt) (p : Fin 200) (k : Fin 5120) :
    (cfg0.win 2).fill (cfg0.grid.coords t) d (((cfg0.win 2).blk t).view.read (Elt F) A) (ix2 p k)
      = (cfg0.win 2).arr.view.read (Elt F) A
          (ix2 (⟨200 * t.val + p.val, by have := t.isLt; have := grid_points; have := p.isLt; omega⟩ : Fin 10000)
            (⟨k.val, by have := k.isLt; omega⟩ : Fin 10000)) := by
  obtain ⟨e0, e1, e2, e3⟩ := facts_2 t
  have hm : win0_2.moved (grid0.coords t) (ix2 p k) = true := by
    rw [Window.moved_iff]
    intro a
    match a with
    | ⟨0, _⟩ => show p.val < win0_2.xsize (grid0.coords t) (0 : Fin 2); rw [e2]; exact p.isLt
    | ⟨1, _⟩ => show k.val < win0_2.xsize (grid0.coords t) (1 : Fin 2); rw [e3]; exact k.isLt
  show win0_2.fill (grid0.coords t) d _ (ix2 p k) = _
  unfold Window.fill
  rw [dif_pos hm]
  show A (((cfg0.win 2).blk t).view.emb _) = A _
  refine congrArg A ?_
  funext a; apply Fin.ext
  match a with
  | ⟨0, _⟩ => show win0_2.index t (0 : Fin 2) * 200 + 1 * p.val = 200 * t.val + p.val; rw [e0]; omega
  | ⟨1, _⟩ => show win0_2.index t (1 : Fin 2) * 5120 + 1 * k.val = k.val; rw [e1]; omega

/-- Window 3 over the fifty points: block row t, block column 1, cut to its first 4880 columns. -/
theorem facts_3 : ∀ t : Fin cfg0.N, win0_3.index t (0 : Fin 2) = t.val ∧ win0_3.index t (1 : Fin 2) = 1
    ∧ win0_3.xsize (grid0.coords t) (0 : Fin 2) = 200 ∧ win0_3.xsize (grid0.coords t) (1 : Fin 2) = 4880 :=
  (by decide +kernel : ∀ t : Fin grid0.N, _)

/-- Entry (p, k) of the block window 3 stages at point t is the high-pass matrix's entry (200 t + p, 5120 + k), for k < 4880. -/
theorem stage_3_apply (c : Dev nD) (A : Buf (Elt F) ((cfg0.win 3).arr.view.loc (c : Thread nD τ))) (t : Fin cfg0.N)
    (d : (cfg0.win 3).block.Idx → Elt F (cfg0.win 3).elt) (p : Fin 200) (k : Fin 5120) (hk : k.val < 4880) :
    (cfg0.win 3).fill (cfg0.grid.coords t) d (((cfg0.win 3).blk t).view.read (Elt F) A) (ix2 p k)
      = (cfg0.win 3).arr.view.read (Elt F) A
          (ix2 (⟨200 * t.val + p.val, by have := t.isLt; have := grid_points; have := p.isLt; omega⟩ : Fin 10000)
            (⟨5120 + k.val, by omega⟩ : Fin 10000)) := by
  obtain ⟨e0, e1, e2, e3⟩ := facts_3 t
  have hm : win0_3.moved (grid0.coords t) (ix2 p k) = true := by
    rw [Window.moved_iff]
    intro a
    match a with
    | ⟨0, _⟩ => show p.val < win0_3.xsize (grid0.coords t) (0 : Fin 2); rw [e2]; exact p.isLt
    | ⟨1, _⟩ => show k.val < win0_3.xsize (grid0.coords t) (1 : Fin 2); rw [e3]; exact hk
  show win0_3.fill (grid0.coords t) d _ (ix2 p k) = _
  unfold Window.fill
  rw [dif_pos hm]
  show A (((cfg0.win 3).blk t).view.emb _) = A _
  refine congrArg A ?_
  funext a; apply Fin.ext
  obtain ⟨av, ha⟩ := a
  have ha2 : av < 2 := ha
  have h01 : av = 0 ∨ av = 1 := by omega
  rcases h01 with rfl | rfl
  · show win0_3.index t (0 : Fin 2) * 200 + 1 * p.val = 200 * t.val + p.val; rw [e0]; omega
  · show win0_3.index t (1 : Fin 2) * 5120 + 1 * k.val = 5120 + k.val; rw [e1]; omega

/-! ## The operands staged whole -/

/-- Window 4 over the fifty points: always block (0, 0). -/
theorem facts_4 : ∀ t : Fin cfg0.N, win0_4.index t (0 : Fin 2) = 0 ∧ win0_4.index t (1 : Fin 2) = 0 :=
  (by decide +kernel : ∀ t : Fin grid0.N, _)

/-- Window 4 stages the node features whole: the block is the array. -/
theorem stage_4_apply (c : Dev nD) (A : Buf (Elt F) ((cfg0.win 4).arr.view.loc (c : Thread nD τ))) (t : Fin cfg0.N)
    (d : (cfg0.win 4).block.Idx → Elt F (cfg0.win 4).elt) (j : (cfg0.win 4).block.Idx) :
    (cfg0.win 4).fill (cfg0.grid.coords t) d (((cfg0.win 4).blk t).view.read (Elt F) A) j
      = (cfg0.win 4).arr.view.read (Elt F) A j := by
  obtain ⟨e0, e1⟩ := facts_4 t
  have hm : win0_4.moved (grid0.coords t) j = true := by
    rw [Window.moved_iff]
    intro a
    exact (j a).isLt
  show win0_4.fill (grid0.coords t) d _ j = _
  unfold Window.fill
  rw [dif_pos hm]
  show A (((cfg0.win 4).blk t).view.emb _) = A j
  refine congrArg A ?_
  funext a; apply Fin.ext
  match a with
  | ⟨0, _⟩ => show win0_4.index t (0 : Fin 2) * 10000 + 1 * (j 0).val = (j 0).val; rw [e0]; omega
  | ⟨1, _⟩ => show win0_4.index t (1 : Fin 2) * 128 + 1 * (j 1).val = (j 1).val; rw [e1]; omega

/-- Window 5 over the fifty points: always block (0, 0). -/
theorem facts_5 : ∀ t : Fin cfg0.N, win0_5.index t (0 : Fin 2) = 0 ∧ win0_5.index t (1 : Fin 2) = 0 :=
  (by decide +kernel : ∀ t : Fin grid0.N, _)

/-- Window 5 stages the low-pass weight matrix whole: the block is the array. -/
theorem stage_5_apply (c : Dev nD) (A : Buf (Elt F) ((cfg0.win 5).arr.view.loc (c : Thread nD τ))) (t : Fin cfg0.N)
    (d : (cfg0.win 5).block.Idx → Elt F (cfg0.win 5).elt) (j : (cfg0.win 5).block.Idx) :
    (cfg0.win 5).fill (cfg0.grid.coords t) d (((cfg0.win 5).blk t).view.read (Elt F) A) j
      = (cfg0.win 5).arr.view.read (Elt F) A j := by
  obtain ⟨e0, e1⟩ := facts_5 t
  have hm : win0_5.moved (grid0.coords t) j = true := by
    rw [Window.moved_iff]
    intro a
    exact (j a).isLt
  show win0_5.fill (grid0.coords t) d _ j = _
  unfold Window.fill
  rw [dif_pos hm]
  show A (((cfg0.win 5).blk t).view.emb _) = A j
  refine congrArg A ?_
  funext a; apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- Window 6 over the fifty points: always block (0, 0). -/
theorem facts_6 : ∀ t : Fin cfg0.N, win0_6.index t (0 : Fin 2) = 0 ∧ win0_6.index t (1 : Fin 2) = 0 :=
  (by decide +kernel : ∀ t : Fin grid0.N, _)

/-- Window 6 stages the high-pass weight matrix whole: the block is the array. -/
theorem stage_6_apply (c : Dev nD) (A : Buf (Elt F) ((cfg0.win 6).arr.view.loc (c : Thread nD τ))) (t : Fin cfg0.N)
    (d : (cfg0.win 6).block.Idx → Elt F (cfg0.win 6).elt) (j : (cfg0.win 6).block.Idx) :
    (cfg0.win 6).fill (cfg0.grid.coords t) d (((cfg0.win 6).blk t).view.read (Elt F) A) j
      = (cfg0.win 6).arr.view.read (Elt F) A j := by
  obtain ⟨e0, e1⟩ := facts_6 t
  have hm : win0_6.moved (grid0.coords t) j = true := by
    rw [Window.moved_iff]
    intro a
    exact (j a).isLt
  show win0_6.fill (grid0.coords t) d _ j = _
  unfold Window.fill
  rw [dif_pos hm]
  show A (((cfg0.win 6).blk t).view.emb _) = A j
  refine congrArg A ?_
  funext a; apply Fin.ext
  match a with
  | ⟨0, _⟩ => show win0_6.index t (0 : Fin 2) * 128 + 1 * (j 0).val = (j 0).val; rw [e0]; omega
  | ⟨1, _⟩ => show win0_6.index t (1 : Fin 2) * 128 + 1 * (j 1).val = (j 1).val; rw [e1]; omega

/-- Window 7 over the fifty points: always block (0, 0). -/
theorem facts_7 : ∀ t : Fin cfg0.N, win0_7.index t (0 : Fin 2) = 0 ∧ win0_7.index t (1 : Fin 2) = 0 :=
  (by decide +kernel : ∀ t : Fin grid0.N, _)

/-- Window 7 stages the plain weight matrix whole: the block is the array. -/
theorem stage_7_apply (c : Dev nD) (A : Buf (Elt F) ((cfg0.win 7).arr.view.loc (c : Thread nD τ))) (t : Fin cfg0.N)
    (d : (cfg0.win 7).block.Idx → Elt F (cfg0.win 7).elt) (j : (cfg0.win 7).block.Idx) :
    (cfg0.win 7).fill (cfg0.grid.coords t) d (((cfg0.win 7).blk t).view.read (Elt F) A) j
      = (cfg0.win 7).arr.view.read (Elt F) A j := by
  obtain ⟨e0, e1⟩ := facts_7 t
  have hm : win0_7.moved (grid0.coords t) j = true := by
    rw [Window.moved_iff]
    intro a
    exact (j a).isLt
  show win0_7.fill (grid0.coords t) d _ j = _
  unfold Window.fill
  rw [dif_pos hm]
  show A (((cfg0.win 7).blk t).view.emb _) = A j
  refine congrArg A ?_
  funext a; apply Fin.ext
  match a with
  | ⟨0, _⟩ => show win0_7.index t (0 : Fin 2) * 128 + 1 * (j 0).val = (j 0).val; rw [e0]; omega
  | ⟨1, _⟩ => show win0_7.index t (1 : Fin 2) * 128 + 1 * (j 1).val = (j 1).val; rw [e1]; omega

/-- Window 8 over the fifty points: always block (0, 0). -/
theorem facts_8 : ∀ t : Fin cfg0.N, win0_8.index t (0 : Fin 2) = 0 ∧ win0_8.index t (1 : Fin 2) = 0 :=
  (by decide +kernel : ∀ t : Fin grid0.N, _)

/-- Window 8 stages the low-pass attention vector whole: the block is the array. -/
theorem stage_8_apply (c : Dev nD) (A : Buf (Elt F) ((cfg0.win 8).arr.view.loc (c : Thread nD τ))) (t : Fin cfg0.N)
    (d : (cfg0.win 8).block.Idx → Elt F (cfg0.win 8).elt) (j : (cfg0.win 8).block.Idx) :
    (cfg0.win 8).fill (cfg0.grid.coords t) d (((cfg0.win 8).blk t).view.read (Elt F) A) j
      = (cfg0.win 8).arr.view.read (Elt F) A j := by
  obtain ⟨e0, e1⟩ := facts_8 t
  have hm : win0_8.moved (grid0.coords t) j = true := by
    rw [Window.moved_iff]
    intro a
    exact (j a).isLt
  show win0_8.fill (grid0.coords t) d _ j = _
  unfold Window.fill
  rw [dif_pos hm]
  show A (((cfg0.win 8).blk t).view.emb _) = A j
  refine congrArg A ?_
  funext a; apply Fin.ext
  match a with
  | ⟨0, _⟩ => show win0_8.index t (0 : Fin 2) * 128 + 1 * (j 0).val = (j 0).val; rw [e0]; omega
  | ⟨1, _⟩ => show win0_8.index t (1 : Fin 2) * 1 + 1 * (j 1).val = (j 1).val; rw [e1]; omega

/-- Window 9 over the fifty points: always block (0, 0). -/
theorem facts_9 : ∀ t : Fin cfg0.N, win0_9.index t (0 : Fin 2) = 0 ∧ win0_9.index t (1 : Fin 2) = 0 :=
  (by decide +kernel : ∀ t : Fin grid0.N, _)

/-- Window 9 stages the high-pass attention vector whole: the block is the array. -/
theorem stage_9_apply (c : Dev nD) (A : Buf (Elt F) ((cfg0.win 9).arr.view.loc (c : Thread nD τ))) (t : Fin cfg0.N)
    (d : (cfg0.win 9).block.Idx → Elt F (cfg0.win 9).elt) (j : (cfg0.win 9).block.Idx) :
    (cfg0.win 9).fill (cfg0.grid.coords t) d (((cfg0.win 9).blk t).view.read (Elt F) A) j
      = (cfg0.win 9).arr.view.read (Elt F) A j := by
  obtain ⟨e0, e1⟩ := facts_9 t
  have hm : win0_9.moved (grid0.coords t) j = true := by
    rw [Window.moved_iff]
    intro a
    exact (j a).isLt
  show win0_9.fill (grid0.coords t) d _ j = _
  unfold Window.fill
  rw [dif_pos hm]
  show A (((cfg0.win 9).blk t).view.emb _) = A j
  refine congrArg A ?_
  funext a; apply Fin.ext
  match a with
  | ⟨0, _⟩ => show win0_9.index t (0 : Fin 2) * 128 + 1 * (j 0).val = (j 0).val; rw [e0]; omega
  | ⟨1, _⟩ => show win0_9.index t (1 : Fin 2) * 1 + 1 * (j 1).val = (j 1).val; rw [e1]; omega

/-- Window 10 over the fifty points: always block (0, 0). -/
theorem facts_10 : ∀ t : Fin cfg0.N, win0_10.index t (0 : Fin 2) = 0 ∧ win0_10.index t (1 : Fin 2) = 0 :=
  (by decide +kernel : ∀ t : Fin grid0.N, _)

/-- Window 10 stages the plain attention vector whole: the block is the array. -/
theorem stage_10_apply (c : Dev nD) (A : Buf (Elt F) ((cfg0.win 10).arr.view.loc (c : Thread nD τ))) (t : Fin cfg0.N)
    (d : (cfg0.win 10).block.Idx → Elt F (cfg0.win 10).elt) (j : (cfg0.win 10).block.Idx) :
    (cfg0.win 10).fill (cfg0.grid.coords t) d (((cfg0.win 10).blk t).view.read (Elt F) A) j
      = (cfg0.win 10).arr.view.read (Elt F) A j := by
  obtain ⟨e0, e1⟩ := facts_10 t
  have hm : win0_10.moved (grid0.coords t) j = true := by
    rw [Window.moved_iff]
    intro a
    exact (j a).isLt
  show win0_10.fill (grid0.coords t) d _ j = _
  unfold Window.fill
  rw [dif_pos hm]
  show A (((cfg0.win 10).blk t).view.emb _) = A j
  refine congrArg A ?_
  funext a; apply Fin.ext
  match a with
  | ⟨0, _⟩ => show win0_10.index t (0 : Fin 2) * 128 + 1 * (j 0).val = (j 0).val; rw [e0]; omega
  | ⟨1, _⟩ => show win0_10.index t (1 : Fin 2) * 1 + 1 * (j 1).val = (j 1).val; rw [e1]; omega

/-- Window 11 over the fifty points: always block (0, 0). -/
theorem facts_11 : ∀ t : Fin cfg0.N, win0_11.index t (0 : Fin 2) = 0 ∧ win0_11.index t (1 : Fin 2) = 0 :=
  (by decide +kernel : ∀ t : Fin grid0.N, _)

/-- Window 11 stages the 3 x 3 attention matrix whole: the block is the array. -/
theorem stage_11_apply (c : Dev nD) (A : Buf (Elt F) ((cfg0.win 11).arr.view.loc (c : Thread nD τ))) (t : Fin cfg0.N)
    (d : (cfg0.win 11).block.Idx → Elt F (cfg0.win 11).elt) (j : (cfg0.win 11).block.Idx) :
    (cfg0.win 11).fill (cfg0.grid.coords t) d (((cfg0.win 11).blk t).view.read (Elt F) A) j
      = (cfg0.win 11).arr.view.read (Elt F) A j := by
  obtain ⟨e0, e1⟩ := facts_11 t
  have hm : win0_11.moved (grid0.coords t) j = true := by
    rw [Window.moved_iff]
    intro a
    exact (j a).isLt
  show win0_11.fill (grid0.coords t) d _ j = _
  unfold Window.fill
  rw [dif_pos hm]
  show A (((cfg0.win 11).blk t).view.emb _) = A j
  refine congrArg A ?_
  funext a; apply Fin.ext
  match a with
  | ⟨0, _⟩ => show win0_11.index t (0 : Fin 2) * 3 + 1 * (j 0).val = (j 0).val; rw [e0]; omega
  | ⟨1, _⟩ => show win0_11.index t (1 : Fin 2) * 3 + 1 * (j 1).val = (j 1).val; rw [e1]; omega

/-! ## The result's window -/

/-- Window 12 over the fifty points: block row t, block column 0. -/
theorem facts_12 : ∀ t : Fin cfg0.N, win0_12.index t (0 : Fin 2) = t.val ∧ win0_12.index t (1 : Fin 2) = 0 :=
  (by decide +kernel : ∀ t : Fin grid0.N, _)

/-- An index of the result array lies in point t's block iff its row is one of the rows 200 t .. 200 t + 199. -/
theorem mem_out_block (t : Fin cfg0.N) (i : S10000x128.Idx) :
    i ∈ ((cfg0.win 12).blk t).view.setOn Finset.univ ↔ 200 * t.val ≤ (i 0).val ∧ (i 0).val < 200 * t.val + 200 := by
  obtain ⟨e0, e1⟩ := facts_12 t
  rw [View.setOn_univ]
  show i ∈ ((View.whole main_v0).slice (win0_12.rect t)).set ↔ _
  rw [View.set_slice_whole, Rect.mem_set_unit]
  have h1 : (i 1).val < 128 := (i 1).isLt
  refine ⟨fun h => ?_, fun h a => ?_⟩
  · have h0 : win0_12.index t (0 : Fin 2) * 200 ≤ (i 0).val ∧ (i 0).val < win0_12.index t (0 : Fin 2) * 200 + 200 := h 0
    rw [e0] at h0; omega
  · match a with
    | ⟨0, _⟩ =>
      show win0_12.index t (0 : Fin 2) * 200 ≤ (i 0).val ∧ (i 0).val < win0_12.index t (0 : Fin 2) * 200 + 200
      rw [e0]; omega
    | ⟨1, _⟩ =>
      show win0_12.index t (1 : Fin 2) * 128 ≤ (i 1).val ∧ (i 1).val < win0_12.index t (1 : Fin 2) * 128 + 128
      rw [e1]; omega

/-- The point whose block holds row r: r / 200. -/
def pointOf (r : Fin 10000) : Fin cfg0.N := ⟨r.val / 200, by have := r.isLt; have := grid_points; omega⟩

theorem pointOf_val (r : Fin 10000) : (pointOf r).val = r.val / 200 := rfl

/-- Every row is covered: row r lies in the block of the point r / 200. -/
theorem row_covered (r : Fin 10000) : 200 * (pointOf r).val ≤ r.val ∧ r.val < 200 * (pointOf r).val + 200 := by
  rw [pointOf_val]; omega

/-- Every index of the result array lies in the block of the point its row names. -/
theorem mem_out_block_pointOf (i : S10000x128.Idx) :
    i ∈ ((cfg0.win 12).blk (pointOf (i 0))).view.setOn Finset.univ :=
  (mem_out_block (pointOf (i 0)) i).mpr (row_covered (i 0))

end Cert.KernelIdeal.BlockIdx

end
-- ==== Proof.IdealMask.lean ====
/-
  The second-half adjacency blocks enter the body only through their first 4880 columns.

  The body builds a mask of the columns below 4880 from a column index and selects zero elsewhere, so whatever a staging
  buffer holds in columns 4880 .. 5119 (the part of a block that overhangs the matrix) never reaches the products.
-/
import proofs.«138006_g23888608100646_cont_8to1_832_26_alg».proof.Proof.Gen.KernelIdeal.Skeleton
import Idealize.ShloMosaic.Lib.ValueIdx
import Idealize.ShloMosaic.Lib.Pipeline.Value

set_option maxRecDepth 16384

noncomputable section

namespace Cert.KernelIdeal.Hand

open Idealize.ShloMosaic Idealize.ShloMosaic.ValueIdx
open Idealize.SL.Sem
open Cert.KernelIdeal Cert.KernelIdeal.Gen

variable {F : FTy → Type} [FloatOps F] [Named F]

/-- The signed comparison of a column index below 5120 with 4880, as words, is the comparison of the numbers. -/
theorem col_lt_iff : ∀ k : Fin 5120, IntOp.cmpi .slt (BitVec.ofNat 32 k.val) 4880#32 = 1#1 ↔ k.val < 4880 := by
  decide +kernel

/-- The mask holds at (p, k) exactly when k < 4880. -/
theorem mask_apply (p : Fin 200) (k : Fin 5120) : k0_pay5 (ix2 p k) = 1#1 ↔ k.val < 4880 := by
  unfold k0_pay5
  show IntOp.cmpi .slt (iota .tc S200x5120 32 [1] iota_S200x5120_d1_w32 (ix2 p k)) (broadcast S200x5120 4880#32 (ix2 p k)) = 1#1 ↔ _
  rw [iota_single_apply, broadcast_apply]
  exact col_lt_iff k

/-- Two blocks that agree on the columns below 4880 are the same block once masked. -/
theorem select_mask_congr (x x' z : Vec F S200x5120 .f32)
    (h : ∀ (p : Fin 200) (k : Fin 5120), k.val < 4880 → x (ix2 p k) = x' (ix2 p k)) :
    select k0_pay5 x z = select k0_pay5 x' z := by
  funext j
  obtain ⟨p, k, rfl⟩ : ∃ (p : Fin 200) (k : Fin 5120), j = ix2 p k := ⟨j 0, j 1, eq_ix2 j⟩
  rw [select_apply, select_apply]
  by_cases hk : k.val < 4880
  · rw [h p k hk]
  · have hm : ¬ k0_pay5 (ix2 p k) = (1 : BitVec 1) := fun e => hk ((mask_apply p k).mp e)
    unfold Scalar.select
    rw [if_neg hm, if_neg hm]

/-- So the low-pass branch depends on its second-half block only through those columns, -/
theorem pay6_congr (x2 x2' x1 : Vec F S200x5120 .f32) (lo hi : Vec F S5120x128 .f32)
    (h : ∀ (p : Fin 200) (k : Fin 5120), k.val < 4880 → x2 (ix2 p k) = x2' (ix2 p k)) :
    k0_pay6 x2 x1 lo hi = k0_pay6 x2' x1 lo hi := by
  unfold k0_pay6
  dsimp only
  rw [select_mask_congr x2 x2' _ h]

/-- and the high-pass branch likewise. -/
theorem pay7_congr (x4 x4' x3 : Vec F S200x5120 .f32) (lo hi : Vec F S5120x128 .f32)
    (h : ∀ (p : Fin 200) (k : Fin 5120), k.val < 4880 → x4 (ix2 p k) = x4' (ix2 p k)) :
    k0_pay7 x4 x3 lo hi = k0_pay7 x4' x3 lo hi := by
  unfold k0_pay7
  dsimp only
  rw [select_mask_congr x4 x4' _ h]

end Cert.KernelIdeal.Hand

end
-- ==== Proof.IdealSetup.lean ====
/-
  The fused graph-convolution kernel's body, before it is run: the one condition it branches on (is this the grid's
  first point), decided over the fifty points, and the names of the staging buffers each window is on at a point and
  of the two scratch tables the first point fills and every point reads.
-/
import proofs.«138006_g23888608100646_cont_8to1_832_26_alg».proof.Proof.Gen.KernelIdeal.Launch
import proofs.«138006_g23888608100646_cont_8to1_832_26_alg».proof.Proof.Gen.KernelIdeal.Skeleton
import proofs.«138006_g23888608100646_cont_8to1_832_26_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

/-- The body's one branch: the grid coordinate is zero (the projections are computed and the padding rows cleared). -/
abbrev isFirst (i : grid0.Coords) : Prop :=
  (Scalar.cmpi .ne (Scalar.extui (Scalar.cmpi .eq (BitVec.ofNat 32 (i 0).val) 0#32)) 0#32) = 1#1

/-- It holds at point 0 and at no other of the fifty. -/
theorem isFirst_iff : ∀ t : Fin cfg0.N, isFirst (grid0.coords t) ↔ t.val = 0 :=
  (by decide +kernel : ∀ t : Fin grid0.N, isFirst (grid0.coords t) ↔ t.val = 0)

/-- The two scratch tables (10240 rows: the 10000 projected feature rows, then 240 rows of zeros). -/
abbrev tabLow : Memref sig .tc .vmem S10240x128 .f32 := Memref.whole cc0_scratch0
abbrev tabHigh : Memref sig .tc .vmem S10240x128 .f32 := Memref.whole cc0_scratch1

end Cert.KernelIdeal.Hand

end
-- ==== Proof.IdealRunLater.lean ====
/-
  The kernel's body at a grid point other than the first, run on whole staging buffers: it reads the four adjacency
  blocks, the features, the weights, the attention vectors and both scratch tables, writes nothing but the output block,
  and hands every other buffer back as it found it. What it leaves in the output buffer is found by the run itself, as the
  list of stores made into it.
-/
import proofs.«138006_g23888608100646_cont_8to1_832_26_alg».proof.Proof.IdealSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- The stores a later point makes into the output buffer, with the proof that from the inputs at their contents, the
    output buffer at anything and the two tables at `xs0`, `xs1`, the body runs to a state where only the output buffer
    has changed. -/
noncomputable def runLater (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : ¬isFirst i)
    (x1 x2 x3 x4 : Vec F S200x5120 .f32) (x5 : Vec F S10000x128 .f32) (x6 x7 x8 : Vec F S128x128 .f32) (x9 x10 x11 : Vec F S128x1 .f32) (x12 : Vec F S3x3 .f32) (xs0 xs1 : Vec F S10240x128 .f32) :
    { L13 : List (View.Piece (Elt F) S200x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs0 ∗ owns (c : Thread nD τ) arg15 fullShare xs1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare xs0 ∗ owns (c : Thread nD τ) arg15 fullShare xs1) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0__fused_kernel_eq_skeleton]; unfold cc0__fused_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    obtain rfl := harg14.eq_unread hfs0; obtain rfl := harg15.eq_unread hfs1
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [HS0]
    · iexists _; isplitr; · ipureintro; exact harg14.read_unread _
      iexact HS0
    · iexists _; isplitr; · ipureintro; exact harg15.read_unread _
      iexact HS1

end Cert.KernelIdeal.Hand

end
-- ==== Proof.IdealRunFirst.lean ====
/-
  The kernel's body at the grid's first point, run on whole staging buffers: it first fills both scratch tables (the
  projected features in rows 0 to 9999, zeros in rows 10000 to 10239), then does what every point does. What it leaves in
  the output buffer and in the two tables is found by the run itself, as the lists of stores made into each.
-/
import proofs.«138006_g23888608100646_cont_8to1_832_26_alg».proof.Proof.IdealRunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

set_option maxHeartbeats 4000000 in
/-- The stores the first point makes into the output buffer and into the two tables, with the proof that from the
    inputs at their contents and the output buffer and both tables at anything, the body runs to a state where the inputs
    are as they were and those three buffers have the stores written. -/
noncomputable def runFirst (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i)
    (x1 x2 x3 x4 : Vec F S200x5120 .f32) (x5 : Vec F S10000x128 .f32) (x6 x7 x8 : Vec F S128x128 .f32) (x9 x10 x11 : Vec F S128x1 .f32) (x12 : Vec F S3x3 .f32) :
    Σ' (L13 : List (View.Piece (Elt F) S200x128 .f32)) (LS0 : List (View.Piece (Elt F) S10240x128 .f32)), { LS1 : List (View.Piece (Elt F) S10240x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0__fused_kernel_eq_skeleton]; unfold cc0__fused_kernel_skel
    simp only [k0_part1_eq_skeleton, k0_part2_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [HS0]; · iexists _; iexact HS0
    iexists _; iexact HS1

end Cert.KernelIdeal.Hand

end
-- ==== Proof.IdealForms.lean ====
/-
  What the body's stores leave, as functions of what it loads.

  A later point stores the output block once: the mixed layer of the two aggregated branches and the dense branch, where
  each aggregated branch multiplies the point's two adjacency blocks with the upper and lower 5120 rows of a table.  The
  first point first fills each table in two stores (the 10000 projected feature rows, then 240 rows of zeros) and reads
  the tables back through those stores.  Every list of stores covers its buffer.
-/
import Idealize.ShloMosaic.Lib.Pipeline.Value
import proofs.«138006_g23888608100646_cont_8to1_832_26_alg».proof.Proof.IdealRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

/-- The printed zero offsets of a two-axis access are the zero offsets. -/
theorem zero_off2 : (![0, 0] : Fin 2 → ℕ) = fun _ => 0 := by
  funext a; fin_cases a <;> rfl

/-- Rows 0 .. 5119 of a table. -/
def rowsLo (T : Vec F S10240x128 .f32) : Vec F S5120x128 .f32 :=
  View.ld T (Rect.unit (s := S10240x128) ![0, 0] S5120x128.size inb_S10240x128_S5120x128_0_0)

/-- Rows 5120 .. 10239 of a table. -/
def rowsHi (T : Vec F S10240x128 .f32) : Vec F S5120x128 .f32 :=
  View.ld T (Rect.unit (s := S10240x128) ![5120, 0] S5120x128.size inb_S10240x128_S5120x128_5120_0)

/-- The 200 feature rows of grid point `i`. -/
def featRows (i : grid0.Coords) (X : Vec F S10000x128 .f32) : Vec F S200x128 .f32 :=
  View.ld X (Rect.unit (s := S10000x128) (k0_off1 i) S200x128.size (Cert.KernelIdeal.Gen.k0_off1_inb i))

/-- The output block of a point from the blocks and tables it loads: `x1`, `x2` the two halves of the low-pass
    adjacency rows, `x3`, `x4` of the high-pass ones, `T0`, `T1` the two tables. -/
def outOf (i : grid0.Coords) (x1 x2 x3 x4 : Vec F S200x5120 .f32) (x5 : Vec F S10000x128 .f32) (x8 : Vec F S128x128 .f32)
    (x9 x10 x11 : Vec F S128x1 .f32) (x12 : Vec F S3x3 .f32) (T0 T1 : Vec F S10240x128 .f32) : Vec F S200x128 .f32 :=
  k0_pay8 (k0_pay6 x2 x1 (rowsLo T0) (rowsHi T0)) (k0_pay7 x4 x3 (rowsLo T1) (rowsHi T1)) (featRows i x5) x8 x9 x10 x11 x12

/-- The two stores that fill a table: the zero rows 10000 .. 10239 (made last), the projected rows 0 .. 9999. -/
abbrev tabPieces (P : Vec F S10000x128 .f32) (Z : Vec F S240x128 .f32) : List (View.Piece (Elt F) S10240x128 .f32) :=
  [⟨Rect.unit ![10000, 0] S240x128.size inb_S10240x128_S240x128_10000_0, Z⟩,
   ⟨Rect.unit ![0, 0] S10000x128.size inb_S10240x128_S10000x128_0_0, P⟩]

/-- They cover the table: cut into blocks of 80 rows they tile it. -/
theorem tabPieces_cover (P : Vec F S10000x128 .f32) (Z : Vec F S240x128 .f32) (y : S10240x128.Idx) :
    ∃ p ∈ tabPieces P Z, y ∈ p.1.set :=
  View.cover_of_tiledBy (tabPieces P Z) ![80, 128] (by sl_kernel_rfl) y

/-- The low-pass table after the first point. -/
def tabLowOf (x5 : Vec F S10000x128 .f32) (x6 : Vec F S128x128 .f32) : Vec F S10240x128 .f32 :=
  View.canon (tabPieces (k0_pay1 x5 x6) (k0_pay3 (F := F)))

/-- The high-pass table after the first point. -/
def tabHighOf (x5 : Vec F S10000x128 .f32) (x7 : Vec F S128x128 .f32) : Vec F S10240x128 .f32 :=
  View.canon (tabPieces (k0_pay2 x5 x7) (k0_pay4 (F := F)))

/-! ## A later point -/

/-- Its one store covers the output block. -/
theorem later_cover (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : ¬isFirst i) (x1 x2 x3 x4 : Vec F S200x5120 .f32) (x5 : Vec F S10000x128 .f32) (x6 x7 x8 : Vec F S128x128 .f32) (x9 x10 x11 : Vec F S128x1 .f32) (x12 : Vec F S3x3 .f32) (xs0 xs1 : Vec F S10240x128 .f32) (y : S200x128.Idx) :
    ∃ pc ∈ (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12 xs0 xs1).1, y ∈ pc.1.set :=
  View.cover_of_tiledL (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12 xs0 xs1).1 S200x128.size (by sl_kernel_rfl) y

/-- What it leaves there. -/
theorem later_out_eq (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : ¬isFirst i) (x1 x2 x3 x4 : Vec F S200x5120 .f32) (x5 : Vec F S10000x128 .f32) (x6 x7 x8 : Vec F S128x128 .f32) (x9 x10 x11 : Vec F S128x1 .f32) (x12 : Vec F S3x3 .f32) (xs0 xs1 : Vec F S10240x128 .f32) :
    View.canon (runLater c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12 xs0 xs1).1 = outOf i x1 x2 x3 x4 x5 x8 x9 x10 x11 x12 xs0 xs1 := by
  unfold runLater; dsimp only; sl_unfold_words
  rw [View.canon_unit_zero zero_off2]
  simp only [View.readAt_eq_ld, harg1.read_unread, harg2.read_unread, harg3.read_unread, harg4.read_unread, harg5.read_unread,
    harg8.read_unread, harg9.read_unread, harg10.read_unread, harg11.read_unread, harg12.read_unread, harg14.read_unread,
    harg15.read_unread, View.ld_unit_zero (S := S200x5120) zero_off2, View.ld_unit_zero (S := S128x128) zero_off2,
    View.ld_unit_zero (S := S128x1) zero_off2, View.ld_unit_zero (S := S3x3) zero_off2]
  rfl

/-! ## The first point -/

/-- The stores it makes into the low-pass table. -/
theorem first_tabLow (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).2.1 = tabPieces (k0_pay1 x5 x6) (k0_pay3 (F := F)) := by
  unfold runFirst; dsimp only; sl_unfold_words
  simp only [View.readAt_eq_ld, harg5.read_unread, harg6.read_unread, View.ld_unit_zero (S := S10000x128) zero_off2,
    View.ld_unit_zero (S := S128x128) zero_off2]

/-- The stores it makes into the high-pass table. -/
theorem first_tabHigh (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).2.2.1 = tabPieces (k0_pay2 x5 x7) (k0_pay4 (F := F)) := by
  unfold runFirst; dsimp only; sl_unfold_words
  simp only [View.readAt_eq_ld, harg5.read_unread, harg7.read_unread, View.ld_unit_zero (S := S10000x128) zero_off2,
    View.ld_unit_zero (S := S128x128) zero_off2]

/-- Its one store into the output block covers it. -/
theorem first_cover (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) (y : S200x128.Idx) :
    ∃ pc ∈ (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).1, y ∈ pc.1.set :=
  View.cover_of_tiledL (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).1 S200x128.size (by sl_kernel_rfl) y

/-- What it leaves in the output block: a later point's, over the tables it has just filled. -/
theorem first_out_eq (c : Dev nD) (i : grid0.Coords) (arg1 : Memref sig .tc .vmem S200x5120 .f32) (harg1 : arg1.IsWhole) (arg2 : Memref sig .tc .vmem S200x5120 .f32) (harg2 : arg2.IsWhole) (arg3 : Memref sig .tc .vmem S200x5120 .f32) (harg3 : arg3.IsWhole) (arg4 : Memref sig .tc .vmem S200x5120 .f32) (harg4 : arg4.IsWhole) (arg5 : Memref sig .tc .vmem S10000x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole) (arg12 : Memref sig .tc .vmem S3x3 .f32) (harg12 : arg12.IsWhole) (arg13 : Memref sig .tc .vmem S200x128 .f32) (harg13 : arg13.IsWhole) (arg14 : Memref sig .tc .vmem S10240x128 .f32) (harg14 : arg14.IsWhole) (arg15 : Memref sig .tc .vmem S10240x128 .f32) (harg15 : arg15.IsWhole) (hc0 : isFirst i) (x1 x2 x3 x4 : Vec F S200x5120 .f32) (x5 : Vec F S10000x128 .f32) (x6 x7 x8 : Vec F S128x128 .f32) (x9 x10 x11 : Vec F S128x1 .f32) (x12 : Vec F S3x3 .f32) :
    View.canon (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x1 x2 x3 x4 x5 x6 x7 x8 x9 x10 x11 x12).1
      = outOf i x1 x2 x3 x4 x5 x8 x9 x10 x11 x12 (tabLowOf x5 x6) (tabHighOf x5 x7) := by
  unfold runFirst; dsimp only; sl_unfold_words
  rw [View.canon_unit_zero zero_off2]
  simp only [View.readAt_eq_ld, harg1.read_unread, harg2.read_unread, harg3.read_unread, harg4.read_unread, harg5.read_unread,
    harg6.read_unread, harg7.read_unread,
    harg8.read_unread, harg9.read_unread, harg10.read_unread, harg11.read_unread, harg12.read_unread,
    View.ld_unit_zero (S := S200x5120) zero_off2, View.ld_unit_zero (S := S128x128) zero_off2,
    View.ld_unit_zero (S := S128x1) zero_off2, View.ld_unit_zero (S := S3x3) zero_off2,
    View.ld_unit_zero (S := S10000x128) zero_off2]
  rw [View.readCov_eq_canon_ld _ _ _ (tabPieces_cover (k0_pay1 x5 x6) (k0_pay3 (F := F))),
    View.readCov_eq_canon_ld _ _ _ (tabPieces_cover (k0_pay1 x5 x6) (k0_pay3 (F := F))),
    View.readCov_eq_canon_ld _ _ _ (tabPieces_cover (k0_pay2 x5 x7) (k0_pay4 (F := F))),
    View.readCov_eq_canon_ld _ _ _ (tabPieces_cover (k0_pay2 x5 x7) (k0_pay4 (F := F)))]
  rfl

end Cert.KernelIdeal.Hand

end
-- ==== Proof.IdealFrameData.lean ====
/-
  The pipeline's proof data for the fused layer kernel.

  @main is the call alone, so the region finds every buffer as the program was started with it.  An adjacency window's
  staging buffer holds its block on the part a fetch fills and anything elsewhere (the second-half windows overhang the
  matrix by 240 columns); the eight small operands are staged whole and stay as fetched.  The first point fills the two
  scratch tables and every later point finds them so; the output block at a point is the layer of the point's 200 rows,
  computed from those blocks and the tables.
-/
import proofs.«138006_g23888608100646_cont_8to1_832_26_alg».proof.Proof.IdealMask
import proofs.«138006_g23888608100646_cont_8to1_832_26_alg».proof.Proof.IdealForms

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- Core `c`'s TensorCore buffers as the region finds them: @main has no operation before the call. -/
abbrev V (c : Dev nD) (b : Ref sig .tc) : Buf (Elt F) ((c : Thread nD τ).loc b) := m ((c : Thread nD τ).loc b)

/-- Window `w`'s block at point `t`, read off its array: the part of it inside the array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Contents chosen once for the part of a staging buffer that no transfer fills. -/
def filler (w : Fin cfg0.W) : (cfg0.win w).block.Idx → Elt F (cfg0.win w).elt := fun _ => Classical.arbitrary _

/-- What window `w`'s staging buffer holds at point `t` once the block has landed in a buffer that held `d`. -/
def staged (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The grid's first point. -/
def t0 : Fin cfg0.N := ⟨0, by have : cfg0.N = 50 := N_0; omega⟩

/-- The low-pass table after the first point: the features projected by the low-pass weights, then zeros. -/
def tabLowAt (c : Dev nD) : Vec F S10240x128 .f32 := tabLowOf (iblk m c 4 t0) (iblk m c 5 t0)

/-- The high-pass table after the first point. -/
def tabHighAt (c : Dev nD) : Vec F S10240x128 .f32 := tabHighOf (iblk m c 4 t0) (iblk m c 6 t0)

/-- The output block of point `t`. -/
def outAt (c : Dev nD) (t : Fin cfg0.N) : Vec F S200x128 .f32 :=
  outOf (grid0.coords t) (staged m c 0 t (filler 0)) (staged m c 1 t (filler 1)) (staged m c 2 t (filler 2)) (staged m c 3 t (filler 3))
    (iblk m c 4 t) (iblk m c 7 t) (iblk m c 8 t) (iblk m c 9 t) (iblk m c 10 t) (iblk m c 11 t) (tabLowAt m c) (tabHighAt m c)

/-- The invariant between points: before the first, the two scratch tables at anything; afterwards, at what the
    first point stored. -/
def PhiS (c : Dev nD) : (n : ℕ) → n ≤ cfg0.N → sProp 𝕄
  | 0, _ => Pipeline.scopedRest spec0 c
  | _ + 1, _ => iprop(owns (c : Thread nD τ) tabLow fullShare (tabLowAt m c) ∗ owns (c : Thread nD τ) tabHigh fullShare (tabHighAt m c))

theorem PhiS_zero (c : Dev nD) (n : ℕ) (h : n ≤ cfg0.N) (hz : n = 0) : PhiS m c n h = Pipeline.scopedRest spec0 c := by
  subst hz; rfl

theorem PhiS_pos (c : Dev nD) (n : ℕ) (h : n ≤ cfg0.N) (hz : n ≠ 0) :
    PhiS m c n h = iprop(owns (c : Thread nD τ) tabLow fullShare (tabLowAt m c) ∗ owns (c : Thread nD τ) tabHigh fullShare (tabHighAt m c)) := by
  cases n with
  | zero => exact absurd rfl hz
  | succ n => rfl

/-- The proof data of the pipeline on core `c`. The two windows on each adjacency matrix hold a half share of it each. -/
def dats (_ : Fin 1) (c : Dev nD) : Dat τ (Elt F) Unit ℕ (UR sig nD τ) ℕ cfg0 c where
  A w := V m c (Pipeline.arrRef spec0 w)
  after w t := match w with
    | ⟨0, _⟩ => staged m c 0 t (filler 0)
    | ⟨1, _⟩ => staged m c 1 t (filler 1)
    | ⟨2, _⟩ => staged m c 2 t (filler 2)
    | ⟨3, _⟩ => staged m c 3 t (filler 3)
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
  Φ t := PhiS m c t.val (Nat.le_of_lt_succ t.isLt)
  q := fun | 0 => fullShare.left | 1 => fullShare.right | 2 => fullShare.left | 3 => fullShare.right | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = staged m c 0 t (filler 0) := by dsimp only [dats]
theorem after_1 (c : Dev nD) (t : Fin cfg0.N) : (dats m 0 c).after 1 t = staged m c 1 t (filler 1) := by dsimp only [dats]
theorem after_2 (c : Dev nD) (t : Fin cfg0.N) : (dats m 0 c).after 2 t = staged m c 2 t (filler 2) := by dsimp only [dats]
theorem after_3 (c : Dev nD) (t : Fin cfg0.N) : (dats m 0 c).after 3 t = staged m c 3 t (filler 3) := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = outAt m c t := by dsimp only [dats]

end Cert.KernelIdeal.Hand

end
-- ==== Proof.IdealBefore.lean ====
/-
  What each window's staging buffer holds when the body runs at a point.

  An input window's buffer holds its block where the fetch filled it, fetched at that point or not (an unfetched window's
  block index has not moved, and the body leaves its inputs alone); the output's buffer holds anything.  The output block
  the body computes does not depend on what the adjacency buffers hold outside the fetched part: the first-half blocks
  are never cut, and the second-half blocks enter only through their first 4880 columns.
-/
import proofs.«138006_g23888608100646_cont_8to1_832_26_alg».proof.Proof.IdealBlocks
import Idealize.ShloMosaic.Lib.ValueIdx
import proofs.«138006_g23888608100646_cont_8to1_832_26_alg».proof.Proof.IdealFrameData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-! ## The inputs -/

/-- Window 0's cuts depend on the point only through its block index. -/
theorem clip_of_index_0 : ∀ t t' : Fin cfg0.N, (cfg0.win 0).index t = (cfg0.win 0).index t' →
    (cfg0.win 0).clip (cfg0.grid.coords t) = (cfg0.win 0).clip (cfg0.grid.coords t') :=
  fun t t' h => funext fun a => congrArg (fun v => Pipeline.Clip.of v (S200x5120.size a) (S10000x10000.size a)) (congrFun h a)

/-- Its staging buffer holds its block where the fetch filled it, at every point. -/
theorem before_0 (c : Dev nD) (t : Fin cfg0.N) (d) : (dats m 0 c).before 0 t d = staged m c 0 t d :=
  ((dats m 0 c).before_in_eq_fetched 0 rfl (fun _ => rfl) clip_of_index_0
    (fun t => by rw [after_0]; unfold staged; rw [Window.cut_fill]; unfold Dat.blockOf iblk; rw [A_eq]) t d).trans
    (by unfold Dat.fetched Dat.blockOf staged iblk; rw [A_eq])

/-- Window 1's cuts depend on the point only through its block index. -/
theorem clip_of_index_1 : ∀ t t' : Fin cfg0.N, (cfg0.win 1).index t = (cfg0.win 1).index t' →
    (cfg0.win 1).clip (cfg0.grid.coords t) = (cfg0.win 1).clip (cfg0.grid.coords t') :=
  fun t t' h => funext fun a => congrArg (fun v => Pipeline.Clip.of v (S200x5120.size a) (S10000x10000.size a)) (congrFun h a)

/-- Its staging buffer holds its block where the fetch filled it, at every point. -/
theorem before_1 (c : Dev nD) (t : Fin cfg0.N) (d) : (dats m 0 c).before 1 t d = staged m c 1 t d :=
  ((dats m 0 c).before_in_eq_fetched 1 rfl (fun _ => rfl) clip_of_index_1
    (fun t => by rw [after_1]; unfold staged; rw [Window.cut_fill]; unfold Dat.blockOf iblk; rw [A_eq]) t d).trans
    (by unfold Dat.fetched Dat.blockOf staged iblk; rw [A_eq])

/-- Window 2's cuts depend on the point only through its block index. -/
theorem clip_of_index_2 : ∀ t t' : Fin cfg0.N, (cfg0.win 2).index t = (cfg0.win 2).index t' →
    (cfg0.win 2).clip (cfg0.grid.coords t) = (cfg0.win 2).clip (cfg0.grid.coords t') :=
  fun t t' h => funext fun a => congrArg (fun v => Pipeline.Clip.of v (S200x5120.size a) (S10000x10000.size a)) (congrFun h a)

/-- Its staging buffer holds its block where the fetch filled it, at every point. -/
theorem before_2 (c : Dev nD) (t : Fin cfg0.N) (d) : (dats m 0 c).before 2 t d = staged m c 2 t d :=
  ((dats m 0 c).before_in_eq_fetched 2 rfl (fun _ => rfl) clip_of_index_2
    (fun t => by rw [after_2]; unfold staged; rw [Window.cut_fill]; unfold Dat.blockOf iblk; rw [A_eq]) t d).trans
    (by unfold Dat.fetched Dat.blockOf staged iblk; rw [A_eq])

/-- Window 3's cuts depend on the point only through its block index. -/
theorem clip_of_index_3 : ∀ t t' : Fin cfg0.N, (cfg0.win 3).index t = (cfg0.win 3).index t' →
    (cfg0.win 3).clip (cfg0.grid.coords t) = (cfg0.win 3).clip (cfg0.grid.coords t') :=
  fun t t' h => funext fun a => congrArg (fun v => Pipeline.Clip.of v (S200x5120.size a) (S10000x10000.size a)) (congrFun h a)

/-- Its staging buffer holds its block where the fetch filled it, at every point. -/
theorem before_3 (c : Dev nD) (t : Fin cfg0.N) (d) : (dats m 0 c).before 3 t d = staged m c 3 t d :=
  ((dats m 0 c).before_in_eq_fetched 3 rfl (fun _ => rfl) clip_of_index_3
    (fun t => by rw [after_3]; unfold staged; rw [Window.cut_fill]; unfold Dat.blockOf iblk; rw [A_eq]) t d).trans
    (by unfold Dat.fetched Dat.blockOf staged iblk; rw [A_eq])

/-- Window 4 is staged whole: its buffer holds the array at every point, fetched there or not. -/
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- Window 5 is staged whole: its buffer holds the array at every point, fetched there or not. -/
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-- Window 6 is staged whole: its buffer holds the array at every point, fetched there or not. -/
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

/-- Window 7 is staged whole: its buffer holds the array at every point, fetched there or not. -/
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

/-- Window 8 is staged whole: its buffer holds the array at every point, fetched there or not. -/
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-- Window 9 is staged whole: its buffer holds the array at every point, fetched there or not. -/
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)

/-- Window 10 is staged whole: its buffer holds the array at every point, fetched there or not. -/
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-- Window 11 is staged whole: its buffer holds the array at every point, fetched there or not. -/
theorem before_11 (c : Dev nD) (t : Fin cfg0.N) (d) : (dats m 0 c).before 11 t d = iblk m c 11 t :=
  ((dats m 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

/-! ## The output -/

/-- The output window fetches nothing. -/
theorem fetch_12 : ∀ t : Fin cfg0.N, (cfg0.win 12).fetch t = false :=
  (by decide +kernel : ∀ t : Fin grid0.N, (cfg0.win 12).fetch t = false)

/-- Its buffer holds whatever it held: at the first point nothing has touched it, and afterwards the block was written
    back at the point before. -/
theorem before_12 (c : Dev nD) (t : Fin cfg0.N) (d) : (dats m 0 c).before 12 t d = d := by
  by_cases hz : t.val = 0
  · unfold Dat.before; rw [fetch_12 t, if_neg Bool.false_ne_true, if_pos hz]
  · rw [(dats m 0 c).before_of_pos 12 t hz (fetch_12 t) d, flush0_12, if_pos rfl]

/-! ## The output block does not depend on the fillers -/

/-- Window 0's blocks are never cut, so what its staging buffer held before the fetch does not matter. -/
theorem staged_indep_0 (c : Dev nD) (t : Fin cfg0.N) (d d') : staged m c 0 t d = staged m c 0 t d' := by
  funext j
  obtain ⟨p, k, rfl⟩ : ∃ (p : Fin 200) (k : Fin 5120), j = ix2 p k := ⟨j 0, j 1, eq_ix2 j⟩
  obtain ⟨e0, e1, e2, e3⟩ := BlockIdx.facts_0 t
  have hm : win0_0.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_0.xsize (grid0.coords t) (0 : Fin 2); rw [e2]; exact p.isLt
    · show k.val < win0_0.xsize (grid0.coords t) (1 : Fin 2); rw [e3]; exact k.isLt
  show win0_0.fill (grid0.coords t) d _ (ix2 p k) = win0_0.fill (grid0.coords t) d' _ (ix2 p k)
  unfold Window.fill
  rw [dif_pos hm, dif_pos hm]

/-- Window 2's blocks are never cut, so what its staging buffer held before the fetch does not matter. -/
theorem staged_indep_2 (c : Dev nD) (t : Fin cfg0.N) (d d') : staged m c 2 t d = staged m c 2 t d' := by
  funext j
  obtain ⟨p, k, rfl⟩ : ∃ (p : Fin 200) (k : Fin 5120), j = ix2 p k := ⟨j 0, j 1, eq_ix2 j⟩
  obtain ⟨e0, e1, e2, e3⟩ := BlockIdx.facts_2 t
  have hm : win0_2.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_2.xsize (grid0.coords t) (0 : Fin 2); rw [e2]; exact p.isLt
    · show k.val < win0_2.xsize (grid0.coords t) (1 : Fin 2); rw [e3]; exact k.isLt
  show win0_2.fill (grid0.coords t) d _ (ix2 p k) = win0_2.fill (grid0.coords t) d' _ (ix2 p k)
  unfold Window.fill
  rw [dif_pos hm, dif_pos hm]

/-- Window 1's blocks are cut to their first 4880 columns: there the staging buffer holds the block whatever it held before. -/
theorem staged_agree_1 (c : Dev nD) (t : Fin cfg0.N) (d d') (p : Fin 200) (k : Fin 5120) (hk : k.val < 4880) :
    staged m c 1 t d (ix2 p k) = staged m c 1 t d' (ix2 p k) := by
  obtain ⟨e0, e1, e2, e3⟩ := BlockIdx.facts_1 t
  have hm : win0_1.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_1.xsize (grid0.coords t) (0 : Fin 2); rw [e2]; exact p.isLt
    · show k.val < win0_1.xsize (grid0.coords t) (1 : Fin 2); rw [e3]; exact hk
  show win0_1.fill (grid0.coords t) d _ (ix2 p k) = win0_1.fill (grid0.coords t) d' _ (ix2 p k)
  unfold Window.fill
  rw [dif_pos hm, dif_pos hm]

/-- Window 3's blocks are cut to their first 4880 columns: there the staging buffer holds the block whatever it held before. -/
theorem staged_agree_3 (c : Dev nD) (t : Fin cfg0.N) (d d') (p : Fin 200) (k : Fin 5120) (hk : k.val < 4880) :
    staged m c 3 t d (ix2 p k) = staged m c 3 t d' (ix2 p k) := by
  obtain ⟨e0, e1, e2, e3⟩ := BlockIdx.facts_3 t
  have hm : win0_3.moved (grid0.coords t) (ix2 p k) = true := by
    rw [Window.moved_iff]
    intro a
    obtain ⟨av, ha⟩ := a
    have ha2 : av < 2 := ha
    have h01 : av = 0 ∨ av = 1 := by omega
    rcases h01 with rfl | rfl
    · show p.val < win0_3.xsize (grid0.coords t) (0 : Fin 2); rw [e2]; exact p.isLt
    · show k.val < win0_3.xsize (grid0.coords t) (1 : Fin 2); rw [e3]; exact hk
  show win0_3.fill (grid0.coords t) d _ (ix2 p k) = win0_3.fill (grid0.coords t) d' _ (ix2 p k)
  unfold Window.fill
  rw [dif_pos hm, dif_pos hm]

/-- The output block computed from the staging buffers as the body finds them is the one named by the proof data. -/
theorem outOf_staged (c : Dev nD) (t : Fin cfg0.N) (d0 d1 d2 d3) (x5 : Vec F S10000x128 .f32) (x8 : Vec F S128x128 .f32)
    (x9 x10 x11 : Vec F S128x1 .f32) (x12 : Vec F S3x3 .f32) (T0 T1 : Vec F S10240x128 .f32) :
    outOf (grid0.coords t) (staged m c 0 t d0) (staged m c 1 t d1) (staged m c 2 t d2) (staged m c 3 t d3) x5 x8 x9 x10 x11 x12 T0 T1
      = outOf (grid0.coords t) (staged m c 0 t (filler 0)) (staged m c 1 t (filler 1)) (staged m c 2 t (filler 2)) (staged m c 3 t (filler 3)) x5 x8 x9 x10 x11 x12 T0 T1 := by
  unfold outOf
  rw [staged_indep_0 m c t d0 (filler 0), staged_indep_2 m c t d2 (filler 2),
    pay6_congr (staged m c 1 t d1) (staged m c 1 t (filler 1)) _ _ _ (staged_agree_1 m c t d1 (filler 1)),
    pay7_congr (staged m c 3 t d3) (staged m c 3 t (filler 3)) _ _ _ (staged_agree_3 m c t d3 (filler 3))]

end Cert.KernelIdeal.Hand

end
-- ==== Proof.IdealBody.lean ====
/-
  The body obligation: at every grid point the kernel's body, handed the staging buffers at what they hold and the
  invariant, runs to the invariant at the next point with every input buffer as it found it and the output buffer at the
  point's output block.  At the first point the invariant gives the two scratch tables at anything and takes them back
  filled; at a later point it gives them filled and takes them back untouched.
-/
import proofs.«138006_g23888608100646_cont_8to1_832_26_alg».proof.Proof.IdealBefore

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- Before the first point the invariant is the two scratch tables, each whole at some contents. -/
theorem Phi0_eq (c : Dev nD) :
    (Pipeline.scopedRest spec0 c : sProp 𝕄)
      = iprop((∃ d, owns (c : Thread nD τ) tabLow fullShare d) ∗ (∃ d, owns (c : Thread nD τ) tabHigh fullShare d)) := by
  rw [scopedRest0_eq]; simp only [tabLow, tabHigh, owns_whole]; rfl

/-- Refilling a staging buffer with the fetched part of what it holds gives what a fetch into it gives. -/
theorem fill_cut_staged (c : Dev nD) (w : Fin 13) (t : Fin cfg0.N) (d d') :
    (win0 w).fill (grid0.coords t) d ((win0 w).cut (grid0.coords t) (staged m c w t d')) = staged m c w t d := by
  unfold staged; exact congrArg _ (Window.cut_fill _ _ _ _)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns: the adjacency buffers at their blocks where fetched, the other inputs as found, the output block. -/
def bodyPost (c : Dev nD) (t : Fin cfg0.N) : sProp 𝕄 :=
  iprop((dats m 0 c).Φ t.succ ∗ (dats m 0 c).owesAt () t.succ
    ∗ (∃ d, owns (c : Thread nD τ) (st0_0 t) fullShare ((cfg0.win 0).fill (cfg0.grid.coords t) d ((cfg0.win 0).cut (cfg0.grid.coords t) ((dats m 0 c).after 0 t))))
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [after_0, after_1, after_2, after_3, after_4, after_5, after_6, after_7, after_8, after_9, after_10, after_11, after_12]
  have e0 : ∀ d, (win0 0).fill (grid0.coords t) d ((win0 0).cut (grid0.coords t) (staged m c 0 t (filler 0))) = staged m c 0 t d :=
    fun d => fill_cut_staged m c 0 t d _
  have e1 : ∀ d, (win0 1).fill (grid0.coords t) d ((win0 1).cut (grid0.coords t) (staged m c 1 t (filler 1))) = staged m c 1 t d :=
    fun d => fill_cut_staged m c 1 t d _
  have e2 : ∀ d, (win0 2).fill (grid0.coords t) d ((win0 2).cut (grid0.coords t) (staged m c 2 t (filler 2))) = staged m c 2 t d :=
    fun d => fill_cut_staged m c 2 t d _
  have e3 : ∀ d, (win0 3).fill (grid0.coords t) d ((win0 3).cut (grid0.coords t) (staged m c 3 t (filler 3))) = staged m c 3 t d :=
    fun d => fill_cut_staged m c 3 t d _
  simp only [e0, e1, e2, e3]
  by_cases hz : t.val = 0
  · have ht : t = t0 := Fin.ext hz
    subst ht
    have hf : isFirst (grid0.coords t0) := (isFirst_iff t0).mpr hz
    rw [PhiS_castSucc m c t0, PhiS_zero m c _ _ hz, Phi0_eq]
    iintro ⟨⟨⟨%f0, HS0⟩, ⟨%f1, HS1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t0) _ _ _ _ _ _ _ _ _ _ _ _ _ _ _ _ _ _ _ _ _ _ _ _ _ _ _ _ _ _ hf (staged m c 0 t0 d0) (staged m c 1 t0 d1) (staged m c 2 t0 d2) (staged m c 3 t0 d3) (iblk m c 4 t0) (iblk m c 5 t0) (iblk m c 6 t0) (iblk m c 7 t0) (iblk m c 8 t0) (iblk m c 9 t0) (iblk m c 10 t0) (iblk m c 11 t0)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexists _; iexact HS0
    isplitl [HS1]; · iexists _; iexact HS1
    iintro ⟨H0, H1, H2, H3, H4, H5, H6, H7, H8, H9, H10, H11, ⟨%e12, H12⟩, ⟨%es0, HS0⟩, ⟨%es1, HS1⟩⟩
    isplitl [HS0 HS1]
    · isplitl [HS0]
      · unfold owns; iexists _; isplitr
        swap; · iexact HS0
        ipureintro
        rw [first_tabLow]
        exact View.read_writes_eq_canon _ _ _ (tabPieces_cover _ _)
      · unfold owns; iexists _; isplitr
        swap; · iexact HS1
        ipureintro
        rw [first_tabHigh]
        exact View.read_writes_eq_canon _ _ _ (tabPieces_cover _ _)
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (View.read_writes_eq_canon _ _ _ (fun y => first_cover _ _ _ _ _ _ _ _ _ _ _ _ _ _ _ _ _ _ _ _ _ _ _ _ _ _ _ _ _ _ _ _ _ _ _ _ _ _ _ _ _ _ _ _ _ y)).trans
      ((first_out_eq _ _ _ _ _ _ _ _ _ _ _ _ _ _ _ _ _ _ _ _ _ _ _ _ _ _ _ _ _ _ _ _ _ _ _ _ _ _ _ _ _ _ _ _ _).trans (outOf_staged m c t0 d0 d1 d2 d3 _ _ _ _ _ _ _ _))
  · have hnf : ¬isFirst (grid0.coords t) := fun h => hz ((isFirst_iff t).mp h)
    rw [PhiS_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLater c (grid0.coords t) _ _ _ _ _ _ _ _ _ _ _ _ _ _ _ _ _ _ _ _ _ _ _ _ _ _ _ _ _ _ hnf (staged m c 0 t d0) (staged m c 1 t d1) (staged m c 2 t d2) (staged m c 3 t d3) (iblk m c 4 t) (iblk m c 5 t) (iblk m c 6 t) (iblk m c 7 t) (iblk m c 8 t) (iblk m c 9 t) (iblk m c 10 t) (iblk m c 11 t) (tabLowAt m c) (tabHighAt m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    iintro ⟨H0, H1, H2, H3, H4, H5, H6, H7, H8, H9, H10, H11, ⟨%e12, H12⟩, HS0, HS1⟩
    isplitl [HS0 HS1]
    · isplitl [HS0]
      · iexact HS0
      · iexact HS1
    isplitl [Ho]; · iexact Ho
    isplitl [H0]; · iexists d0; iexact H0
    isplitl [H1]; · iexists d1; iexact H1
    isplitl [H2]; · iexists d2; iexact H2
    isplitl [H3]; · iexists d3; iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro
    exact (View.read_writes_eq_canon _ _ _ (fun y => later_cover _ _ _ _ _ _ _ _ _ _ _ _ _ _ _ _ _ _ _ _ _ _ _ _ _ _ _ _ _ _ _ _ _ _ _ _ _ _ _ _ _ _ _ _ _ _ _ y)).trans
      ((later_out_eq _ _ _ _ _ _ _ _ _ _ _ _ _ _ _ _ _ _ _ _ _ _ _ _ _ _ _ _ _ _ _ _ _ _ _ _ _ _ _ _ _ _ _ _ _ _ _).trans (outOf_staged m c t d0 d1 d2 d3 _ _ _ _ _ _ _ _))

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.IdealLaunch.lean ====
/-
  The run of the fused layer kernel and its frame.

  @main is the call alone.  The launch hands the pipeline the eleven distinct buffers behind its thirteen windows, each
  whole; the two windows on each adjacency matrix take half a share of it each, which is all a window that only reads
  needs.  With the body obligation this gives: every weakly fair execution terminates without a fault, and every array
  ends at what the write-backs make of it, an input array at what it held.
-/
import Idealize.ShloMosaic.Lib.Pipeline.Kit
import Idealize.ShloMosaic.Lib.Pipeline.Launch
import proofs.«138006_g23888608100646_cont_8to1_832_26_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.SL.BI (bigSep bigSepL bigSep_eq_bigSepL_of_eq bigSep_congr)

open Cert.KernelIdeal Cert.KernelIdeal.Gen

variable {F : FTy → Type} [FloatOps F] [Named F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

/-- What the launch starts the pipeline's cells from. -/
def u₀ : UR sig nD τ := initOf (Pipeline.cells cfgs cellOf_inj) (Pipeline.launchToks cfgs cellOf_inj)

variable (m : (ℓ : Loc nD τ sig) → Buf (Elt F) ℓ) (ρ : Dev nD → PrngReg)

/-- The pipeline's arrays at entry, window by window, as points-tos of the buffers behind them. -/
theorem arrays_entry (c : Dev nD) :
    (dats m 0 c).arrays ((dats m 0 c).arrAt · 0)
      = bigSep Finset.univ fun w : Fin 13 =>
          ((((c : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- The eleven buffers, each whole, make the thirteen windows' arrays: an adjacency matrix is split between its two windows. -/
theorem hsplit (c : Dev nD) : Pipeline.arrBufs spec0 c (V m c) ⊢ (dats m 0 c).arrays ((dats m 0 c).arrAt · 0) := by
  rw [arrays_entry, bigSep_W0]
  have hL : (Pipeline.arrBufs spec0 c (V m c) : sProp 𝕄)
      = iprop((((c : Thread nD τ).loc main_arg1) ↦{fullShare} V m c main_arg1) ∗ (((c : Thread nD τ).loc main_arg2) ↦{fullShare} V m c main_arg2) ∗ (((c : Thread nD τ).loc main_arg0) ↦{fullShare} V m c main_arg0) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6) ∗ (((c : Thread nD τ).loc main_arg7) ↦{fullShare} V m c main_arg7) ∗ (((c : Thread nD τ).loc main_arg8) ↦{fullShare} V m c main_arg8) ∗ (((c : Thread nD τ).loc main_arg9) ↦{fullShare} V m c main_arg9) ∗ (((c : Thread nD τ).loc main_v0) ↦{fullShare} V m c main_v0)) := by
    unfold Pipeline.arrBufs
    rw [bigSep_eq_bigSepL_of_eq [main_arg1, main_arg2, main_arg0, main_arg3, main_arg4, main_arg5, main_arg6, main_arg7, main_arg8, main_arg9, main_v0] (by decide) (by decide)]
    rfl
  rw [hL]
  refine (BIClass.sep_mono (pointsTo_share (PosShare.mem_left_op_right fullShare)).1
    (BIClass.sep_mono (pointsTo_share (PosShare.mem_left_op_right fullShare)).1 .rfl)).trans ?_
  iintro ⟨⟨B1l, B1r⟩, ⟨B2l, B2r⟩, B0, B3, B4, B5, B6, B7, B8, B9, Bo⟩
  isplitl [B1l]; · iexact B1l
  isplitl [B1r]; · iexact B1r
  isplitl [B2l]; · iexact B2l
  isplitl [B2r]; · iexact B2r
  isplitl [B0]; · iexact B0
  isplitl [B3]; · iexact B3
  isplitl [B4]; · iexact B4
  isplitl [B5]; · iexact B5
  isplitl [B6]; · iexact B6
  isplitl [B7]; · iexact B7
  isplitl [B8]; · iexact B8
  isplitl [B9]; · iexact B9
  iexact Bo

-- the launch theorem's implicit arguments are found by unifying its conclusion with this one, which takes unfolding
-- plain definitions in a metavariable's type
set_option backward.isDefEq.respectTransparency.types false in
/-- From any memory with zero counters every weakly fair execution of @main on the TensorCores terminates, and every
    array of the kernel ends at what the library computes from the proof data. -/
theorem run_main : θ_run defs (onTc (τ := τ) (main (F := F))) ⟨m, fun _ => 0, ρ⟩
    (fun r => ∀ (c : Dev nD) (w : Fin cfg0.W), r.2.mem ((cfg0.win w).arr.view.loc (c : Thread nD τ)) = (dats m 0 c).arrAt w cfg0.N) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      rw [main_chain]
      simp only [Pipeline.chain, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = PhiS m c 0 (Nat.zero_le _) from rfl, PhiS_zero m c 0 _ rfl]
      iintro ⟨-, H⟩; iexact H)
    (hout := fun c => by
      rw [show (dats m 0 c).Φ (Fin.last cfg0.N) = PhiS m c (Fin.last cfg0.N).val (Nat.le_of_lt_succ (Fin.last cfg0.N).isLt) from rfl,
        PhiS_pos m c _ _ (by rw [Fin.val_last]; have : cfg0.N = 50 := N_0; omega), Phi0_eq]
      iintro ⟨H0, H1⟩
      isplitr; · iempintro
      isplitl [H0]; · iexists _; iexact H0
      iexists _; iexact H1)
    (QY := fun _ _ => True)
    (hY := fun c s' => by
      iintro ⟨-, -, HSI⟩; imodintro
      isplitr; · ipureintro; trivial
      iexact HSI)
    (hQ := fun _ h c w => (h c).1 w)

/-- info: 'Cert.KernelIdeal.Hand.run_main' depends on axioms: [propext, Classical.choice, Quot.sound] -/
#guard_msgs in #print axioms run_main

/-- THE FRAME: the idealized kernel runs to the end from any memory, faults nowhere, and its ten argument arrays end as
    they began (an input array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨((h c 4).trans ((dats (F := F) m 0 c).arrAt_in (4 : Fin 13) rfl _)),
     ((h c 0).trans ((dats (F := F) m 0 c).arrAt_in (0 : Fin 13) rfl _)),
     ((h c 2).trans ((dats (F := F) m 0 c).arrAt_in (2 : Fin 13) rfl _)),
     ((h c 5).trans ((dats (F := F) m 0 c).arrAt_in (5 : Fin 13) rfl _)),
     ((h c 6).trans ((dats (F := F) m 0 c).arrAt_in (6 : Fin 13) rfl _)),
     ((h c 7).trans ((dats (F := F) m 0 c).arrAt_in (7 : Fin 13) rfl _)),
     ((h c 8).trans ((dats (F := F) m 0 c).arrAt_in (8 : Fin 13) rfl _)),
     ((h c 9).trans ((dats (F := F) m 0 c).arrAt_in (9 : Fin 13) rfl _)),
     ((h c 10).trans ((dats (F := F) m 0 c).arrAt_in (10 : Fin 13) rfl _)),
     ((h c 11).trans ((dats (F := F) m 0 c).arrAt_in (11 : Fin 13) rfl _))⟩) (run_main m ρ)

end Cert.KernelIdeal.Hand

end
-- ==== Proof.LayerSpec.lean ====
/-
  The layer as ONE function of its ten argument arrays, entry by entry, on the extended reals.

  With x the node features (10000 x 128), A_low and A_high the two adjacency matrices (10000 x 10000), W_low, W_high and
  W_mlp the three weight matrices (128 x 128), a_low, a_high and a_mlp the three attention vectors (128 entries each) and
  T the 3 x 3 attention matrix, row r of the result is

      3 * (w_0 * o_low(r, .) + w_1 * o_high(r, .) + w_2 * o_mlp(r, .))

  where o_low = relu (A_low (x W_low)), o_high = relu (A_high (x W_high)), o_mlp = relu (x W_mlp), and (w_0, w_1, w_2) is
  the softmax over the three entries of (sigmoid (l_low, l_high, l_mlp) T) / 3 with l_* = o_*(r, .) . a_*.
  Every array here is curried (a row index, then a column index), so that nothing depends on how an index is encoded.
-/
import Idealize.ShloMosaic.PureOps.Ideal
import Idealize.ShloMosaic.Lib.ValueIdx

noncomputable section

namespace Cert.Layer

open Idealize.ShloMosaic

/-- The f32 word of 3.0 (the same word in both programs: never evaluated). -/
abbrev w3 : EReal := Ideal.ofBits .f32 0x40400000#32

/-- relu (A (x W)) at (r, f): the aggregate over all 10000 neighbours of the projected features, cut at zero. -/
def agg (A : Fin 10000 → Fin 10000 → EReal) (x : Fin 10000 → Fin 128 → EReal) (W : Fin 128 → Fin 128 → EReal)
    (r : Fin 10000) (f : Fin 128) : EReal :=
  max (∑ k : Fin 10000, A r k * ∑ j : Fin 128, x k j * W j f) 0

/-- relu (x W) at (r, f). -/
def dense (x : Fin 10000 → Fin 128 → EReal) (W : Fin 128 → Fin 128 → EReal) (r : Fin 10000) (f : Fin 128) : EReal :=
  max (∑ j : Fin 128, x r j * W j f) 0

/-- The three attention logits of a row: each feature row against its attention vector. -/
def logits (ol oh om avl avh avm : Fin 128 → EReal) : Fin 3 → EReal :=
  ![∑ j : Fin 128, ol j * avl j, ∑ j : Fin 128, oh j * avh j, ∑ j : Fin 128, om j * avm j]

/-- (sigmoid (logits) T) / 3, written with the exact third as a factor. -/
def scores (lg : Fin 3 → EReal) (att : Fin 3 → Fin 3 → EReal) (b : Fin 3) : EReal :=
  (∑ a : Fin 3, Ideal.logistic (lg a) * att a b) * ((1 / 3 : ℝ) : EReal)

/-- The largest of three scores. -/
def top (z : Fin 3 → EReal) : EReal := max (max (z 0) (z 1)) (z 2)

/-- The softmax of three scores, shifted by the largest. -/
def soft (z : Fin 3 → EReal) (b : Fin 3) : EReal :=
  Ideal.div (Ideal.exp (z b - top z)) (∑ a : Fin 3, Ideal.exp (z a - top z))

/-- One entry of a result row from the row's three feature rows. -/
def mix (ol oh om avl avh avm : Fin 128 → EReal) (att : Fin 3 → Fin 3 → EReal) (f : Fin 128) : EReal :=
  w3 * ((soft (scores (logits ol oh om avl avh avm) att) 0 * ol f
        + soft (scores (logits ol oh om avl avh avm) att) 1 * oh f)
        + soft (scores (logits ol oh om avl avh avm) att) 2 * om f)

/-- The whole layer at (r, f). -/
def layer (x : Fin 10000 → Fin 128 → EReal) (Al Ah : Fin 10000 → Fin 10000 → EReal) (Wl Wh Wm : Fin 128 → Fin 128 → EReal)
    (avl avh avm : Fin 128 → EReal) (att : Fin 3 → Fin 3 → EReal) (r : Fin 10000) (f : Fin 128) : EReal :=
  mix (agg Al x Wl r) (agg Ah x Wh r) (dense x Wm r) avl avh avm att f

end Cert.Layer

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.PayProduct.lean ====
/-
  A matrix product of rows against columns into the zero accumulator, read at an entry, at the ideal values:
  for any record of dimension numbers that contracts the left operand's columns with the right operand's rows,
  has no batch axes and keeps the left rows and the right columns in that order, entry (a, b) of the result is the
  plain sum over the contracted coordinate c of A(a, c) · B(c, b). Any sizes, any operand formats.
-/
import proofs.«138006_g23888608100646_cont_8to1_832_26_alg».proof.Proof.LibRowMatmul

noncomputable section

namespace Cert.KernelIdeal.PayValue

open Idealize.ShloMosaic Idealize.ShloMosaic.ValueIdx

/-- The kept row coordinate of the left operand is the result's row. -/
theorem lhs_row {m k n : ℕ} (D : DotDims ⟨2, ![m, k]⟩ ⟨2, ![k, n]⟩ ⟨2, ![m, n]⟩)
    (hb : D.lhsBatch = []) (hn : D.lhsNonContracting = [0]) (j : (⟨2, ![m, n]⟩ : Shape).Idx) (q : D.contr.Idx) :
    (D.lhsIdx j q 0).val = (j 0).val := by
  unfold DotDims.lhsIdx
  rw [dif_neg (by rw [hb]; exact List.not_mem_nil), dif_pos (by rw [hn]; exact List.mem_singleton.2 rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hb, hn])

/-- The kept column coordinate of the right operand is the result's column. -/
theorem rhs_col {m k n : ℕ} (D : DotDims ⟨2, ![m, k]⟩ ⟨2, ![k, n]⟩ ⟨2, ![m, n]⟩)
    (hb : D.rhsBatch = []) (hlb : D.lhsBatch = []) (hln : D.lhsNonContracting = [0]) (hn : D.rhsNonContracting = [1])
    (j : (⟨2, ![m, n]⟩ : Shape).Idx) (q : D.contr.Idx) :
    (D.rhsIdx j q 1).val = (j 1).val := by
  unfold DotDims.rhsIdx
  rw [dif_neg (by rw [hb]; exact List.not_mem_nil), dif_pos (by rw [hn]; exact List.mem_singleton.2 rfl)]
  simp only [Fin.val_cast]
  have key : ∀ (p r : Nat) (hp : p < 2) (hr : r < 2), p = r → (j ⟨p, hp⟩).val = (j ⟨r, hr⟩).val :=
    fun p r hp hr h => by subst h; rfl
  exact key _ _ _ _ (by simp [hlb, hln, hn])

/-- `(A · B)(a, b) = ∑ c, A(a, c) · B(c, b)` for a record contracting the left operand's columns with the right
    operand's rows and keeping the other two axes in order. -/
theorem prod_apply {m k n : ℕ} {φ₁ φ₂ : FTy} (D : DotDims ⟨2, ![m, k]⟩ ⟨2, ![k, n]⟩ ⟨2, ![m, n]⟩)
    (hl : D.lhsContracting = [1]) (hr : D.rhsContracting = [0])
    (hlb : D.lhsBatch = []) (hln : D.lhsNonContracting = [0]) (hrb : D.rhsBatch = []) (hrn : D.rhsNonContracting = [1])
    (hrank : D.contr.rank = 1) (hsize : D.contr.size ⟨0, by omega⟩ = k)
    (A : FVec Ideal ⟨2, ![m, k]⟩ φ₁) (B : FVec Ideal ⟨2, ![k, n]⟩ φ₂) (a : Fin m) (b : Fin n) :
    matmul D none A B (constant ⟨2, ![m, n]⟩ .f32 0x00000000#32) (ix2 a b) = ∑ c : Fin k, A (ix2 a c) * B (ix2 c b) :=
  Cert.Lib.RowMatmul.matmul_cols_apply D hl hr hrank hsize (lhs_row D hlb hln) (rhs_col D hrb hlb hln hrn) none A B a b

end Cert.KernelIdeal.PayValue

end
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.LibSideBySide.lean ====
/-
  Three arrays with the same number of rows joined along the column axis, read at an index.

  `concatenate_cols3_apply`: for arrays of `w1`, `w2` and `w3` columns (any sizes), the entry (r, q) of their
  concatenation along axis 1 comes from the first when `q < w1`, from the second at column `q - w1` when
  `q < w1 + w2`, and from the third at column `q - (w1 + w2)` otherwise. It imports only the Idealize library.
-/
import Idealize.ShloMosaic.Lib.Pipeline.Value
import Idealize.ShloMosaic.Lib.ValueIdx

namespace Cert.LibSideBySide

open Idealize.ShloMosaic Idealize.ShloMosaic.ValueIdx

variable {α : Type}

/-- The entry (r, q) of three arrays joined side by side: the piece whose span of columns holds `q`, at the column
    counted from that piece's first. -/
theorem concatenate_cols3_apply {n w1 w2 w3 w : Nat}
    (a : (⟨2, ![n, w1]⟩ : Shape).Idx → α) (b : (⟨2, ![n, w2]⟩ : Shape).Idx → α) (c : (⟨2, ![n, w3]⟩ : Shape).Idx → α)
    (hw : w = w1 + w2 + w3)
    (h : Shape.Concatenates (([⟨⟨2, ![n, w1]⟩, a⟩, ⟨⟨2, ![n, w2]⟩, b⟩, ⟨⟨2, ![n, w3]⟩, c⟩] :
      List ((s : Shape) × (s.Idx → α))).map (·.1)) ⟨2, ![n, w]⟩ 1)
    (r : Fin n) (q : Fin w) :
    concatenate ⟨2, ![n, w]⟩ 1 [⟨⟨2, ![n, w1]⟩, a⟩, ⟨⟨2, ![n, w2]⟩, b⟩, ⟨⟨2, ![n, w3]⟩, c⟩] h (ix2 r q)
      = if h1 : q.val < w1 then a (ix2 r ⟨q.val, h1⟩)
        else if h2 : q.val < w1 + w2 then b (ix2 r ⟨q.val - w1, by omega⟩)
        else c (ix2 r ⟨q.val - (w1 + w2), by have := q.isLt; omega⟩) := by
  by_cases h1 : q.val < w1
  · rw [dif_pos h1]
    refine concatenate_apply_piece 1 _ h (ix2 r q) 0 (by simp) _ a rfl rfl 0 rfl (ix2 r ⟨q.val, h1⟩) (fun ax hax => ?_) ?_
    · match ax with
      | ⟨0, _⟩ => rfl
      | ⟨1, _⟩ => exact absurd rfl hax
    · show 0 + q.val = q.val; omega
  · rw [dif_neg h1]
    by_cases h2 : q.val < w1 + w2
    · rw [dif_pos h2]
      refine concatenate_apply_piece 1 _ h (ix2 r q) 1 (by simp) _ b rfl rfl w1 (by simp) (ix2 r ⟨q.val - w1, by omega⟩)
        (fun ax hax => ?_) ?_
      · match ax with
        | ⟨0, _⟩ => rfl
        | ⟨1, _⟩ => exact absurd rfl hax
      · show w1 + (q.val - w1) = q.val; omega
    · rw [dif_neg h2]
      refine concatenate_apply_piece 1 _ h (ix2 r q) 2 (by simp) _ c rfl rfl (w1 + w2) (by simp)
        (ix2 r ⟨q.val - (w1 + w2), by have := q.isLt; omega⟩) (fun ax hax => ?_) ?_
      · match ax with
        | ⟨0, _⟩ => rfl
        | ⟨1, _⟩ => exact absurd rfl hax
      · show w1 + w2 + (q.val - (w1 + w2)) = q.val; omega

end Cert.LibSideBySide
-- ==== Proof.IdealPayMix.lean ====
/-
  The kernel body's last pure value at the ideal instance, entry by entry: the attention-weighted mix of a row block's
  three feature rows. Stage by stage: the dense rows relu (x · W); the three logit columns (each feature row against
  its attention vector) side by side; the sigmoid of the logits times the 3 × 3 attention matrix times one third;
  the softmax over the three scores, shifted by the largest; the three weights spread over the 128 features,
  multiplied with the three feature rows, summed, and scaled by the constant factor. Each stage is read at an entry
  over variables, and the stored value is their composition.
-/
import proofs.«138006_g23888608100646_cont_8to1_832_26_alg».proof.Proof.Gen.KernelIdeal.Skeleton
import proofs.«138006_g23888608100646_cont_8to1_832_26_alg».proof.Proof.LayerSpec
import proofs.«138006_g23888608100646_cont_8to1_832_26_alg».proof.Proof.PayProduct
import proofs.«138006_g23888608100646_cont_8to1_832_26_alg».proof.Proof.LibColumnForms
import proofs.«138006_g23888608100646_cont_8to1_832_26_alg».proof.Proof.LibSideBySide
import Idealize.ShloMosaic.Lib.ValueIdx
import Idealize.ShloMosaic.Lib.Pipeline.Value

noncomputable section

namespace Cert.KernelIdeal.PayValue

open Idealize.ShloMosaic Idealize.ShloMosaic.ValueIdx
open Cert.KernelIdeal Cert.KernelIdeal.Gen

/-! ## Words -/

/-- The word of −∞ denotes the bottom element. -/
theorem ofBits_ninf : Ideal.ofBits .f32 0xFF800000#32 = (⊥ : EReal) := by
  simp [Ideal.ofBits, Ideal.ieee]

/-- The named third denotes the rational 1/3. -/
theorem inv_3 : Named.named (F := Ideal) Cert.KernelIdeal.κ "inv_3" (φ := .f32) 0x3EAAAAAB#32 = ((1 / 3 : ℝ) : EReal) :=
  IdealRules.named_const.ideal_named_scalar _ _ _ _ rfl

/-- The largest of three extended reals as the fold of `max` from the bottom element. -/
theorem fold_max3 (z : Fin 3 → EReal) :
    (Finset.univ : Finset (Fin 3)).fold max ⊥ z = max (max (z 0) (z 1)) (z 2) := by
  have hu : (Finset.univ : Finset (Fin 3)) = {0, 1, 2} := by decide
  rw [hu, Finset.fold_insert (by decide), Finset.fold_insert (by decide), Finset.fold_singleton,
    max_bot_right, ← max_assoc]

/-! ## The dense rows -/

/-- relu (x · W) as the kernel spells it. -/
def mlpArr (v30 : FVec Ideal S200x128 .f32) (v31 : FVec Ideal S128x128 .f32) : FVec Ideal S200x128 .f32 :=
  maximumf (matmul dot_S200x128_S128x128_S200x128_1_0_0_1_n_n none v30 v31 (constant S200x128 .f32 0x00000000#32))
    (broadcast S200x128 (Scalar.ofBits (F := Ideal) .f32 0x00000000#32))

theorem mlpArr_apply (v30 : FVec Ideal S200x128 .f32) (v31 : FVec Ideal S128x128 .f32) (p : Fin 200) (j : Fin 128) :
    mlpArr v30 v31 (ix2 p j) = max (∑ i : Fin 128, v30 (ix2 p i) * v31 (ix2 i j)) 0 := by
  unfold mlpArr
  rw [maximumf_apply, broadcast_apply,
    prod_apply dot_S200x128_S128x128_S200x128_1_0_0_1_n_n rfl rfl rfl rfl rfl rfl rfl rfl]
  exact congrArg _ Ideal.ofBits_zero_f32

/-! ## The three logit columns, side by side -/

/-- A block of feature rows against an attention vector held as a column. -/
def logitCol (o : FVec Ideal S200x128 .f32) (a : FVec Ideal S128x1 .f32) : FVec Ideal S200x1 .f32 :=
  matmul dot_S200x128_S128x1_S200x1_1_0_0_1_n_n none o a (constant S200x1 .f32 0x00000000#32)

theorem logitCol_apply (o : FVec Ideal S200x128 .f32) (a : FVec Ideal S128x1 .f32) (p : Fin 200) :
    logitCol o a (ix2 p (0 : Fin 1)) = ∑ j : Fin 128, o (ix2 p j) * a (ix2 j (0 : Fin 1)) := by
  unfold logitCol
  exact prod_apply dot_S200x128_S128x1_S200x1_1_0_0_1_n_n rfl rfl rfl rfl rfl rfl rfl rfl o a p 0

/-- Three columns joined side by side. -/
def logitArr (c0 c1 c2 : FVec Ideal S200x1 .f32) : FVec Ideal S200x3 .f32 :=
  concatenate S200x3 1 [⟨S200x1, c0⟩, ⟨S200x1, c1⟩, ⟨S200x1, c2⟩] concatenates_S200x1_S200x1_S200x1_S200x3_d1

theorem logitArr_apply (c0 c1 c2 : FVec Ideal S200x1 .f32) (p : Fin 200) (b : Fin 3) :
    logitArr c0 c1 c2 (ix2 p b) = ![c0 (ix2 p (0 : Fin 1)), c1 (ix2 p (0 : Fin 1)), c2 (ix2 p (0 : Fin 1))] b := by
  unfold logitArr
  refine (Cert.LibSideBySide.concatenate_cols3_apply c0 c1 c2 rfl _ p b).trans ?_
  match b with
  | ⟨0, _⟩ => rfl
  | ⟨1, _⟩ => rfl
  | ⟨2, _⟩ => rfl

/-- The three logits of a row, as the specification lists them. -/
theorem logits_row (v19 v27 v34 : FVec Ideal S200x128 .f32) (v35 v37 v39 : FVec Ideal S128x1 .f32) (p : Fin 200) :
    (fun b : Fin 3 => logitArr (logitCol v19 v35) (logitCol v27 v37) (logitCol v34 v39) (ix2 p b))
      = Cert.Layer.logits (fun j => v19 (ix2 p j)) (fun j => v27 (ix2 p j)) (fun j => v34 (ix2 p j))
          (fun j => v35 (ix2 j (0 : Fin 1))) (fun j => v37 (ix2 j (0 : Fin 1))) (fun j => v39 (ix2 j (0 : Fin 1))) := by
  funext b
  rw [logitArr_apply, logitCol_apply, logitCol_apply, logitCol_apply]
  rfl

/-! ## The scores -/

/-- The sigmoid of the logits times the attention matrix, times the named third. -/
def scoreArr (lg : FVec Ideal S200x3 .f32) (v43 : FVec Ideal S3x3 .f32) : FVec Ideal S200x3 .f32 :=
  mulf (matmul dot_S200x3_S3x3_S200x3_1_0_0_1_n_n none (logistic lg) v43 (constant S200x3 .f32 0x00000000#32))
    (broadcast S200x3 (Named.named (F := Ideal) κ "inv_3" (φ := .f32) 0x3EAAAAAB#32))

theorem scoreArr_apply (lg : FVec Ideal S200x3 .f32) (v43 : FVec Ideal S3x3 .f32) (p : Fin 200) (b : Fin 3) :
    scoreArr lg v43 (ix2 p b) = Cert.Layer.scores (fun a => lg (ix2 p a)) (fun a c => v43 (ix2 a c)) b := by
  unfold scoreArr Cert.Layer.scores
  rw [mulf_apply, broadcast_apply, inv_3,
    prod_apply dot_S200x3_S3x3_S200x3_1_0_0_1_n_n rfl rfl rfl rfl rfl rfl rfl rfl]
  rfl

/-! ## The softmax over the three scores -/

/-- The row maximum of an array of three columns, spread back over the three columns. -/
def topArr (z : FVec Ideal S200x3 .f32) : FVec Ideal S200x3 .f32 :=
  broadcastTo S200x3
    (shapeCast S200x1 (multiReduction .maximumf [1] S200 z 0xFF800000#32 reduces_S200x3_S200 (.inl rfl) rfl)
      shapeCasts_S200_S200x1) broadcasts_S200x1_S200x3

theorem topArr_apply (z : FVec Ideal S200x3 .f32) (p : Fin 200) (b : Fin 3) :
    topArr z (ix2 p b) = Cert.Layer.top (fun a => z (ix2 p a)) := by
  unfold topArr Cert.Layer.top
  refine (Cert.Lib.ColumnForms.broadcastTo_a1_ab_apply _ _ p b).trans ?_
  refine (Cert.Lib.ColumnForms.shapeCast_a_a1_apply _ _ p 0).trans ?_
  refine (Cert.Lib.RowMatmul.rowMax_apply z 0xFF800000#32 reduces_S200x3_S200 (.inl rfl) rfl p).trans ?_
  rw [ofBits_ninf]
  exact fold_max3 fun a => z (ix2 p a)

/-- The exponentials of the shifted scores. -/
def expArr (z : FVec Ideal S200x3 .f32) : FVec Ideal S200x3 .f32 := exp (subf z (topArr z))

theorem expArr_apply (z : FVec Ideal S200x3 .f32) (p : Fin 200) (b : Fin 3) :
    expArr z (ix2 p b) = Ideal.exp (z (ix2 p b) - Cert.Layer.top (fun a => z (ix2 p a))) := by
  unfold expArr
  show Ideal.exp (subf z (topArr z) (ix2 p b)) = _
  rw [subf_apply, topArr_apply]

/-- The row sum of an array of three columns, spread back over the three columns. -/
def sumArr (e : FVec Ideal S200x3 .f32) : FVec Ideal S200x3 .f32 :=
  broadcastTo S200x3
    (shapeCast S200x1 (multiReduction .add [1] S200 e 0x00000000#32 reduces_S200x3_S200 (.inl rfl) rfl)
      shapeCasts_S200_S200x1) broadcasts_S200x1_S200x3

theorem sumArr_apply (e : FVec Ideal S200x3 .f32) (p : Fin 200) (b : Fin 3) :
    sumArr e (ix2 p b) = ∑ a : Fin 3, e (ix2 p a) := by
  unfold sumArr
  refine (Cert.Lib.ColumnForms.broadcastTo_a1_ab_apply _ _ p b).trans ?_
  refine (Cert.Lib.ColumnForms.shapeCast_a_a1_apply _ _ p 0).trans ?_
  exact Cert.Lib.ColumnForms.rowSum_apply e 0x00000000#32 reduces_S200x3_S200 (.inl rfl) rfl p

/-- The softmax weights. -/
def softArr (z : FVec Ideal S200x3 .f32) : FVec Ideal S200x3 .f32 := divf (expArr z) (sumArr (expArr z))

theorem softArr_apply (z : FVec Ideal S200x3 .f32) (p : Fin 200) (b : Fin 3) :
    softArr z (ix2 p b) = Cert.Layer.soft (fun a => z (ix2 p a)) b := by
  unfold softArr Cert.Layer.soft
  rw [divf_apply, sumArr_apply, expArr_apply]
  refine congrArg _ (Finset.sum_congr rfl fun a _ => ?_)
  rw [expArr_apply]

/-! ## The weighted mix -/

/-- One weight column spread over the 128 features. -/
def weightArr (w : FVec Ideal S200x3 .f32) (off : Fin 2 → Nat) (h : S200x3.Slices off S200x1) : FVec Ideal S200x128 .f32 :=
  broadcastTo S200x128 (extractStridedSlice S200x1 off w h) broadcasts_S200x1_S200x128

theorem weightArr_apply (w : FVec Ideal S200x3 .f32) (c : Nat) (hc : c < 3) (h : S200x3.Slices ![0, c] S200x1)
    (p : Fin 200) (f : Fin 128) : weightArr w ![0, c] h (ix2 p f) = w (ix2 p (⟨c, hc⟩ : Fin 3)) := by
  unfold weightArr
  refine (Cert.Lib.ColumnForms.broadcastTo_a1_ab_apply _ _ p f).trans ?_
  refine extractStridedSlice_apply _ w h _ (ix2 p (⟨c, hc⟩ : Fin 3)) fun a => ?_
  match a with
  | ⟨0, _⟩ => exact (Nat.zero_add _).symm
  | ⟨1, _⟩ => exact (Nat.add_zero _).symm

/-- The three weighted feature rows summed and scaled. -/
def mixArr (v19 v27 v34 : FVec Ideal S200x128 .f32) (w : FVec Ideal S200x3 .f32) : FVec Ideal S200x128 .f32 :=
  mulf (broadcast S200x128 (Scalar.ofBits (F := Ideal) .f32 0x40400000#32))
    (addf
      (addf (mulf (weightArr w ![0, 0] slices_S200x3_o0_0_S200x1) v19)
        (mulf (weightArr w ![0, 1] slices_S200x3_o0_1_S200x1) v27))
      (mulf (weightArr w ![0, 2] slices_S200x3_o0_2_S200x1) v34))

theorem mixArr_apply (v19 v27 v34 : FVec Ideal S200x128 .f32) (w : FVec Ideal S200x3 .f32) (p : Fin 200) (f : Fin 128) :
    mixArr v19 v27 v34 w (ix2 p f)
      = Cert.Layer.w3 * ((w (ix2 p 0) * v19 (ix2 p f) + w (ix2 p 1) * v27 (ix2 p f)) + w (ix2 p 2) * v34 (ix2 p f)) := by
  unfold mixArr
  rw [mulf_apply, broadcast_apply, addf_apply, addf_apply, mulf_apply, mulf_apply, mulf_apply,
    weightArr_apply w 0 (by decide), weightArr_apply w 1 (by decide), weightArr_apply w 2 (by decide)]
  rfl

/-! ## The stored value -/

/-- The stored value is the composition of the stages. -/
theorem pay8_eq (v19 v27 : FVec Ideal S200x128 .f32) (v30 : FVec Ideal S200x128 .f32) (v31 : FVec Ideal S128x128 .f32)
    (v35 v37 v39 : FVec Ideal S128x1 .f32) (v43 : FVec Ideal S3x3 .f32) :
    k0_pay8 (F := Ideal) v19 v27 v30 v31 v35 v37 v39 v43
      = mixArr v19 v27 (mlpArr v30 v31)
          (softArr (scoreArr (logitArr (logitCol v19 v35) (logitCol v27 v37) (logitCol (mlpArr v30 v31) v39)) v43)) :=
  rfl

/-- The attention-weighted mix of a row block at an entry: the layer's `mix` of the row's three feature rows. -/
theorem pay8_apply (v19 v27 : FVec Ideal S200x128 .f32) (v30 : FVec Ideal S200x128 .f32) (v31 : FVec Ideal S128x128 .f32)
    (v35 v37 v39 : FVec Ideal S128x1 .f32) (v43 : FVec Ideal S3x3 .f32) (p : Fin 200) (f : Fin 128) :
    k0_pay8 (F := Ideal) v19 v27 v30 v31 v35 v37 v39 v43 (ix2 p f)
      = Cert.Layer.mix (fun j => v19 (ix2 p j)) (fun j => v27 (ix2 p j))
          (fun j => max (∑ i : Fin 128, v30 (ix2 p i) * v31 (ix2 i j)) 0)
          (fun j => v35 (ix2 j 0)) (fun j => v37 (ix2 j 0)) (fun j => v39 (ix2 j 0)) (fun a b => v43 (ix2 a b)) f := by
  have hM : (fun j => mlpArr v30 v31 (ix2 p j)) = fun j => max (∑ i : Fin 128, v30 (ix2 p i) * v31 (ix2 i j)) 0 :=
    funext fun j => mlpArr_apply v30 v31 p j
  have hZ : (fun b => scoreArr (logitArr (logitCol v19 v35) (logitCol v27 v37) (logitCol (mlpArr v30 v31) v39)) v43 (ix2 p b))
      = Cert.Layer.scores (Cert.Layer.logits (fun j => v19 (ix2 p j)) (fun j => v27 (ix2 p j))
          (fun j => max (∑ i : Fin 128, v30 (ix2 p i) * v31 (ix2 i j)) 0)
          (fun j => v35 (ix2 j 0)) (fun j => v37 (ix2 j 0)) (fun j => v39 (ix2 j 0))) (fun a b => v43 (ix2 a b)) := by
    funext b
    rw [scoreArr_apply, logits_row, hM]
  rw [pay8_eq, mixArr_apply, softArr_apply, softArr_apply, softArr_apply, hZ, mlpArr_apply]
  rfl

end Cert.KernelIdeal.PayValue

end
-- ==== Proof.IdealPayloads.lean ====
/-
  The kernel body's pure values at the ideal instance, entry by entry: the two projections of the node features
  (a plain matrix product each), the two blocks of zero rows, and the two aggregates of one row block
  (a product over the 5120 leading neighbours plus a product over the following 5120 of which only the first 4880
  are neighbours at all, the others being cut to zero by a mask on the column number; then cut at zero from below).
-/
import proofs.«138006_g23888608100646_cont_8to1_832_26_alg».proof.Proof.Gen.KernelIdeal.Skeleton
import proofs.«138006_g23888608100646_cont_8to1_832_26_alg».proof.Proof.PayProduct
import Idealize.ShloMosaic.Lib.ValueIdx
import Idealize.ShloMosaic.Lib.Pipeline.Value

noncomputable section

namespace Cert.KernelIdeal.PayValue

open Idealize.ShloMosaic Idealize.ShloMosaic.ValueIdx
open Cert.KernelIdeal Cert.KernelIdeal.Gen

/-! ## The two projections and the two blocks of zero rows -/

/-- The low-pass projection `x · W` at an entry. -/
theorem pay1_apply (v70 : Vec Ideal S10000x128 .f32) (v71 : Vec Ideal S128x128 .f32) (k : Fin 10000) (f : Fin 128) :
    k0_pay1 (F := Ideal) v70 v71 (ix2 k f) = ∑ j : Fin 128, v70 (ix2 k j) * v71 (ix2 j f) := by
  unfold k0_pay1
  simp only [shapeCast_self]
  exact prod_apply dot_S10000x128_S128x128_S10000x128_1_0_0_1_n_n rfl rfl rfl rfl rfl rfl rfl rfl v70 v71 k f

/-- The high-pass projection at an entry. -/
theorem pay2_apply (v70 : Vec Ideal S10000x128 .f32) (v76 : Vec Ideal S128x128 .f32) (k : Fin 10000) (f : Fin 128) :
    k0_pay2 (F := Ideal) v70 v76 (ix2 k f) = ∑ j : Fin 128, v70 (ix2 k j) * v76 (ix2 j f) := by
  unfold k0_pay2
  simp only [shapeCast_self]
  exact prod_apply dot_S10000x128_S128x128_S10000x128_1_0_0_1_n_n rfl rfl rfl rfl rfl rfl rfl rfl v70 v76 k f

/-- The first block of padding rows holds zeros. -/
theorem pay3_apply (k : Fin 240) (f : Fin 128) : k0_pay3 (F := Ideal) (ix2 k f) = 0 := by
  unfold k0_pay3
  simp only [shapeCast_self]
  exact Ideal.ofBits_zero_f32

/-- The second block of padding rows holds zeros. -/
theorem pay4_apply (k : Fin 240) (f : Fin 128) : k0_pay4 (F := Ideal) (ix2 k f) = 0 := by
  unfold k0_pay4
  simp only [shapeCast_self]
  exact Ideal.ofBits_zero_f32

/-! ## The mask on the column number -/

/-- A column number below 5120, as a 32-bit word, is below 4880 as a signed word exactly when the number is. -/
theorem slt_small (k : Fin 5120) : (BitVec.ofNat 32 k.val).slt 4880#32 = decide (k.val < 4880) := by
  have hk := k.isLt
  rw [BitVec.slt_eq_decide]
  congr 1
  have h1 : (BitVec.ofNat 32 k.val).toInt = (k.val : Int) := by
    rw [BitVec.toInt_ofNat']
    simp only [Int.bmod]
    omega
  have h2 : (4880#32 : BitVec 32).toInt = 4880 := by decide
  rw [h1, h2]
  exact propext (by omega)

/-- The mask's bit at (p, k): one on the first 4880 columns, zero on the other 240. -/
theorem mask_apply (p : Fin 200) (k : Fin 5120) :
    k0_pay5 (ix2 p k) = if k.val < 4880 then 1#1 else 0#1 := by
  unfold k0_pay5
  show IntOp.cmpi .slt (iota .tc S200x5120 32 [1] iota_S200x5120_d1_w32 (ix2 p k)) 4880#32 = _
  rw [iota_single_apply]
  show BitVec.ofBool ((BitVec.ofNat 32 k.val).slt 4880#32) = _
  rw [slt_small]
  by_cases h : k.val < 4880
  · rw [if_pos h, decide_eq_true h]; rfl
  · rw [if_neg h, decide_eq_false h]; rfl

/-- The masked row entry: the loaded entry on the first 4880 columns, zero on the others. -/
theorem masked_apply (v6 : FVec Ideal S200x5120 .f32) (p : Fin 200) (k : Fin 5120) :
    select k0_pay5 v6 (broadcast S200x5120 (Scalar.ofBits (F := Ideal) .f32 0x00000000#32)) (ix2 p k)
      = if k.val < 4880 then v6 (ix2 p k) else 0 := by
  rw [select_apply, mask_apply, broadcast_apply]
  by_cases h : k.val < 4880
  · rw [if_pos h, if_pos h]; exact select_one _ _
  · rw [if_neg h, if_neg h]; exact (select_zero _ _).trans Ideal.ofBits_zero_f32

/-! ## The two aggregates of a row block -/

/-- A row block's aggregate as the kernel spells it: the product with the first 5120 table rows, plus the product of
    the masked second half with the following 5120 table rows, cut at zero from below. -/
def aggArr (v6 v12 : FVec Ideal S200x5120 .f32) (v13 v15 : FVec Ideal S5120x128 .f32) : FVec Ideal S200x128 .f32 :=
  maximumf
    (addf (matmul dot_S200x5120_S5120x128_S200x128_1_0_0_1_n_n none v12 v13 (constant S200x128 .f32 0x00000000#32))
      (matmul dot_S200x5120_S5120x128_S200x128_1_0_0_1_n_n none
        (select k0_pay5 v6 (broadcast S200x5120 (Scalar.ofBits (F := Ideal) .f32 0x00000000#32))) v15
        (constant S200x128 .f32 0x00000000#32)))
    (broadcast S200x128 (Scalar.ofBits (F := Ideal) .f32 0x00000000#32))

theorem aggArr_apply (v6 v12 : FVec Ideal S200x5120 .f32) (v13 v15 : FVec Ideal S5120x128 .f32) (p : Fin 200) (f : Fin 128) :
    aggArr v6 v12 v13 v15 (ix2 p f)
      = max ((∑ k : Fin 5120, v12 (ix2 p k) * v13 (ix2 k f))
          + ∑ k : Fin 5120, (if k.val < 4880 then v6 (ix2 p k) else 0) * v15 (ix2 k f)) 0 := by
  unfold aggArr
  rw [maximumf_apply, addf_apply, broadcast_apply,
    prod_apply dot_S200x5120_S5120x128_S200x128_1_0_0_1_n_n rfl rfl rfl rfl rfl rfl rfl rfl,
    prod_apply dot_S200x5120_S5120x128_S200x128_1_0_0_1_n_n rfl rfl rfl rfl rfl rfl rfl rfl]
  refine congrArg₂ max (congrArg _ (Finset.sum_congr rfl fun k _ => ?_)) Ideal.ofBits_zero_f32
  rw [masked_apply]

/-- The low-pass aggregate of a row block at an entry. -/
theorem pay6_apply (v6 v12 : Vec Ideal S200x5120 .f32) (v13 v15 : Vec Ideal S5120x128 .f32) (p : Fin 200) (f : Fin 128) :
    k0_pay6 (F := Ideal) v6 v12 v13 v15 (ix2 p f)
      = max ((∑ k : Fin 5120, v12 (ix2 p k) * v13 (ix2 k f))
          + ∑ k : Fin 5120, (if k.val < 4880 then v6 (ix2 p k) else 0) * v15 (ix2 k f)) 0 :=
  aggArr_apply v6 v12 v13 v15 p f

/-- The high-pass aggregate of a row block at an entry. -/
theorem pay7_apply (v9 v20 : Vec Ideal S200x5120 .f32) (v21 v23 : Vec Ideal S5120x128 .f32) (p : Fin 200) (f : Fin 128) :
    k0_pay7 (F := Ideal) v9 v20 v21 v23 (ix2 p f)
      = max ((∑ k : Fin 5120, v20 (ix2 p k) * v21 (ix2 k f))
          + ∑ k : Fin 5120, (if k.val < 4880 then v9 (ix2 p k) else 0) * v23 (ix2 k f)) 0 :=
  aggArr_apply v9 v20 v21 v23 p f

end Cert.KernelIdeal.PayValue

end
-- ==== Proof.SplitSum.lean ====
/-
  A sum over 10000 neighbours taken as two halves of 5120 terms each.

  The first half holds the neighbours 0 .. 5119.  The second half holds the neighbours 5120 .. 9999 in its first 4880
  places; its last 240 places lie past the end, and there the first factor is replaced by zero, so that whatever the
  second factor holds in those places does not count.  The two half sums then add up to the whole sum: this uses only
  that addition on the extended reals is commutative and associative and that zero times anything is zero, so nothing
  here needs the terms to be finite.
-/
import Idealize.ShloMosaic.PureOps.Ideal

noncomputable section

namespace Cert.Layer

/-- A sum of m + e terms whose terms from place m on are replaced by zero is the sum of the first m terms. -/
theorem sum_masked_tail (f : ℕ → EReal) (m e : ℕ) :
    ∑ n ∈ Finset.range (m + e), (if n < m then f n else 0) = ∑ n ∈ Finset.range m, f n := by
  rw [Finset.sum_range_add]
  have h2 : ∑ x ∈ Finset.range e, (if m + x < m then f (m + x) else 0) = 0 :=
    Finset.sum_eq_zero fun x _ => if_neg (by omega)
  rw [h2, add_zero]
  exact Finset.sum_congr rfl fun n hn => if_pos (Finset.mem_range.mp hn)

/-- The whole sum over 10000 neighbours from its two halves, the second masked past its 4880th place. -/
theorem split_sum (a u : Fin 10000 → EReal) (a0 a1 u0 u1 : Fin 5120 → EReal)
    (h0 : ∀ k : Fin 5120, a0 k = a ⟨k.val, by have := k.isLt; omega⟩)
    (hu0 : ∀ k : Fin 5120, u0 k = u ⟨k.val, by have := k.isLt; omega⟩)
    (h1 : ∀ k : Fin 5120, ∀ hk : k.val < 4880, a1 k = a ⟨5120 + k.val, by omega⟩)
    (hu1 : ∀ k : Fin 5120, ∀ hk : k.val < 4880, u1 k = u ⟨5120 + k.val, by omega⟩) :
    (∑ k : Fin 5120, a0 k * u0 k) + ∑ k : Fin 5120, (if k.val < 4880 then a1 k else 0) * u1 k
      = ∑ k : Fin 10000, a k * u k := by
  -- every term as a function of the neighbour's number
  let g : ℕ → EReal := fun n => if h : n < 10000 then a ⟨n, h⟩ * u ⟨n, h⟩ else 0
  have hR : ∑ k : Fin 10000, a k * u k = ∑ n ∈ Finset.range 10000, g n := by
    rw [← Fin.sum_univ_eq_sum_range]
    refine Finset.sum_congr rfl fun k _ => ?_
    simp only [g, dif_pos k.isLt, Fin.eta]
  have hA : ∑ k : Fin 5120, a0 k * u0 k = ∑ n ∈ Finset.range 5120, g n := by
    rw [← Fin.sum_univ_eq_sum_range]
    refine Finset.sum_congr rfl fun k _ => ?_
    have hk : k.val < 10000 := by have := k.isLt; omega
    simp only [g, dif_pos hk, h0 k, hu0 k]
  have hB : ∑ k : Fin 5120, (if k.val < 4880 then a1 k else 0) * u1 k
      = ∑ n ∈ Finset.range 5120, (if n < 4880 then g (5120 + n) else 0) := by
    rw [← Fin.sum_univ_eq_sum_range (fun n => if n < 4880 then g (5120 + n) else 0)]
    refine Finset.sum_congr rfl fun k _ => ?_
    by_cases hk : k.val < 4880
    · have hk' : 5120 + k.val < 10000 := by omega
      simp only [if_pos hk, g, dif_pos hk', h1 k hk, hu1 k hk]
    · simp only [if_neg hk, zero_mul]
  have hC : ∑ n ∈ Finset.range 5120, (if n < 4880 then g (5120 + n) else 0)
      = ∑ n ∈ Finset.range 4880, g (5120 + n) :=
    sum_masked_tail (fun n => g (5120 + n)) 4880 240
  rw [hA, hB, hC, hR]
  exact (Finset.sum_range_add g 5120 4880).symm

end Cert.Layer

end
-- ==== Proof.IdealOutValue.lean ====
/-
  The output block of a grid point, entry by entry, is the layer at the point's rows.

  Entry (p, f) of the block of point t is the mixed layer of row 200 t + p.  Its two aggregated branches are each the sum
  of two products over 5120 places: the first-half adjacency block against the table's rows 0 .. 5119, and the masked
  second-half block against the rows 5120 .. 10239.  The table's rows below 10000 are the projected features, so the two
  sums regroup the sum over all 10000 neighbours; the rows from 10000 on are never counted, being masked.
-/
import proofs.«138006_g23888608100646_cont_8to1_832_26_alg».proof.Proof.IdealFrameData
import proofs.«138006_g23888608100646_cont_8to1_832_26_alg».proof.Proof.IdealBlocks
import proofs.«138006_g23888608100646_cont_8to1_832_26_alg».proof.Proof.IdealPayMix
import proofs.«138006_g23888608100646_cont_8to1_832_26_alg».proof.Proof.IdealPayloads
import proofs.«138006_g23888608100646_cont_8to1_832_26_alg».proof.Proof.SplitSum
import proofs.«138006_g23888608100646_cont_8to1_832_26_alg».proof.Proof.LayerSpec
import Idealize.ShloMosaic.Lib.ValueIdx
import Idealize.ShloMosaic.Lib.Pipeline.Value

set_option maxRecDepth 16384

noncomputable section

namespace Cert.KernelIdeal.OutValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (c : Dev nD)

/-! ## The argument arrays, curried -/

/-- The low-pass adjacency matrix on core `c` at entry. -/
def aLow (r k : Fin 10000) : EReal := (cfg0.win 0).arr.view.read (Elt Ideal) (V m c (Pipeline.arrRef spec0 0)) (ix2 r k)

/-- The high-pass adjacency matrix. -/
def aHigh (r k : Fin 10000) : EReal := (cfg0.win 2).arr.view.read (Elt Ideal) (V m c (Pipeline.arrRef spec0 2)) (ix2 r k)

/-- Window 4's array on core `c` at entry, curried. -/
def xF (a : Fin 10000) (b : Fin 128) : EReal := (cfg0.win 4).arr.view.read (Elt Ideal) (V m c (Pipeline.arrRef spec0 4)) (ix2 a b)

/-- Window 4 stages its array whole. -/
theorem iblk4_apply (t : Fin cfg0.N) (a : Fin 10000) (b : Fin 128) : iblk m c 4 t (ix2 a b) = xF m c a b :=
  BlockIdx.stage_4_apply c (V m c (Pipeline.arrRef spec0 4)) t (filler 4) (ix2 a b)

/-- Window 5's array on core `c` at entry, curried. -/
def wL (a : Fin 128) (b : Fin 128) : EReal := (cfg0.win 5).arr.view.read (Elt Ideal) (V m c (Pipeline.arrRef spec0 5)) (ix2 a b)

/-- Window 5 stages its array whole. -/
theorem iblk5_apply (t : Fin cfg0.N) (a : Fin 128) (b : Fin 128) : iblk m c 5 t (ix2 a b) = wL m c a b :=
  BlockIdx.stage_5_apply c (V m c (Pipeline.arrRef spec0 5)) t (filler 5) (ix2 a b)

/-- Window 6's array on core `c` at entry, curried. -/
def wH (a : Fin 128) (b : Fin 128) : EReal := (cfg0.win 6).arr.view.read (Elt Ideal) (V m c (Pipeline.arrRef spec0 6)) (ix2 a b)

/-- Window 6 stages its array whole. -/
theorem iblk6_apply (t : Fin cfg0.N) (a : Fin 128) (b : Fin 128) : iblk m c 6 t (ix2 a b) = wH m c a b :=
  BlockIdx.stage_6_apply c (V m c (Pipeline.arrRef spec0 6)) t (filler 6) (ix2 a b)

/-- Window 7's array on core `c` at entry, curried. -/
def wM (a : Fin 128) (b : Fin 128) : EReal := (cfg0.win 7).arr.view.read (Elt Ideal) (V m c (Pipeline.arrRef spec0 7)) (ix2 a b)

/-- Window 7 stages its array whole. -/
theorem iblk7_apply (t : Fin cfg0.N) (a : Fin 128) (b : Fin 128) : iblk m c 7 t (ix2 a b) = wM m c a b :=
  BlockIdx.stage_7_apply c (V m c (Pipeline.arrRef spec0 7)) t (filler 7) (ix2 a b)

/-- Window 8's array on core `c` at entry, curried. -/
def vL2 (a : Fin 128) (b : Fin 1) : EReal := (cfg0.win 8).arr.view.read (Elt Ideal) (V m c (Pipeline.arrRef spec0 8)) (ix2 a b)

/-- Window 8 stages its array whole. -/
theorem iblk8_apply (t : Fin cfg0.N) (a : Fin 128) (b : Fin 1) : iblk m c 8 t (ix2 a b) = vL2 m c a b :=
  BlockIdx.stage_8_apply c (V m c (Pipeline.arrRef spec0 8)) t (filler 8) (ix2 a b)

/-- Window 9's array on core `c` at entry, curried. -/
def vH2 (a : Fin 128) (b : Fin 1) : EReal := (cfg0.win 9).arr.view.read (Elt Ideal) (V m c (Pipeline.arrRef spec0 9)) (ix2 a b)

/-- Window 9 stages its array whole. -/
theorem iblk9_apply (t : Fin cfg0.N) (a : Fin 128) (b : Fin 1) : iblk m c 9 t (ix2 a b) = vH2 m c a b :=
  BlockIdx.stage_9_apply c (V m c (Pipeline.arrRef spec0 9)) t (filler 9) (ix2 a b)

/-- Window 10's array on core `c` at entry, curried. -/
def vM2 (a : Fin 128) (b : Fin 1) : EReal := (cfg0.win 10).arr.view.read (Elt Ideal) (V m c (Pipeline.arrRef spec0 10)) (ix2 a b)

/-- Window 10 stages its array whole. -/
theorem iblk10_apply (t : Fin cfg0.N) (a : Fin 128) (b : Fin 1) : iblk m c 10 t (ix2 a b) = vM2 m c a b :=
  BlockIdx.stage_10_apply c (V m c (Pipeline.arrRef spec0 10)) t (filler 10) (ix2 a b)

/-- Window 11's array on core `c` at entry, curried. -/
def aT (a : Fin 3) (b : Fin 3) : EReal := (cfg0.win 11).arr.view.read (Elt Ideal) (V m c (Pipeline.arrRef spec0 11)) (ix2 a b)

/-- Window 11 stages its array whole. -/
theorem iblk11_apply (t : Fin cfg0.N) (a : Fin 3) (b : Fin 3) : iblk m c 11 t (ix2 a b) = aT m c a b :=
  BlockIdx.stage_11_apply c (V m c (Pipeline.arrRef spec0 11)) t (filler 11) (ix2 a b)

/-- The three attention vectors as vectors. -/
def vL (j : Fin 128) : EReal := vL2 m c j 0
def vH (j : Fin 128) : EReal := vH2 m c j 0
def vM (j : Fin 128) : EReal := vM2 m c j 0

/-! ## The adjacency blocks at an entry -/

theorem row_lt (t : Fin cfg0.N) (p : Fin 200) : 200 * t.val + p.val < 10000 := by
  have := t.isLt; have := BlockIdx.grid_points; have := p.isLt; omega

theorem staged0_apply (t : Fin cfg0.N) (d) (p : Fin 200) (k : Fin 5120) :
    staged m c 0 t d (ix2 p k) = aLow m c ⟨200 * t.val + p.val, row_lt t p⟩ ⟨k.val, by have := k.isLt; omega⟩ :=
  BlockIdx.stage_0_apply c (V m c (Pipeline.arrRef spec0 0)) t d p k

theorem staged1_apply (t : Fin cfg0.N) (d) (p : Fin 200) (k : Fin 5120) (hk : k.val < 4880) :
    staged m c 1 t d (ix2 p k) = aLow m c ⟨200 * t.val + p.val, row_lt t p⟩ ⟨5120 + k.val, by omega⟩ :=
  BlockIdx.stage_1_apply c (V m c (Pipeline.arrRef spec0 1)) t d p k hk

theorem staged2_apply (t : Fin cfg0.N) (d) (p : Fin 200) (k : Fin 5120) :
    staged m c 2 t d (ix2 p k) = aHigh m c ⟨200 * t.val + p.val, row_lt t p⟩ ⟨k.val, by have := k.isLt; omega⟩ :=
  BlockIdx.stage_2_apply c (V m c (Pipeline.arrRef spec0 2)) t d p k

theorem staged3_apply (t : Fin cfg0.N) (d) (p : Fin 200) (k : Fin 5120) (hk : k.val < 4880) :
    staged m c 3 t d (ix2 p k) = aHigh m c ⟨200 * t.val + p.val, row_lt t p⟩ ⟨5120 + k.val, by omega⟩ :=
  BlockIdx.stage_3_apply c (V m c (Pipeline.arrRef spec0 3)) t d p k hk

/-! ## Rows of a table and of the features -/

/-- Row k of the lower half of a table is its row k. -/
theorem rowsLo_apply (T : Vec Ideal S10240x128 .f32) (k : Fin 5120) (j : Fin 128) :
    rowsLo T (ix2 k j) = T (ix2 (⟨k.val, by have := k.isLt; omega⟩ : Fin 10240) j) := by
  unfold rowsLo
  show T ((Rect.unit (s := S10240x128) ![0, 0] S5120x128.size inb_S10240x128_S5120x128_0_0).idx (ix2 k j)) = _
  refine congrArg T ?_
  funext a; apply Fin.ext
  obtain ⟨av, ha⟩ := a
  have ha2 : av < 2 := ha
  have h01 : av = 0 ∨ av = 1 := by omega
  rcases h01 with rfl | rfl
  · show 0 + 1 * k.val = k.val; omega
  · show 0 + 1 * j.val = j.val; omega

/-- Row k of the upper half of a table is its row 5120 + k. -/
theorem rowsHi_apply (T : Vec Ideal S10240x128 .f32) (k : Fin 5120) (j : Fin 128) :
    rowsHi T (ix2 k j) = T (ix2 (⟨5120 + k.val, by have := k.isLt; omega⟩ : Fin 10240) j) := by
  unfold rowsHi
  show T ((Rect.unit (s := S10240x128) ![5120, 0] S5120x128.size inb_S10240x128_S5120x128_5120_0).idx (ix2 k j)) = _
  refine congrArg T ?_
  funext a; apply Fin.ext
  obtain ⟨av, ha⟩ := a
  have ha2 : av < 2 := ha
  have h01 : av = 0 ∨ av = 1 := by omega
  rcases h01 with rfl | rfl
  · show 5120 + 1 * k.val = 5120 + k.val; omega
  · show 0 + 1 * j.val = j.val; omega

/-- The grid's one coordinate at point t is t. -/
theorem coord_val : ∀ t : Fin cfg0.N, (grid0.coords t 0).val = t.val :=
  (by decide +kernel : ∀ t : Fin grid0.N, (grid0.coords t 0).val = t.val)

/-- Row p of the feature rows a point loads is the features' row 200 t + p. -/
theorem featRows_apply (X : Vec Ideal S10000x128 .f32) (t : Fin cfg0.N) (p : Fin 200) (j : Fin 128) :
    featRows (grid0.coords t) X (ix2 p j) = X (ix2 (⟨200 * t.val + p.val, row_lt t p⟩ : Fin 10000) j) := by
  unfold featRows
  show X ((Rect.unit (s := S10000x128) (k0_off1 (grid0.coords t)) S200x128.size (Cert.KernelIdeal.Gen.k0_off1_inb (grid0.coords t))).idx (ix2 p j)) = _
  refine congrArg X ?_
  funext a; apply Fin.ext
  obtain ⟨av, ha⟩ := a
  have ha2 : av < 2 := ha
  have h01 : av = 0 ∨ av = 1 := by omega
  have e := k0_off1_eq (grid0.coords t)
  rcases h01 with rfl | rfl
  · show k0_off1 (grid0.coords t) 0 + 1 * p.val = 200 * t.val + p.val
    rw [e]; show 200 * (grid0.coords t 0).val + 1 * p.val = _; rw [coord_val]; omega
  · show k0_off1 (grid0.coords t) 1 + 1 * j.val = j.val
    rw [e]; show 0 + 1 * j.val = j.val; omega

/-- A row below 10000 is not among the zero rows 10000 .. 10239. -/
theorem row_not_pad (r : Fin 10000) (j : Fin 128) : (ix2 (⟨r.val, by have := r.isLt; omega⟩ : Fin 10240) j : S10240x128.Idx)
      ∉ (Rect.unit (s := S10240x128) ![10000, 0] S240x128.size inb_S10240x128_S240x128_10000_0).set := by
  rw [Rect.mem_set_unit]
  intro h
  have h0 := (h 0).1
  have e1 : ((ix2 (⟨r.val, by have := r.isLt; omega⟩ : Fin 10240) j : S10240x128.Idx) 0).val = r.val := rfl
  have e2 : (![10000, 0] : Fin 2 → ℕ) 0 = 10000 := rfl
  rw [e1, e2] at h0
  have := r.isLt
  omega

/-- It is the same row of the block of rows 0 .. 9999. -/
theorem row_in_proj (r : Fin 10000) (j : Fin 128) : (ix2 (⟨r.val, by have := r.isLt; omega⟩ : Fin 10240) j : S10240x128.Idx)
      = (Rect.unit (s := S10240x128) ![0, 0] S10000x128.size inb_S10240x128_S10000x128_0_0).emb (ix2 r j) := by
  funext a; apply Fin.ext
  obtain ⟨av, ha⟩ := a
  have ha2 : av < 2 := ha
  have h01 : av = 0 ∨ av = 1 := by omega
  rcases h01 with rfl | rfl
  · show r.val = 0 + 1 * r.val; omega
  · show j.val = 0 + 1 * j.val; omega

/-- A row below 10000 of a table the first point filled is the projected feature row. -/
theorem tabPieces_apply (P : Vec Ideal S10000x128 .f32) (Z : Vec Ideal S240x128 .f32) (r : Fin 10000) (j : Fin 128) :
    View.canon (tabPieces P Z) (ix2 (⟨r.val, by have := r.isLt; omega⟩ : Fin 10240) j) = P (ix2 r j) :=
  (View.canon_cons_of_not_mem
      (⟨Rect.unit (s := S10240x128) ![10000, 0] S240x128.size inb_S10240x128_S240x128_10000_0, Z⟩ : View.Piece (Elt Ideal) S10240x128 .f32)
      [(⟨Rect.unit (s := S10240x128) ![0, 0] S10000x128.size inb_S10240x128_S10000x128_0_0, P⟩ : View.Piece (Elt Ideal) S10240x128 .f32)]
      (row_not_pad r j)).trans
    ((congrArg (View.canon [(⟨Rect.unit (s := S10240x128) ![0, 0] S10000x128.size inb_S10240x128_S10000x128_0_0, P⟩ : View.Piece (Elt Ideal) S10240x128 .f32)]) (row_in_proj r j)).trans
      (View.canon_cons_emb (Rect.unit (s := S10240x128) ![0, 0] S10000x128.size inb_S10240x128_S10000x128_0_0) P [] (ix2 r j)))

/-- The low-pass table at a row below 10000: the features' row times the low-pass weights. -/
theorem tabLow_apply (r : Fin 10000) (j : Fin 128) :
    tabLowAt m c (ix2 (⟨r.val, by have := r.isLt; omega⟩ : Fin 10240) j) = ∑ i : Fin 128, xF m c r i * wL m c i j := by
  unfold tabLowAt tabLowOf
  rw [tabPieces_apply, PayValue.pay1_apply]
  refine Finset.sum_congr rfl fun i _ => ?_
  rw [iblk4_apply, iblk5_apply]

/-- The high-pass table likewise. -/
theorem tabHigh_apply (r : Fin 10000) (j : Fin 128) :
    tabHighAt m c (ix2 (⟨r.val, by have := r.isLt; omega⟩ : Fin 10240) j) = ∑ i : Fin 128, xF m c r i * wH m c i j := by
  unfold tabHighAt tabHighOf
  rw [tabPieces_apply, PayValue.pay2_apply]
  refine Finset.sum_congr rfl fun i _ => ?_
  rw [iblk4_apply, iblk6_apply]

/-! ## The output block -/

/-- The low-pass branch of the block at (p, j) is the aggregate of row 200 t + p. -/
theorem branchLow_apply (t : Fin cfg0.N) (p : Fin 200) (j : Fin 128) :
    k0_pay6 (F := Ideal) (staged m c 1 t (filler 1)) (staged m c 0 t (filler 0)) (rowsLo (tabLowAt m c)) (rowsHi (tabLowAt m c)) (ix2 p j)
      = Cert.Layer.agg (aLow m c) (xF m c) (wL m c) ⟨200 * t.val + p.val, row_lt t p⟩ j := by
  rw [PayValue.pay6_apply]
  unfold Cert.Layer.agg
  refine congrArg (fun s => max s 0) ?_
  exact Cert.Layer.split_sum (fun k => aLow m c ⟨200 * t.val + p.val, row_lt t p⟩ k) (fun k => ∑ i : Fin 128, xF m c k i * wL m c i j)
    (fun k => staged m c 0 t (filler 0) (ix2 p k)) (fun k => staged m c 1 t (filler 1) (ix2 p k))
    (fun k => rowsLo (tabLowAt m c) (ix2 k j)) (fun k => rowsHi (tabLowAt m c) (ix2 k j))
    (fun k => staged0_apply m c t _ p k)
    (fun k => (rowsLo_apply _ k j).trans (tabLow_apply m c ⟨k.val, by have := k.isLt; omega⟩ j))
    (fun k hk => staged1_apply m c t _ p k hk)
    (fun k hk => (rowsHi_apply _ k j).trans (tabLow_apply m c ⟨5120 + k.val, by omega⟩ j))

/-- The high-pass branch likewise. -/
theorem branchHigh_apply (t : Fin cfg0.N) (p : Fin 200) (j : Fin 128) :
    k0_pay7 (F := Ideal) (staged m c 3 t (filler 3)) (staged m c 2 t (filler 2)) (rowsLo (tabHighAt m c)) (rowsHi (tabHighAt m c)) (ix2 p j)
      = Cert.Layer.agg (aHigh m c) (xF m c) (wH m c) ⟨200 * t.val + p.val, row_lt t p⟩ j := by
  rw [PayValue.pay7_apply]
  unfold Cert.Layer.agg
  refine congrArg (fun s => max s 0) ?_
  exact Cert.Layer.split_sum (fun k => aHigh m c ⟨200 * t.val + p.val, row_lt t p⟩ k) (fun k => ∑ i : Fin 128, xF m c k i * wH m c i j)
    (fun k => staged m c 2 t (filler 2) (ix2 p k)) (fun k => staged m c 3 t (filler 3) (ix2 p k))
    (fun k => rowsLo (tabHighAt m c) (ix2 k j)) (fun k => rowsHi (tabHighAt m c) (ix2 k j))
    (fun k => staged2_apply m c t _ p k)
    (fun k => (rowsLo_apply _ k j).trans (tabHigh_apply m c ⟨k.val, by have := k.isLt; omega⟩ j))
    (fun k hk => staged3_apply m c t _ p k hk)
    (fun k hk => (rowsHi_apply _ k j).trans (tabHigh_apply m c ⟨5120 + k.val, by omega⟩ j))

/-- Entry (p, f) of the output block of point t is the layer at row 200 t + p. -/
theorem out_apply (t : Fin cfg0.N) (p : Fin 200) (f : Fin 128) :
    outAt m c t (ix2 p f)
      = Cert.Layer.layer (xF m c) (aLow m c) (aHigh m c) (wL m c) (wH m c) (wM m c) (vL m c) (vH m c) (vM m c) (aT m c)
          ⟨200 * t.val + p.val, row_lt t p⟩ f := by
  unfold outAt outOf
  rw [PayValue.pay8_apply]
  unfold Cert.Layer.layer
  have e1 : (fun j => k0_pay6 (F := Ideal) (staged m c 1 t (filler 1)) (staged m c 0 t (filler 0)) (rowsLo (tabLowAt m c)) (rowsHi (tabLowAt m c)) (ix2 p j))
      = Cert.Layer.agg (aLow m c) (xF m c) (wL m c) ⟨200 * t.val + p.val, row_lt t p⟩ := funext fun j => branchLow_apply m c t p j
  have e2 : (fun j => k0_pay7 (F := Ideal) (staged m c 3 t (filler 3)) (staged m c 2 t (filler 2)) (rowsLo (tabHighAt m c)) (rowsHi (tabHighAt m c)) (ix2 p j))
      = Cert.Layer.agg (aHigh m c) (xF m c) (wH m c) ⟨200 * t.val + p.val, row_lt t p⟩ := funext fun j => branchHigh_apply m c t p j
  have e3 : (fun j => max (∑ i : Fin 128, featRows (grid0.coords t) (iblk m c 4 t) (ix2 p i) * iblk m c 7 t (ix2 i j)) 0)
      = Cert.Layer.dense (xF m c) (wM m c) ⟨200 * t.val + p.val, row_lt t p⟩ := funext fun j => by
    unfold Cert.Layer.dense
    refine congrArg (fun s => max s 0) (Finset.sum_congr rfl fun i _ => ?_)
    rw [featRows_apply, iblk4_apply, iblk7_apply]
  have e4 : (fun j => iblk m c 8 t (ix2 j 0)) = vL m c := funext fun j => iblk8_apply m c t j 0
  have e5 : (fun j => iblk m c 9 t (ix2 j 0)) = vH m c := funext fun j => iblk9_apply m c t j 0
  have e6 : (fun j => iblk m c 10 t (ix2 j 0)) = vM m c := funext fun j => iblk10_apply m c t j 0
  have e7 : (fun a b => iblk m c 11 t (ix2 a b)) = aT m c := funext fun a => funext fun b => iblk11_apply m c t a b
  rw [e1, e2, e3, e4, e5, e6, e7]

end Cert.KernelIdeal.OutValue

end
-- ==== Proof.LibLogistic.lean ====
/-
  The logistic function on the extended reals in the two spellings programs use: the single operation, and the
  quotient 1 / (1 + e^(−x)) written out with the float word of 1.0 standing for both ones.  They are one function of
  every extended real x: the single operation is defined as that quotient with the number one, and the word of 1.0
  denotes the number one.  (At −∞ the quotient reads 1 / (1 + ∞) = 0 and at +∞ it reads 1 / (1 + 0) = 1, by the
  conventions of the division and of the exponential; nothing here depends on x being finite.)
-/
import Idealize.ShloMosaic.PureOps.Ideal

noncomputable section

namespace Cert.LibLogistic

open Idealize.ShloMosaic

/-- The float word of 1.0 denotes the number one. -/
theorem one_word : Ideal.ofBits .f32 0x3F800000#32 = 1 := by
  simp [Ideal.ofBits, Ideal.ieee, -EReal.coe_mul]; norm_num

/-- The quotient spelling, with the word of 1.0 for both ones, is the logistic function, for every extended real. -/
theorem quotient_eq_logistic (x : EReal) :
    Ideal.div (Ideal.ofBits .f32 0x3F800000#32) (Ideal.ofBits .f32 0x3F800000#32 + Ideal.exp (-x)) = Ideal.logistic x := by
  rw [one_word]; rfl

end Cert.LibLogistic

end
-- ==== Proof.LibHostRowMax.lean ====
/-
  The host's maximum along the rows of a two-dimensional array, for any sizes: at row r it is the fold of max from the
  starting value over the row's entries.
-/
import Idealize.ShloMosaic.PureOps.Ideal.Laws
import Idealize.ShloMosaic.PureOps.Reduce
import Idealize.ShloMosaic.Lib.ValueIdx

noncomputable section

namespace Cert.Lib.HostRowMax

open Idealize.ShloMosaic Idealize.ShloMosaic.ValueIdx

/-- The host's reduce-maximum along axis 1 of an a × b array, read at row r. -/
theorem hostRowMax_apply {a b : ℕ} {φ : FTy} {u : Shape} (x : FVec Ideal ⟨2, ![a, b]⟩ φ) (init : u.Idx → Ideal φ)
    (h' : Shape.ReducesTo ⟨2, ![a, b]⟩ [1] ⟨1, ![a]⟩) (h : Shape.Reduces ⟨2, ![a, b]⟩ [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  refine (Host.reduce_eq_fold_single FloatOps.maximumf x init h' h hu (ix1 r)).trans ?_
  refine congrArg (fun f => Finset.fold max (init (Shape.Idx.first hu)) f (Finset.univ : Finset (Fin b))) ?_
  funext k
  refine congrArg x ?_
  funext ax; apply Fin.ext
  match ax with
  | ⟨0, _⟩ => rfl
  | ⟨1, _⟩ => rfl

end Cert.Lib.HostRowMax

end
-- ==== Proof.RefLayer.lean ====
/-
  The reference program, one stage group at a time, read at explicit coordinates on the extended reals and identified
  with the layer's specification: the three feature arrays relu (A (x W)) and relu (x W); the column of three attention
  logits and their logistic gates; the scores (the gates against the 3 x 3 matrix, over three); the softmax weights of
  the three scores (shifted by their maximum); and the weighted combination of the three feature arrays, times three.
-/
import proofs.«138006_g23888608100646_cont_8to1_832_26_alg».proof.Proof.Gen.ReferenceIdeal.Read
import proofs.«138006_g23888608100646_cont_8to1_832_26_alg».proof.Proof.LayerSpec
import proofs.«138006_g23888608100646_cont_8to1_832_26_alg».proof.Proof.LibSideBySide
import proofs.«138006_g23888608100646_cont_8to1_832_26_alg».proof.Proof.LibLogistic
import proofs.«138006_g23888608100646_cont_8to1_832_26_alg».proof.Proof.LibHostRowMax

noncomputable section

namespace Cert.ReferenceIdeal.RefValue

open Cert.ReferenceIdeal Cert.ReferenceIdeal.Gen Idealize.ShloMosaic Idealize.ShloMosaic.ValueIdx

/-! ## The three feature arrays -/

/-- A rank-2 array of extended reals as a function of its two coordinates. -/
abbrev cur {a b : ℕ} (x : (⟨2, ![a, b]⟩ : Shape).Idx → EReal) : Fin a → Fin b → EReal := fun p q => x (ix2 p q)

/-- A one-column array as a function of its row coordinate. -/
abbrev col {a : ℕ} (x : (⟨2, ![a, 1]⟩ : Shape).Idx → EReal) : Fin a → EReal := fun j => x (ix2 j 0)

variable (x0 : (⟨S10000x128, .f32⟩ : BufTy).Contents (Elt Ideal))
  (x1 x2 : (⟨S10000x10000, .f32⟩ : BufTy).Contents (Elt Ideal))
  (x3 x4 x5 : (⟨S128x128, .f32⟩ : BufTy).Contents (Elt Ideal))
  (x6 x7 x8 : (⟨S128x1, .f32⟩ : BufTy).Contents (Elt Ideal))
  (x9 : (⟨S3x3, .f32⟩ : BufTy).Contents (Elt Ideal))

/-- x W at (k, f): the sum over the 128 input features. -/
theorem proj_apply (W : (⟨S128x128, .f32⟩ : BufTy).Contents (Elt Ideal)) (k : Fin 10000) (f : Fin 128) :
    Read.val_main_v0 (F := Ideal) x0 W (ix2 k f) = ∑ j : Fin 128, cur x0 k j * cur W j f := by
  rw [Read.val_main_v0_apply]
  refine Finset.sum_congr rfl fun j _ => ?_
  have el : Read.lidx_main_v0 (ix2 k f) j = ix2 k j := funext fun a => Fin.ext (by match a with | ⟨0, _⟩ => rfl | ⟨1, _⟩ => rfl)
  have er : Read.ridx_main_v0 (ix2 k f) j = ix2 j f := funext fun a => Fin.ext (by match a with | ⟨0, _⟩ => rfl | ⟨1, _⟩ => rfl)
  rw [el, er]

/-- A (x W) at (r, f): the sum over the 10000 neighbours of the projected features. -/
theorem gather_apply (A : (⟨S10000x10000, .f32⟩ : BufTy).Contents (Elt Ideal))
    (W : (⟨S128x128, .f32⟩ : BufTy).Contents (Elt Ideal)) (r : Fin 10000) (f : Fin 128) :
    Read.val_main_v1 (F := Ideal) x0 A W (ix2 r f)
      = ∑ k : Fin 10000, cur A r k * ∑ j : Fin 128, cur x0 k j * cur W j f := by
  rw [Read.val_main_v1_apply]
  refine Finset.sum_congr rfl fun k _ => ?_
  have el : Read.lidx_main_v1 (ix2 r f) k = ix2 r k := funext fun a => Fin.ext (by match a with | ⟨0, _⟩ => rfl | ⟨1, _⟩ => rfl)
  have er : Read.ridx_main_v1 (ix2 r f) k = ix2 k f := funext fun a => Fin.ext (by match a with | ⟨0, _⟩ => rfl | ⟨1, _⟩ => rfl)
  rw [el, er, proj_apply]

/-- The low-pass branch relu (A_low (x W_low)) at (r, f). -/
theorem feat_low_apply (r : Fin 10000) (f : Fin 128) :
    Read.val_main_v2 (F := Ideal) x0 x1 x3 (ix2 r f) = Cert.Layer.agg (cur x1) (cur x0) (cur x3) r f := by
  rw [Read.val_main_v2_apply, Read.val_main_call0_v0_apply, Read.val_main_call0_cst_apply, gather_apply]
  simp only [Ideal.maximumf_def, Ideal.ofBits_def, Ideal.ofBits_zero_f32]
  rfl

/-- The high-pass branch relu (A_high (x W_high)) at (r, f). -/
theorem feat_high_apply (r : Fin 10000) (f : Fin 128) :
    Read.val_main_v5 (F := Ideal) x0 x2 x4 (ix2 r f) = Cert.Layer.agg (cur x2) (cur x0) (cur x4) r f := by
  rw [Read.val_main_v5_apply, Read.val_main_call1_v0_apply, Read.val_main_call1_cst_apply]
  rw [show Read.val_main_v4 (F := Ideal) x0 x2 x4 = Read.val_main_v1 (F := Ideal) x0 x2 x4 from rfl, gather_apply]
  simp only [Ideal.maximumf_def, Ideal.ofBits_def, Ideal.ofBits_zero_f32]
  rfl

/-- The plain branch relu (x W_mlp) at (r, f). -/
theorem feat_mlp_apply (r : Fin 10000) (f : Fin 128) :
    Read.val_main_v7 (F := Ideal) x0 x5 (ix2 r f) = Cert.Layer.dense (cur x0) (cur x5) r f := by
  rw [Read.val_main_v7_apply, Read.val_main_call2_v0_apply, Read.val_main_call2_cst_apply]
  rw [show Read.val_main_v6 (F := Ideal) x0 x5 = Read.val_main_v0 (F := Ideal) x0 x5 from rfl, proj_apply]
  simp only [Ideal.maximumf_def, Ideal.ofBits_def, Ideal.ofBits_zero_f32]
  rfl

/-! ## The logits column and the gates -/

/-- The three attention logits of row r, as the specification forms them from the row's three feature rows. -/
abbrev rowLogits (r : Fin 10000) : Fin 3 → EReal :=
  Cert.Layer.logits (Cert.Layer.agg (cur x1) (cur x0) (cur x3) r) (Cert.Layer.agg (cur x2) (cur x0) (cur x4) r)
    (Cert.Layer.dense (cur x0) (cur x5) r) (col x6) (col x7) (col x8)

/-- The low-pass feature row against its attention vector. -/
theorem logit_low_apply (r : Fin 10000) :
    Read.val_main_v8 (F := Ideal) x0 x1 x3 x6 (ix2 r (0 : Fin 1))
      = ∑ j : Fin 128, Cert.Layer.agg (cur x1) (cur x0) (cur x3) r j * col x6 j := by
  rw [Read.val_main_v8_apply]
  refine Finset.sum_congr rfl fun j _ => ?_
  have el : Read.lidx_main_v8 (ix2 r (0 : Fin 1)) j = ix2 r j := funext fun a => Fin.ext (by match a with | ⟨0, _⟩ => rfl | ⟨1, _⟩ => rfl)
  have er : Read.ridx_main_v8 (ix2 r (0 : Fin 1)) j = ix2 j (0 : Fin 1) := funext fun a => Fin.ext (by match a with | ⟨0, _⟩ => rfl | ⟨1, _⟩ => rfl)
  rw [el, er, feat_low_apply]

/-- The high-pass feature row against its attention vector. -/
theorem logit_high_apply (r : Fin 10000) :
    Read.val_main_v9 (F := Ideal) x0 x2 x4 x7 (ix2 r (0 : Fin 1))
      = ∑ j : Fin 128, Cert.Layer.agg (cur x2) (cur x0) (cur x4) r j * col x7 j := by
  rw [Read.val_main_v9_apply]
  refine Finset.sum_congr rfl fun j _ => ?_
  have el : Read.lidx_main_v9 (ix2 r (0 : Fin 1)) j = ix2 r j := funext fun a => Fin.ext (by match a with | ⟨0, _⟩ => rfl | ⟨1, _⟩ => rfl)
  have er : Read.ridx_main_v9 (ix2 r (0 : Fin 1)) j = ix2 j (0 : Fin 1) := funext fun a => Fin.ext (by match a with | ⟨0, _⟩ => rfl | ⟨1, _⟩ => rfl)
  rw [el, er, feat_high_apply]

/-- The plain feature row against its attention vector. -/
theorem logit_mlp_apply (r : Fin 10000) :
    Read.val_main_v10 (F := Ideal) x0 x5 x8 (ix2 r (0 : Fin 1))
      = ∑ j : Fin 128, Cert.Layer.dense (cur x0) (cur x5) r j * col x8 j := by
  rw [Read.val_main_v10_apply]
  refine Finset.sum_congr rfl fun j _ => ?_
  have el : Read.lidx_main_v10 (ix2 r (0 : Fin 1)) j = ix2 r j := funext fun a => Fin.ext (by match a with | ⟨0, _⟩ => rfl | ⟨1, _⟩ => rfl)
  have er : Read.ridx_main_v10 (ix2 r (0 : Fin 1)) j = ix2 j (0 : Fin 1) := funext fun a => Fin.ext (by match a with | ⟨0, _⟩ => rfl | ⟨1, _⟩ => rfl)
  rw [el, er, feat_mlp_apply]

/-- The three one-column logit arrays side by side: column b of row r is the b-th logit of the row. -/
theorem logits_apply (r : Fin 10000) (b : Fin 3) :
    Read.val_main_v11 (F := Ideal) x0 x1 x2 x3 x4 x5 x6 x7 x8 (ix2 r b) = rowLogits x0 x1 x2 x3 x4 x5 x6 x7 x8 r b := by
  unfold Read.val_main_v11
  refine (Cert.LibSideBySide.concatenate_cols3_apply (Read.val_main_v8 (F := Ideal) x0 x1 x3 x6)
    (Read.val_main_v9 (F := Ideal) x0 x2 x4 x7) (Read.val_main_v10 (F := Ideal) x0 x5 x8) rfl _ r b).trans ?_
  match b with
  | ⟨0, _⟩ =>
    rw [dif_pos (show (0 : ℕ) < 1 by decide)]
    exact logit_low_apply x0 x1 x3 x6 r
  | ⟨1, _⟩ =>
    rw [dif_neg (show ¬ (1 : ℕ) < 1 by decide), dif_pos (show (1 : ℕ) < 1 + 1 by decide)]
    exact logit_high_apply x0 x2 x4 x7 r
  | ⟨2, _⟩ =>
    rw [dif_neg (show ¬ (2 : ℕ) < 1 by decide), dif_neg (show ¬ (2 : ℕ) < 1 + 1 by decide)]
    exact logit_mlp_apply x0 x5 x8 r

/-- The gate 1 / (1 + e^(−l)) of each logit is the logistic function of it. -/
theorem gate_apply (r : Fin 10000) (b : Fin 3) :
    Read.val_main_v17 (F := Ideal) x0 x1 x2 x3 x4 x5 x6 x7 x8 (ix2 r b)
      = Ideal.logistic (rowLogits x0 x1 x2 x3 x4 x5 x6 x7 x8 r b) := by
  rw [Read.val_main_v17_apply, Read.val_main_v16_apply, Read.val_main_cst_0_apply, Read.val_main_v15_apply,
    Read.val_main_v14_apply, Read.val_main_cst_apply, Read.val_main_v13_apply, Read.val_main_v12_apply, logits_apply]
  simp only [Ideal.hostDivf_def, Ideal.addf_def, Ideal.hostUnary_exp_def, Ideal.hostNegf_def, Ideal.negf_def,
    Ideal.ofBits_def]
  exact Cert.LibLogistic.quotient_eq_logistic _

/-! ## The scores -/

/-- The float word of 3.0 denotes the number three. -/
theorem three_word : Ideal.ofBits .f32 0x40400000#32 = ((3 : ℝ) : EReal) := by
  simp [Ideal.ofBits, Ideal.ieee, -EReal.coe_mul]; norm_num

/-- The three scores of row r, as the specification forms them. -/
abbrev rowScores (r : Fin 10000) : Fin 3 → EReal :=
  Cert.Layer.scores (rowLogits x0 x1 x2 x3 x4 x5 x6 x7 x8 r) (cur x9)

/-- The gates against the 3 x 3 matrix, divided by three: the quotient by the number three is the product with a third. -/
theorem scores_apply (r : Fin 10000) (b : Fin 3) :
    Read.val_main_v20 (F := Ideal) x0 x1 x2 x3 x4 x5 x6 x7 x8 x9 (ix2 r b)
      = rowScores x0 x1 x2 x3 x4 x5 x6 x7 x8 x9 r b := by
  rw [Read.val_main_v20_apply, Read.val_main_v19_apply, Read.val_main_cst_1_apply, Read.val_main_v18_apply]
  simp only [Ideal.hostDivf_def, Ideal.ofBits_def]
  rw [three_word, Ideal.div_coe (by norm_num : (3 : ℝ) ≠ 0)]
  show _ = (∑ a : Fin 3, Ideal.logistic (rowLogits x0 x1 x2 x3 x4 x5 x6 x7 x8 r a) * cur x9 a b) * ((1 / 3 : ℝ) : EReal)
  refine congrArg (· * ((1 / 3 : ℝ) : EReal)) (Finset.sum_congr rfl fun a _ => ?_)
  have el : Read.lidx_main_v18 (ix2 r b) a = ix2 r a := funext fun a => Fin.ext (by match a with | ⟨0, _⟩ => rfl | ⟨1, _⟩ => rfl)
  have er : Read.ridx_main_v18 (ix2 r b) a = ix2 a b := funext fun a => Fin.ext (by match a with | ⟨0, _⟩ => rfl | ⟨1, _⟩ => rfl)
  rw [el, er, gate_apply]

/-! ## The softmax weights -/

/-- The float word 0xFF800000 denotes minus infinity. -/
theorem ninf_word : Ideal.ofBits .f32 0xFF800000#32 = ⊥ := by
  simp [Ideal.ofBits, Ideal.ieee]

/-- The fold of max over three entries from minus infinity is the largest of the three. -/
theorem fold_max_three (z : Fin 3 → EReal) :
    (Finset.univ : Finset (Fin 3)).fold max ⊥ z = max (max (z 0) (z 1)) (z 2) := by
  have hu : (Finset.univ : Finset (Fin 3)) = {0, 1, 2} := by decide
  rw [hu, Finset.fold_insert (by decide), Finset.fold_insert (by decide), Finset.fold_singleton, max_bot_right,
    max_assoc]

/-- The row maximum (a reduction from minus infinity, then a maximum with minus infinity) is the largest score. -/
theorem rowmax_apply (r : Fin 10000) :
    Read.val_main_v23 (F := Ideal) x0 x1 x2 x3 x4 x5 x6 x7 x8 x9 (ix1 r)
      = Cert.Layer.top (rowScores x0 x1 x2 x3 x4 x5 x6 x7 x8 x9 r) := by
  rw [Read.val_main_v23_apply, Read.val_main_v22_apply, Read.val_main_cst_3_apply]
  unfold Read.val_main_v21
  rw [Cert.Lib.HostRowMax.hostRowMax_apply (Read.val_main_v20 (F := Ideal) x0 x1 x2 x3 x4 x5 x6 x7 x8 x9)
    (Read.val_main_cst_2 (F := Ideal)) reducesTo_S10000x3_S10000_d1 (by decide) h_S_ r, Read.val_main_cst_2_apply]
  simp only [Ideal.maximumf_def, Ideal.ofBits_def, ninf_word, scores_apply, max_bot_left]
  exact fold_max_three _

/-- The shifted exponential of a score. -/
theorem shifted_apply (r : Fin 10000) (b : Fin 3) :
    Read.val_main_v27 (F := Ideal) x0 x1 x2 x3 x4 x5 x6 x7 x8 x9 (ix2 r b)
      = Ideal.exp (rowScores x0 x1 x2 x3 x4 x5 x6 x7 x8 x9 r b
          - Cert.Layer.top (rowScores x0 x1 x2 x3 x4 x5 x6 x7 x8 x9 r)) := by
  have e25 : Read.idx_main_v25 (ix2 r b) = ix2 r (0 : Fin 1) := funext fun a => Fin.ext (by match a with | ⟨0, _⟩ => rfl | ⟨1, _⟩ => rfl)
  have e24 : Read.idx_main_v24 (ix2 r (0 : Fin 1)) = ix1 r := funext fun a => Fin.ext (by match a with | ⟨0, _⟩ => rfl)
  rw [Read.val_main_v27_apply, Read.val_main_v26_apply, Read.val_main_v25_apply, e25, Read.val_main_v24_apply, e24,
    rowmax_apply, scores_apply]
  simp only [Ideal.hostUnary_exp_def, Ideal.subf_def]

/-- The sum of the three shifted exponentials of a row (a reduction from zero). -/
theorem denom_apply (r : Fin 10000) :
    Read.val_main_v28 (F := Ideal) x0 x1 x2 x3 x4 x5 x6 x7 x8 x9 (ix1 r)
      = ∑ a : Fin 3, Ideal.exp (rowScores x0 x1 x2 x3 x4 x5 x6 x7 x8 x9 r a
          - Cert.Layer.top (rowScores x0 x1 x2 x3 x4 x5 x6 x7 x8 x9 r)) := by
  rw [Read.val_main_v28_apply, Read.val_main_cst_4_apply]
  simp only [Ideal.ofBits_def, Ideal.ofBits_zero_f32, zero_add]
  refine Finset.sum_congr rfl fun a _ => ?_
  have e28 : Read.idx_main_v28 (ix1 r) a = ix2 r a := funext fun a => Fin.ext (by match a with | ⟨0, _⟩ => rfl | ⟨1, _⟩ => rfl)
  rw [e28, shifted_apply]

/-- The softmax weight of score b of row r. -/
theorem weight_apply (r : Fin 10000) (b : Fin 3) :
    Read.val_main_v31 (F := Ideal) x0 x1 x2 x3 x4 x5 x6 x7 x8 x9 (ix2 r b)
      = Cert.Layer.soft (rowScores x0 x1 x2 x3 x4 x5 x6 x7 x8 x9 r) b := by
  have e30 : Read.idx_main_v30 (ix2 r b) = ix2 r (0 : Fin 1) := funext fun a => Fin.ext (by match a with | ⟨0, _⟩ => rfl | ⟨1, _⟩ => rfl)
  have e29 : Read.idx_main_v29 (ix2 r (0 : Fin 1)) = ix1 r := funext fun a => Fin.ext (by match a with | ⟨0, _⟩ => rfl)
  rw [Read.val_main_v31_apply, Read.val_main_v30_apply, e30, Read.val_main_v29_apply, e29, denom_apply, shifted_apply]
  simp only [Ideal.hostDivf_def]
  rfl

/-! ## The weighted combination -/

/-- The first weight column, sliced, reshaped and broadcast along the features. -/
theorem spread_low_apply (r : Fin 10000) (f : Fin 128) :
    Read.val_main_v41 (F := Ideal) x0 x1 x2 x3 x4 x5 x6 x7 x8 x9 (ix2 r f)
      = Cert.Layer.soft (rowScores x0 x1 x2 x3 x4 x5 x6 x7 x8 x9 r) 0 := by
  have e41 : Read.idx_main_v41 (ix2 r f) = ix2 r (0 : Fin 1) := funext fun a => Fin.ext (by match a with | ⟨0, _⟩ => rfl | ⟨1, _⟩ => rfl)
  have e34 : Read.idx_main_v34 (ix2 r (0 : Fin 1)) = ix1 r := funext fun a => Fin.ext (by match a with | ⟨0, _⟩ => rfl)
  have e33 : Read.idx_main_v33 (ix1 r) = ix2 r (0 : Fin 1) :=
    funext fun a => Fin.ext (by match a with | ⟨0, _⟩ => exact Nat.div_one _ | ⟨1, _⟩ => rfl)
  have e32 : Read.idx_main_v32 (ix2 r (0 : Fin 1)) = ix2 r (0 : Fin 3) := funext fun a => Fin.ext (by match a with | ⟨0, _⟩ => rfl | ⟨1, _⟩ => rfl)
  rw [Read.val_main_v41_apply, e41, Read.val_main_v34_apply, e34, Read.val_main_v33_apply, e33,
    Read.val_main_v32_apply, e32, weight_apply]

/-- The second weight column, sliced, reshaped and broadcast along the features. -/
theorem spread_high_apply (r : Fin 10000) (f : Fin 128) :
    Read.val_main_v43 (F := Ideal) x0 x1 x2 x3 x4 x5 x6 x7 x8 x9 (ix2 r f)
      = Cert.Layer.soft (rowScores x0 x1 x2 x3 x4 x5 x6 x7 x8 x9 r) 1 := by
  have e43 : Read.idx_main_v43 (ix2 r f) = ix2 r (0 : Fin 1) := funext fun a => Fin.ext (by match a with | ⟨0, _⟩ => rfl | ⟨1, _⟩ => rfl)
  have e37 : Read.idx_main_v37 (ix2 r (0 : Fin 1)) = ix1 r := funext fun a => Fin.ext (by match a with | ⟨0, _⟩ => rfl)
  have e36 : Read.idx_main_v36 (ix1 r) = ix2 r (0 : Fin 1) :=
    funext fun a => Fin.ext (by match a with | ⟨0, _⟩ => exact Nat.div_one _ | ⟨1, _⟩ => rfl)
  have e35 : Read.idx_main_v35 (ix2 r (0 : Fin 1)) = ix2 r (1 : Fin 3) := funext fun a => Fin.ext (by match a with | ⟨0, _⟩ => rfl | ⟨1, _⟩ => rfl)
  rw [Read.val_main_v43_apply, e43, Read.val_main_v37_apply, e37, Read.val_main_v36_apply, e36,
    Read.val_main_v35_apply, e35, weight_apply]

/-- The third weight column, sliced, reshaped and broadcast along the features. -/
theorem spread_mlp_apply (r : Fin 10000) (f : Fin 128) :
    Read.val_main_v46 (F := Ideal) x0 x1 x2 x3 x4 x5 x6 x7 x8 x9 (ix2 r f)
      = Cert.Layer.soft (rowScores x0 x1 x2 x3 x4 x5 x6 x7 x8 x9 r) 2 := by
  have e46 : Read.idx_main_v46 (ix2 r f) = ix2 r (0 : Fin 1) := funext fun a => Fin.ext (by match a with | ⟨0, _⟩ => rfl | ⟨1, _⟩ => rfl)
  have e40 : Read.idx_main_v40 (ix2 r (0 : Fin 1)) = ix1 r := funext fun a => Fin.ext (by match a with | ⟨0, _⟩ => rfl)
  have e39 : Read.idx_main_v39 (ix1 r) = ix2 r (0 : Fin 1) :=
    funext fun a => Fin.ext (by match a with | ⟨0, _⟩ => exact Nat.div_one _ | ⟨1, _⟩ => rfl)
  have e38 : Read.idx_main_v38 (ix2 r (0 : Fin 1)) = ix2 r (2 : Fin 3) := funext fun a => Fin.ext (by match a with | ⟨0, _⟩ => rfl | ⟨1, _⟩ => rfl)
  rw [Read.val_main_v46_apply, e46, Read.val_main_v40_apply, e40, Read.val_main_v39_apply, e39,
    Read.val_main_v38_apply, e38, weight_apply]

/-- The reference's result at (r, f) is the layer of the ten argument arrays at (r, f). -/
theorem ref_layer_apply (r : Fin 10000) (f : Fin 128) :
    Read.val_main_v50 (F := Ideal) x0 x1 x2 x3 x4 x5 x6 x7 x8 x9 (ValueIdx.ix2 r f)
      = Cert.Layer.layer (fun a b => x0 (ValueIdx.ix2 a b)) (fun a b => x1 (ValueIdx.ix2 a b))
          (fun a b => x2 (ValueIdx.ix2 a b)) (fun a b => x3 (ValueIdx.ix2 a b)) (fun a b => x4 (ValueIdx.ix2 a b))
          (fun a b => x5 (ValueIdx.ix2 a b)) (fun j => x6 (ValueIdx.ix2 j 0)) (fun j => x7 (ValueIdx.ix2 j 0))
          (fun j => x8 (ValueIdx.ix2 j 0)) (fun a b => x9 (ValueIdx.ix2 a b)) r f := by
  rw [Read.val_main_v50_apply, Read.val_main_v49_apply, Read.val_main_cst_5_apply, Read.val_main_v48_apply,
    Read.val_main_v47_apply, Read.val_main_v45_apply, Read.val_main_v44_apply, Read.val_main_v42_apply,
    spread_low_apply, spread_high_apply, spread_mlp_apply, feat_low_apply, feat_high_apply, feat_mlp_apply]
  simp only [Ideal.mulf_def, Ideal.addf_def, Ideal.ofBits_def]
  rfl

end Cert.ReferenceIdeal.RefValue

end
-- ==== Proof.IdealRunValue.lean ====
/-
  The result array after the run is the layer, and the two programs' results are one function of the arguments.

  Each grid point writes back its output block, the fifty blocks of 200 rows cover the 10000 rows, and entry (p, f) of
  point t's block is the layer at row 200 t + p: so the array ends holding the layer of the argument arrays as the
  program was started with them.  The reference's result, read index by index, is the same layer.
-/
import proofs.«138006_g23888608100646_cont_8to1_832_26_alg».proof.Proof.IdealLaunch
import proofs.«138006_g23888608100646_cont_8to1_832_26_alg».proof.Proof.IdealOutValue
import proofs.«138006_g23888608100646_cont_8to1_832_26_alg».proof.Proof.RefLayer
import Idealize.ShloMosaic.Lib.Pipeline.Value

set_option maxRecDepth 16384

noncomputable section

namespace Cert.KernelIdeal.OutValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

/-- The layer of core `c`'s argument arrays at (r, f). -/
def layerAt (r : Fin 10000) (f : Fin 128) : EReal :=
  Cert.Layer.layer (xF m c) (aLow m c) (aHigh m c) (wL m c) (wH m c) (wM m c) (vL m c) (vH m c) (vM m c) (aT m c) r f

/-- The same as an array. -/
def layerArr : S10000x128.Idx → EReal := fun i => layerAt m c (i 0) (i 1)

/-- What point t writes back is block t of the layer. -/
theorem flushed_eq (t : Fin cfg0.N) :
    (dats m 0 c).flushed 12 t = ((cfg0.win 12).blk t).view.read (Elt Ideal) (layerArr m c) := by
  show (cfg0.win 12).cut (grid0.coords t) ((dats m 0 c).after 12 t) = _
  rw [after_12]
  obtain ⟨e0, e1⟩ := BlockIdx.facts_12 t
  funext j
  obtain ⟨p, f, rfl⟩ : ∃ (p : Fin 200) (f : Fin 128), j = ix2 p f := ⟨j 0, j 1, eq_ix2 j⟩
  show outAt m c t (ix2 p f) = layerAt m c ((((cfg0.win 12).blk t).view.emb (ix2 p f)) 0) ((((cfg0.win 12).blk t).view.emb (ix2 p f)) 1)
  rw [out_apply]
  have h0 : (((cfg0.win 12).blk t).view.emb (ix2 p f)) 0 = (⟨200 * t.val + p.val, row_lt t p⟩ : Fin 10000) :=
    Fin.ext (by show win0_12.index t (0 : Fin 2) * 200 + 1 * p.val = 200 * t.val + p.val; rw [e0]; omega)
  have h1 : (((cfg0.win 12).blk t).view.emb (ix2 p f)) 1 = f :=
    Fin.ext (by show win0_12.index t (1 : Fin 2) * 128 + 1 * f.val = f.val; rw [e1]; omega)
  rw [h0, h1]
  rfl

/-- The result array after the run. -/
theorem final : (dats m 0 c).arrAt 12 cfg0.N = layerArr m c :=
  (dats m 0 c).arrAt_eq_of_cover 12 (layerArr m c) (fun t _ => flushed_eq m c t)
    (fun i => ⟨BlockIdx.pointOf (i 0), flush0_12 _, by rw [← View.setOn_univ]; exact BlockIdx.mem_out_block_pointOf i⟩)

/-- The kernel's run, read: the result array at the layer, the arguments as they were. -/
theorem run : θ_run defs (onTc (τ := τ) (main (F := Ideal))) ⟨m, fun _ => 0, ρ⟩ (fun r => ∀ c : Dev nD,
      r.2.mem ((c.tc : Thread nD τ).loc main_v0) = layerArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c 12).trans (final m c),
     ((h c 4).trans ((dats (F := Ideal) m 0 c).arrAt_in (4 : Fin 13) rfl _)),
     ((h c 0).trans ((dats (F := Ideal) m 0 c).arrAt_in (0 : Fin 13) rfl _)),
     ((h c 2).trans ((dats (F := Ideal) m 0 c).arrAt_in (2 : Fin 13) rfl _)),
     ((h c 5).trans ((dats (F := Ideal) m 0 c).arrAt_in (5 : Fin 13) rfl _)),
     ((h c 6).trans ((dats (F := Ideal) m 0 c).arrAt_in (6 : Fin 13) rfl _)),
     ((h c 7).trans ((dats (F := Ideal) m 0 c).arrAt_in (7 : Fin 13) rfl _)),
     ((h c 8).trans ((dats (F := Ideal) m 0 c).arrAt_in (8 : Fin 13) rfl _)),
     ((h c 9).trans ((dats (F := Ideal) m 0 c).arrAt_in (9 : Fin 13) rfl _)),
     ((h c 10).trans ((dats (F := Ideal) m 0 c).arrAt_in (10 : Fin 13) rfl _)),
     ((h c 11).trans ((dats (F := Ideal) m 0 c).arrAt_in (11 : Fin 13) rfl _))⟩) (Hand.run_main m ρ)

end Cert.KernelIdeal.OutValue

namespace Cert.ReferenceIdeal.RefValue

open Idealize.ShloMosaic Idealize.ShloMosaic.ValueIdx

/-- The reference's result, as an array, is the layer of its arguments entry by entry. -/
theorem ref_layer_eq (x0 : (⟨S10000x128, .f32⟩ : BufTy).Contents (Elt Ideal)) (x1 x2 : (⟨S10000x10000, .f32⟩ : BufTy).Contents (Elt Ideal))
    (x3 x4 x5 : (⟨S128x128, .f32⟩ : BufTy).Contents (Elt Ideal)) (x6 x7 x8 : (⟨S128x1, .f32⟩ : BufTy).Contents (Elt Ideal))
    (x9 : (⟨S3x3, .f32⟩ : BufTy).Contents (Elt Ideal)) :
    Read.val_main_v50 (F := Ideal) x0 x1 x2 x3 x4 x5 x6 x7 x8 x9
      = fun i => Cert.Layer.layer (fun a b => x0 (ix2 a b)) (fun a b => x1 (ix2 a b)) (fun a b => x2 (ix2 a b))
          (fun a b => x3 (ix2 a b)) (fun a b => x4 (ix2 a b)) (fun a b => x5 (ix2 a b)) (fun j => x6 (ix2 j 0))
          (fun j => x7 (ix2 j 0)) (fun j => x8 (ix2 j 0)) (fun a b => x9 (ix2 a b)) (i 0) (i 1) := by
  funext i
  obtain ⟨r, f, rfl⟩ : ∃ (r : Fin 10000) (f : Fin 128), i = ix2 r f := ⟨i 0, i 1, eq_ix2 i⟩
  exact ref_layer_apply x0 x1 x2 x3 x4 x5 x6 x7 x8 x9 r f

end Cert.ReferenceIdeal.RefValue

end
-- ==== Proof.lean ====
/-
  The certificate of the fused graph-convolution layer kernel against its reference.

  The kernel computes, for the 200 rows of each of fifty grid points, the layer
      3 * (w_0 * relu (A_low (x W_low)) + w_1 * relu (A_high (x W_high)) + w_2 * relu (x W_mlp)),
  the weights a softmax of a third of the sigmoid of the three branches' attention logits times a 3 x 3 matrix.  It takes
  each adjacency row block in two halves of 5120 columns (the second masked past column 4880, the projected features
  padded with zero rows), which regroups the reference's sum over the 10000 neighbours: the two results are equal on the
  extended reals, with the third an exact rational.  The three programs each run to the end from any memory and leave
  their arguments unchanged; the idealized kernel differs from the kernel in naming that one constant.
-/
import proofs.«138006_g23888608100646_cont_8to1_832_26_alg».proof.Defs
import proofs.«138006_g23888608100646_cont_8to1_832_26_alg».proof.Proof.Gen.Kernel
import proofs.«138006_g23888608100646_cont_8to1_832_26_alg».proof.Proof.Gen.Kernel.Skeleton
import proofs.«138006_g23888608100646_cont_8to1_832_26_alg».proof.Proof.Gen.Kernel.Launch
import proofs.«138006_g23888608100646_cont_8to1_832_26_alg».proof.Proof.Gen.Kernel.Points
import proofs.«138006_g23888608100646_cont_8to1_832_26_alg».proof.Proof.Gen.KernelIdeal
import proofs.«138006_g23888608100646_cont_8to1_832_26_alg».proof.Proof.Gen.KernelIdeal.Skeleton
import proofs.«138006_g23888608100646_cont_8to1_832_26_alg».proof.Proof.Gen.KernelIdeal.Launch
import proofs.«138006_g23888608100646_cont_8to1_832_26_alg».proof.Proof.Gen.KernelIdeal.Points
import proofs.«138006_g23888608100646_cont_8to1_832_26_alg».proof.Proof.Gen.ReferenceIdeal
import proofs.«138006_g23888608100646_cont_8to1_832_26_alg».proof.Proof.Gen.Pre_finite_inputs
import proofs.«138006_g23888608100646_cont_8to1_832_26_alg».proof.Proof.Gen.ReferenceIdeal.Run
import proofs.«138006_g23888608100646_cont_8to1_832_26_alg».proof.Proof.Gen.ReferenceIdeal.Read
import proofs.«138006_g23888608100646_cont_8to1_832_26_alg».proof.Proof.WordLaunch
import proofs.«138006_g23888608100646_cont_8to1_832_26_alg».proof.Proof.IdealRunValue
import Idealize.ShloMosaic.Adequacy
import Idealize.ShloMosaic.Init

noncomputable section

namespace Cert.Proof

open Idealize.ShloMosaic Idealize.SL.Sem Cert.Kernel

/-- The kernel runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one constant the idealization names is the third. -/
theorem preserves : Cert.preserves_Kernel_KernelIdeal :=
  IdealRules.named_const.statement Cert.KernelIdeal.κ "inv_3" .f32 0x3EAAAAAB#32 ((1 / 3 : ℝ) : EReal) rfl

/-- From memories that agree on the ten arguments both programs end with the layer of those arguments in their result. -/
theorem algebraic : Cert.algebraic_KernelIdeal_ReferenceIdeal := by
  intro m ρ m' ρ' _ hagree
  refine ⟨fun c => Cert.KernelIdeal.OutValue.layerArr m c, Cert.KernelIdeal.OutValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.ReferenceIdeal.RefValue.ref_layer_eq]
  obtain ⟨h0, h1, h2, h3, h4, h5, h6, h7, h8, h9⟩ := hagree c
  rw [h0, h1, h2, h3, h4, h5, h6, h7, h8, h9]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
